-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S2x640000 : Shape := ⟨2, ![2, 640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg4 : FVec F S3x128 .f32) (main_arg5 : FVec F S3x128x128 .f32) (main_arg6 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S50000x128 .f32) (main_arg1 : FVec F S3x128x128 .f32) (main_arg2 : FVec F S3x128 .f32) (main_arg3 : FVec F S3x128 .f32) (main_arg4 : FVec F S3x128 .f32) (main_arg5 : FVec F S3x128x128 .f32) (main_arg6 : FVec F S3x128 .f32) (main_arg7 : IVec S2x640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_arg6 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 147
  | .vmem => 54
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x128, .f32⟩
  | 4 => ⟨S3x128, .f32⟩
  | 5 => ⟨S3x128x128, .f32⟩
  | 6 => ⟨S3x128, .f32⟩
  | 7 => ⟨S2x640000, .i32⟩
  | 8 => ⟨S1x640000, .i32⟩
  | 9 => ⟨S640000, .i32⟩
  | 10 => ⟨S1x640000, .i32⟩
  | 11 => ⟨S640000, .i32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x128, .f32⟩
  | 21 => ⟨S_, .f32⟩
  | 22 => ⟨S50000x128, .f32⟩
  | 23 => ⟨S640000x1, .i32⟩
  | 24 => ⟨S50000x128, .f32⟩
  | 25 => ⟨S50000x128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S50000x128, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S1x128, .f32⟩
  | 46 => ⟨S128, .f32⟩
  | 47 => ⟨S1x128, .f32⟩
  | 48 => ⟨S1x128, .f32⟩
  | 49 => ⟨S128, .f32⟩
  | 50 => ⟨S1x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S50000x128, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000x128, .f32⟩
  | 66 => ⟨S_, .f32⟩
  | 67 => ⟨S50000x128, .f32⟩
  | 68 => ⟨S640000x1, .i32⟩
  | 69 => ⟨S50000x128, .f32⟩
  | 70 => ⟨S50000x128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S50000x128, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S1x128x128, .f32⟩
  | 97 => ⟨S128x128, .f32⟩
  | 98 => ⟨S1x128, .f32⟩
  | 99 => ⟨S128, .f32⟩
  | 100 => ⟨S1x128, .f32⟩
  | 101 => ⟨S50000x128, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S_, .f32⟩
  | 112 => ⟨S50000x128, .f32⟩
  | 113 => ⟨S640000x1, .i32⟩
  | 114 => ⟨S50000x128, .f32⟩
  | 115 => ⟨S50000x128, .f32⟩
  | 116 => ⟨S1x128x128, .f32⟩
  | 117 => ⟨S128x128, .f32⟩
  | 118 => ⟨S1x128, .f32⟩
  | 119 => ⟨S128, .f32⟩
  | 120 => ⟨S1x128, .f32⟩
  | 121 => ⟨S50000x128, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S_, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S128, .f32⟩
  | 9 => ⟨S1x128, .f32⟩
  | 10 => ⟨S1x128, .f32⟩
  | 11 => ⟨S128, .f32⟩
  | 12 => ⟨S1x128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_4 : Ref sig .tc := ⟨.hbm, 57, rfl⟩
abbrev main_v41 : Ref sig .tc := ⟨.hbm, 58, rfl⟩
abbrev main_v42 : Ref sig .tc := ⟨.hbm, 59, rfl⟩
abbrev main_c_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_10 : Ref sig .tc := ⟨.hbm, 102, rfl⟩
abbrev main_v78 : Ref sig .tc := ⟨.hbm, 103, rfl⟩
abbrev main_v79 : Ref sig .tc := ⟨.hbm, 104, rfl⟩
abbrev main_c_11 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94_0 : Ref sig .tc := ⟨.hbm, 121, rfl⟩
abbrev main_v94_1 : Ref sig .tc := ⟨.hbm, 122, rfl⟩
abbrev main_v94_2 : Ref sig .tc := ⟨.hbm, 123, rfl⟩
abbrev main_cst_13 : Ref sig .tc := ⟨.hbm, 124, rfl⟩
abbrev main_v95 : Ref sig .tc := ⟨.hbm, 125, rfl⟩
abbrev main_v96 : Ref sig .tc := ⟨.hbm, 126, rfl⟩
abbrev main_cst_14 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_15 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg5_0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc4_sem4_0 : DmaSem sig := 42
abbrev cc4_sem5_0 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v57_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v76) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v88) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v94_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v94_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v102) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v108) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v110) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v113) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v114) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 219
  | .vmem => 0
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x128, .f32⟩
  | 4 => ⟨S3x128, .f32⟩
  | 5 => ⟨S3x128x128, .f32⟩
  | 6 => ⟨S3x128, .f32⟩
  | 7 => ⟨S2x640000, .i32⟩
  | 8 => ⟨S1x640000, .i32⟩
  | 9 => ⟨S640000, .i32⟩
  | 10 => ⟨S1x640000, .i32⟩
  | 11 => ⟨S640000, .i32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x128, .f32⟩
  | 21 => ⟨S_, .f32⟩
  | 22 => ⟨S50000x128, .f32⟩
  | 23 => ⟨S640000x1, .i32⟩
  | 24 => ⟨S50000x128, .f32⟩
  | 25 => ⟨S50000x128, .f32⟩
  | 26 => ⟨S1x128x128, .f32⟩
  | 27 => ⟨S128x128, .f32⟩
  | 28 => ⟨S50000x128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S_, .f32⟩
  | 35 => ⟨S128, .f32⟩
  | 36 => ⟨S_, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S50000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S128, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S640000x128, .f32⟩
  | 91 => ⟨S_, .f32⟩
  | 92 => ⟨S50000x128, .f32⟩
  | 93 => ⟨S640000x1, .i32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S128, .f32⟩
  | 106 => ⟨S_, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S50000x128, .f32⟩
  | 113 => ⟨S_, .f32⟩
  | 114 => ⟨S128, .f32⟩
  | 115 => ⟨S_, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S1x128x128, .f32⟩
  | 14 => ⟨S128x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S_, .f32⟩
  | 34 => ⟨S50000x128, .f32⟩
  | 35 => ⟨S640000x1, .i32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S1x128x128, .f32⟩
  | 84 => ⟨S128x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call0_cst : Ref sig .tc := ⟨.hbm, 68, rfl⟩
abbrev main_call0_v0 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_call1_cst : Ref sig .tc := ⟨.hbm, 79, rfl⟩
abbrev main_call1_v0 : Ref sig .tc := ⟨.hbm, 80, rfl⟩
abbrev main_v61 : Ref sig .tc := ⟨.hbm, 81, rfl⟩
abbrev main_c_6 : Ref sig .tc := ⟨.hbm, 82, rfl⟩
abbrev main_v62 : Ref sig .tc := ⟨.hbm, 83, rfl⟩
abbrev main_v63 : Ref sig .tc := ⟨.hbm, 84, rfl⟩
abbrev main_c_7 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_8 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_9 : Ref sig .tc := ⟨.hbm, 104, rfl⟩
abbrev main_v81 : Ref sig .tc := ⟨.hbm, 105, rfl⟩
abbrev main_cst_10 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_11 : Ref sig .tc := ⟨.hbm, 113, rfl⟩
abbrev main_v88 : Ref sig .tc := ⟨.hbm, 114, rfl⟩
abbrev main_cst_12 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_13 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_call2_cst : Ref sig .tc := ⟨.hbm, 138, rfl⟩
abbrev main_call2_v0 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_call3_cst : Ref sig .tc := ⟨.hbm, 149, rfl⟩
abbrev main_call3_v0 : Ref sig .tc := ⟨.hbm, 150, rfl⟩
abbrev main_v119 : Ref sig .tc := ⟨.hbm, 151, rfl⟩
abbrev main_c_14 : Ref sig .tc := ⟨.hbm, 152, rfl⟩
abbrev main_v120 : Ref sig .tc := ⟨.hbm, 153, rfl⟩
abbrev main_v121 : Ref sig .tc := ⟨.hbm, 154, rfl⟩
abbrev main_c_15 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_16 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_17 : Ref sig .tc := ⟨.hbm, 174, rfl⟩
abbrev main_v139 : Ref sig .tc := ⟨.hbm, 175, rfl⟩
abbrev main_cst_18 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_cst_19 : Ref sig .tc := ⟨.hbm, 183, rfl⟩
abbrev main_v146 : Ref sig .tc := ⟨.hbm, 184, rfl⟩
abbrev main_cst_20 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_21 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_call4_cst : Ref sig .tc := ⟨.hbm, 208, rfl⟩
abbrev main_call4_v0 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel program's run, with its result array named.

  The program is twelve segments: six stretches of host operations alternating with six pipelined kernel calls.
  The contents of every buffer at each segment boundary are a fold from the launch memory: a stretch of host
  operations applies them in order, a kernel call leaves each of its arrays at what its write-backs leave and
  every other buffer as it was. The last boundary's contents are `W12`. Every weakly fair execution terminates
  without a fault in a state whose unscoped buffers hold `W12`; read at the result buffer that is the first
  conjunct below, and read at the eight arguments (which no segment writes) it is the frame.
-/
import proofs.«168398_j7327214207515_1_alg».proof.Proof.Gen.KernelIdeal.Frame

set_option maxRecDepth 16384

noncomputable section

namespace Cert.KernelIdeal.KV

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the
    arguments as launched. -/
theorem run_value : θ_run defs (onTc (τ := τ) (main (F := F))) ⟨m, fun _ => 0, ρ⟩ (fun r => ∀ c : Dev nD,
      r.2.mem ((c.tc : Thread nD τ).loc main_v114) = W12 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v114 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.KV

end
-- ==== Proof.Spec.lean ====
/-
  What one layer of the network computes, written over plain index types, in the two arrangements the two programs
  use.

  A layer takes the node features h (50000 rows of 128 numbers). First every node adds to its own row the rows of the
  nodes that send it an edge; that aggregation is the same array operation in both programs and is carried here as
  an unopened function. Then a two-layer perceptron with a batch normalisation in the middle acts on the rows:
      y      = z · w1 + b1                         (a 128 × 128 product per row, plus a bias row)
      μ(q)   = (Σ_p y(p,q)) / 50000                (the column means)
      v(q)   = the column variances
      a(p,q) = max(((y(p,q) − μ(q)) · rsqrt(v(q) + ε)) · γ(q) + β(q), 0)
      out    = a · w2 + b2,  followed by max(·, 0) in every layer but the last.
  The two arrangements differ only in the variance: one takes the mean of the squares minus the square of the mean,
  cut off below at zero (`varK`), the other the mean of the squared deviations, each of its sums started from a zero
  (`varR`). On real numbers the two are the same number; on the extended reals they need not be, which is why the
  equality of the two layers (proved elsewhere) asks for real entries.
-/
import Idealize.ShloMosaic.PureOps.Ideal
import Idealize.ShloMosaic.Lib.ValueIdx

noncomputable section

open scoped BigOperators
open Idealize.ShloMosaic Idealize.ShloMosaic.ValueIdx

namespace Cert.Gin

/-- Node features: 50000 rows, 128 columns. -/
abbrev Mat := Fin 50000 → Fin 128 → EReal
/-- A 128 × 128 weight. -/
abbrev Wt := Fin 128 → Fin 128 → EReal
/-- One row of 128 numbers (a bias, a scale, a column statistic). -/
abbrev Row := Fin 128 → EReal

/-- The float zero both programs write, as an extended real. -/
def zero32 : EReal := Ideal.ofBits .f32 0x00000000#32
/-- The small constant added to the variance, as an extended real (the same word in both programs). -/
def eps32 : EReal := Ideal.ofBits .f32 0x3727C5AC#32
/-- The number of rows, 50000, as both programs write it. -/
def cnt32 : EReal := Ideal.ofBits .f32 0x47435000#32

/-- Cutting off below at the float zero. -/
def relu (x : EReal) : EReal := max x zero32

/-- A row-by-row product with a 128 × 128 weight, plus a bias row. -/
def lin (z : Mat) (w : Wt) (b : Row) : Mat := fun p q => (∑ i, z p i * w i q) + b q

/-- Column means, the sum taken bare. -/
def meanK (y : Mat) : Row := fun q => Ideal.div (∑ p, y p q) cnt32
/-- Column variances as mean of squares minus squared mean, cut off below at zero. -/
def varK (y : Mat) : Row := fun q => max (Ideal.div (∑ p, y p q * y p q) cnt32 - meanK y q * meanK y q) zero32
/-- Column means, the sum started from a zero. -/
def meanR (y : Mat) : Row := fun q => Ideal.div (zero32 + ∑ p, y p q) cnt32
/-- Column variances as the mean of the squared deviations, the sum started from a zero. -/
def varR (y : Mat) : Row :=
  fun q => Ideal.div (zero32 + ∑ p, (y p q - meanR y q) * (y p q - meanR y q)) cnt32

/-- Normalising with given column statistics, then scale and shift. -/
def norm (y : Mat) (mu var gam bet : Row) : Mat :=
  fun p q => ((y p q - mu q) * Ideal.rsqrt (var q + eps32)) * gam q + bet q

/-- The last step of a layer: cut off below at zero in every layer but the last. -/
def fin (last : Bool) (o : Mat) : Mat := match last with
  | true => o
  | false => fun p q => relu (o p q)

/-- The perceptron of one layer with given column statistics. -/
def mlpWith (mu var : Mat → Row) (last : Bool) (z : Mat) (w1 : Wt) (b1 gam bet : Row) (w2 : Wt) (b2 : Row) : Mat :=
  fin last (lin (fun p q => relu (norm (lin z w1 b1) (mu (lin z w1 b1)) (var (lin z w1 b1)) gam bet p q)) w2 b2)

/-- The perceptron, first arrangement. -/
def mlpK := mlpWith meanK varK
/-- The perceptron, second arrangement. -/
def mlpR := mlpWith meanR varR

/-! ## Arrays and matrices -/

/-- An array of the programs' shape read as a matrix. -/
def toMat (a : (⟨2, ![50000, 128]⟩ : Shape).Idx → EReal) : Mat := fun p q => a (ix2 p q)
/-- A matrix laid out as an array of the programs' shape. -/
def ofMat (f : Mat) : (⟨2, ![50000, 128]⟩ : Shape).Idx → EReal := fun j => f (j 0) (j 1)

theorem ofMat_ix2 (f : Mat) (p : Fin 50000) (q : Fin 128) : ofMat f (ix2 p q) = f p q := rfl

theorem toMat_ofMat (f : Mat) : toMat (ofMat f) = f := rfl

theorem ofMat_toMat (a : (⟨2, ![50000, 128]⟩ : Shape).Idx → EReal) : ofMat (toMat a) = a := by
  funext j
  exact congrArg a (eq_ix2 j).symm

/-- Layer `l` of a stack of three 128 × 128 weights. -/
def wSlice (W : (⟨3, ![3, 128, 128]⟩ : Shape).Idx → EReal) (l : Fin 3) : Wt := fun i q => W (ix3 l i q)
/-- Layer `l` of a stack of three rows. -/
def bSlice (B : (⟨2, ![3, 128]⟩ : Shape).Idx → EReal) (l : Fin 3) : Row := fun q => B (ix2 l q)

/-- One whole layer on arrays: aggregate with `A`, then the perceptron with layer `l`'s parameters. -/
def layerWith (mlp : Bool → Mat → Wt → Row → Row → Row → Wt → Row → Mat)
    (A : ((⟨2, ![50000, 128]⟩ : Shape).Idx → EReal) → ((⟨2, ![50000, 128]⟩ : Shape).Idx → EReal))
    (W1 : (⟨3, ![3, 128, 128]⟩ : Shape).Idx → EReal) (B1 G Be : (⟨2, ![3, 128]⟩ : Shape).Idx → EReal)
    (W2 : (⟨3, ![3, 128, 128]⟩ : Shape).Idx → EReal) (B2 : (⟨2, ![3, 128]⟩ : Shape).Idx → EReal)
    (last : Bool) (l : Fin 3) (h : (⟨2, ![50000, 128]⟩ : Shape).Idx → EReal) :
    (⟨2, ![50000, 128]⟩ : Shape).Idx → EReal :=
  ofMat (mlp last (toMat (A h)) (wSlice W1 l) (bSlice B1 l) (bSlice G l) (bSlice Be l) (wSlice W2 l) (bSlice B2 l))

/-- The three layers in a row. -/
def netWith (mlp : Bool → Mat → Wt → Row → Row → Row → Wt → Row → Mat)
    (A : ((⟨2, ![50000, 128]⟩ : Shape).Idx → EReal) → ((⟨2, ![50000, 128]⟩ : Shape).Idx → EReal))
    (W1 : (⟨3, ![3, 128, 128]⟩ : Shape).Idx → EReal) (B1 G Be : (⟨2, ![3, 128]⟩ : Shape).Idx → EReal)
    (W2 : (⟨3, ![3, 128, 128]⟩ : Shape).Idx → EReal) (B2 : (⟨2, ![3, 128]⟩ : Shape).Idx → EReal)
    (x : (⟨2, ![50000, 128]⟩ : Shape).Idx → EReal) : (⟨2, ![50000, 128]⟩ : Shape).Idx → EReal :=
  layerWith mlp A W1 B1 G Be W2 B2 true 2
    (layerWith mlp A W1 B1 G Be W2 B2 false 1 (layerWith mlp A W1 B1 G Be W2 B2 false 0 x))

/-- The network, first arrangement. -/
def netK := netWith mlpK
/-- The network, second arrangement. -/
def netR := netWith mlpR

end Cert.Gin

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«168398_j7327214207515_1_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.KPay.lean ====
/-
  The two kernel bodies' arithmetic, read entry by entry on the extended reals.

  The first body takes a block of 5000 rows z, a 128 × 128 weight w and a bias row b. It forms the block
  y(r,q) = (Σ_i z(r,i) · w(i,q)) + b(q) (rounding to a shorter float format on the way into the product is the identity
  on the extended reals, and a product into a zero accumulator is the bare sum), adds the block's column sums
  Σ_r y(r,q) to a running row, and the column sums of the squares Σ_r y(r,q)² to a second running row.
  The second body takes a block y with four rows of column data μ, v, γ, β, a weight w and a bias b, and forms
  max((Σ_i max(((y(r,i) − μ(i)) · rsqrt(v(i) + ε)) · γ(i) + β(i), 0) · w(i,q)) + b(q), 0), the outer maximum absent in
  the last layer.
-/
import proofs.«168398_j7327214207515_1_alg».proof.Proof.Gen.KernelIdeal.Skeleton
import proofs.«168398_j7327214207515_1_alg».proof.Proof.Spec
import proofs.«168398_j7327214207515_1_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KV

open Cert.KernelIdeal Cert.KernelIdeal.Gen Cert.Gin Idealize.ShloMosaic Idealize.ShloMosaic.ValueIdx

/-- The bodies' product is the plain one: rows by columns. -/
theorem hdot : dot_S5000x128_S128x128_S5000x128_1_0_0_1_n_n = DotDims.plain 5000 128 128 := rfl

/-- A column sum of a block of 5000 rows, read at a column. -/
theorem colsum_apply (src : FVec Ideal S5000x128 .f32) (hacc : (0x00000000#32 : BitVec 32) = 0x00000000#32) (q : Fin 128) :
    multiReduction .add [0] S128 src 0x00000000#32 reduces_S5000x128_S128 (.inl rfl) hacc (ix1 q)
      = ∑ r : Fin 5000, src (ix2 r q) := by
  refine (Ideal.multiReduction_add_single src 0x00000000#32 reduces_S5000x128_S128 (.inl rfl) hacc (ix1 q)).trans ?_
  refine Finset.sum_congr rfl fun k _ => ?_
  exact congrArg src (funext fun a => Fin.ext (by match a with | ⟨0, _⟩ => rfl | ⟨1, _⟩ => rfl))

/-! ## The first body, call 0 -/

/-- The block y = z · w + b at row r, column q. -/
theorem r0_y_apply (v3 : Vec Ideal S5000x128 .f32) (v6 : Vec Ideal S128x128 .f32) (v10 : Vec Ideal S1x128 .f32)
    (r : Fin 5000) (q : Fin 128) :
    k0_pay3 (F := Ideal) v3 v6 v10 (ix2 r q) = (∑ i : Fin 128, v3 (ix2 r i) * v6 (ix2 i q)) + v10 (ix2 (0 : Fin 1) q) := by
  unfold k0_pay3
  simp only [shapeCast_self]
  rw [addf_apply, Cert.LibRows.matmul_plain_apply _ hdot, broadcastTo_1b_ab_apply]
  rfl

/-- The running column sums: what was there plus this block's column sums. -/
theorem r0_s_apply (v3 : Vec Ideal S5000x128 .f32) (v6 : Vec Ideal S128x128 .f32) (v10 : Vec Ideal S1x128 .f32)
    (v15 : Vec Ideal S1x128 .f32) (q : Fin 128) :
    k0_pay4 (F := Ideal) v3 v6 v10 v15 (ix2 (0 : Fin 1) q)
      = v15 (ix2 (0 : Fin 1) q) + ∑ r : Fin 5000, k0_pay3 (F := Ideal) v3 v6 v10 (ix2 r q) := by
  unfold k0_pay4
  simp only [shapeCast_self]
  rw [addf_apply, shapeCast_a_1a_apply, colsum_apply]

/-- The running column sums of squares. -/
theorem r0_ss_apply (v3 : Vec Ideal S5000x128 .f32) (v6 : Vec Ideal S128x128 .f32) (v10 : Vec Ideal S1x128 .f32)
    (v21 : Vec Ideal S1x128 .f32) (q : Fin 128) :
    k0_pay5 (F := Ideal) v3 v6 v10 v21 (ix2 (0 : Fin 1) q)
      = v21 (ix2 (0 : Fin 1) q)
        + ∑ r : Fin 5000, k0_pay3 (F := Ideal) v3 v6 v10 (ix2 r q) * k0_pay3 (F := Ideal) v3 v6 v10 (ix2 r q) := by
  unfold k0_pay5
  simp only [shapeCast_self]
  rw [addf_apply, shapeCast_a_1a_apply, colsum_apply]
  rfl

/-- The rows the two running rows are reset to at the first point: zeros. -/
theorem r0_z1_apply (q : Fin 128) : k0_pay1 (F := Ideal) (ix2 (0 : Fin 1) q) = zero32 := rfl
theorem r0_z2_apply (q : Fin 128) : k0_pay2 (F := Ideal) (ix2 (0 : Fin 1) q) = zero32 := rfl

/-! ## The second body, call 1 -/

/-- The block's entry at row r, column q. -/
theorem a1_apply (v0 : Vec Ideal S5000x128 .f32) (v2 v4 v6 v8 : Vec Ideal S1x128 .f32) (v24 : Vec Ideal S128x128 .f32)
    (v28 : Vec Ideal S1x128 .f32) (r : Fin 5000) (q : Fin 128) :
    k1_pay1 (F := Ideal) v0 v2 v4 v6 v8 v24 v28 (ix2 r q)
      = relu ((∑ i : Fin 128,
            relu (((v0 (ix2 r i) - v2 (ix2 (0 : Fin 1) i)) * Ideal.rsqrt (v4 (ix2 (0 : Fin 1) i) + eps32)) * v6 (ix2 (0 : Fin 1) i)
              + v8 (ix2 (0 : Fin 1) i)) * v24 (ix2 i q)) + v28 (ix2 (0 : Fin 1) q)) := by
  unfold k1_pay1 relu
  simp only [shapeCast_self]
  rw [maximumf_apply, addf_apply, Cert.LibRows.matmul_plain_apply _ hdot, broadcastTo_1b_ab_apply]
  refine congrArg (fun s => max (s + v28 (ix2 (0 : Fin 1) q)) _) (Finset.sum_congr rfl fun i _ => ?_)
  refine congrArg (· * v24 (ix2 i q)) ?_
  rw [truncf_apply, maximumf_apply, addf_apply, mulf_apply, mulf_apply, subf_apply, broadcastTo_1b_ab_apply,
    broadcastTo_1b_ab_apply, broadcastTo_1b_ab_apply, broadcastTo_1b_ab_apply]
  rfl

/-! ## The first body, call 2 -/

/-- The block y = z · w + b at row r, column q. -/
theorem r2_y_apply (v3 : Vec Ideal S5000x128 .f32) (v6 : Vec Ideal S128x128 .f32) (v10 : Vec Ideal S1x128 .f32)
    (r : Fin 5000) (q : Fin 128) :
    k2_pay3 (F := Ideal) v3 v6 v10 (ix2 r q) = (∑ i : Fin 128, v3 (ix2 r i) * v6 (ix2 i q)) + v10 (ix2 (0 : Fin 1) q) := by
  unfold k2_pay3
  simp only [shapeCast_self]
  rw [addf_apply, Cert.LibRows.matmul_plain_apply _ hdot, broadcastTo_1b_ab_apply]
  rfl

/-- The running column sums: what was there plus this block's column sums. -/
theorem r2_s_apply (v3 : Vec Ideal S5000x128 .f32) (v6 : Vec Ideal S128x128 .f32) (v10 : Vec Ideal S1x128 .f32)
    (v15 : Vec Ideal S1x128 .f32) (q : Fin 128) :
    k2_pay4 (F := Ideal) v3 v6 v10 v15 (ix2 (0 : Fin 1) q)
      = v15 (ix2 (0 : Fin 1) q) + ∑ r : Fin 5000, k2_pay3 (F := Ideal) v3 v6 v10 (ix2 r q) := by
  unfold k2_pay4
  simp only [shapeCast_self]
  rw [addf_apply, shapeCast_a_1a_apply, colsum_apply]

/-- The running column sums of squares. -/
theorem r2_ss_apply (v3 : Vec Ideal S5000x128 .f32) (v6 : Vec Ideal S128x128 .f32) (v10 : Vec Ideal S1x128 .f32)
    (v21 : Vec Ideal S1x128 .f32) (q : Fin 128) :
    k2_pay5 (F := Ideal) v3 v6 v10 v21 (ix2 (0 : Fin 1) q)
      = v21 (ix2 (0 : Fin 1) q)
        + ∑ r : Fin 5000, k2_pay3 (F := Ideal) v3 v6 v10 (ix2 r q) * k2_pay3 (F := Ideal) v3 v6 v10 (ix2 r q) := by
  unfold k2_pay5
  simp only [shapeCast_self]
  rw [addf_apply, shapeCast_a_1a_apply, colsum_apply]
  rfl

/-- The rows the two running rows are reset to at the first point: zeros. -/
theorem r2_z1_apply (q : Fin 128) : k2_pay1 (F := Ideal) (ix2 (0 : Fin 1) q) = zero32 := rfl
theorem r2_z2_apply (q : Fin 128) : k2_pay2 (F := Ideal) (ix2 (0 : Fin 1) q) = zero32 := rfl

/-! ## The second body, call 3 -/

/-- The block's entry at row r, column q. -/
theorem a3_apply (v0 : Vec Ideal S5000x128 .f32) (v2 v4 v6 v8 : Vec Ideal S1x128 .f32) (v24 : Vec Ideal S128x128 .f32)
    (v28 : Vec Ideal S1x128 .f32) (r : Fin 5000) (q : Fin 128) :
    k3_pay1 (F := Ideal) v0 v2 v4 v6 v8 v24 v28 (ix2 r q)
      = relu ((∑ i : Fin 128,
            relu (((v0 (ix2 r i) - v2 (ix2 (0 : Fin 1) i)) * Ideal.rsqrt (v4 (ix2 (0 : Fin 1) i) + eps32)) * v6 (ix2 (0 : Fin 1) i)
              + v8 (ix2 (0 : Fin 1) i)) * v24 (ix2 i q)) + v28 (ix2 (0 : Fin 1) q)) := by
  unfold k3_pay1 relu
  simp only [shapeCast_self]
  rw [maximumf_apply, addf_apply, Cert.LibRows.matmul_plain_apply _ hdot, broadcastTo_1b_ab_apply]
  refine congrArg (fun s => max (s + v28 (ix2 (0 : Fin 1) q)) _) (Finset.sum_congr rfl fun i _ => ?_)
  refine congrArg (· * v24 (ix2 i q)) ?_
  rw [truncf_apply, maximumf_apply, addf_apply, mulf_apply, mulf_apply, subf_apply, broadcastTo_1b_ab_apply,
    broadcastTo_1b_ab_apply, broadcastTo_1b_ab_apply, broadcastTo_1b_ab_apply]
  rfl

/-! ## The first body, call 4 -/

/-- The block y = z · w + b at row r, column q. -/
theorem r4_y_apply (v3 : Vec Ideal S5000x128 .f32) (v6 : Vec Ideal S128x128 .f32) (v10 : Vec Ideal S1x128 .f32)
    (r : Fin 5000) (q : Fin 128) :
    k4_pay3 (F := Ideal) v3 v6 v10 (ix2 r q) = (∑ i : Fin 128, v3 (ix2 r i) * v6 (ix2 i q)) + v10 (ix2 (0 : Fin 1) q) := by
  unfold k4_pay3
  simp only [shapeCast_self]
  rw [addf_apply, Cert.LibRows.matmul_plain_apply _ hdot, broadcastTo_1b_ab_apply]
  rfl

/-- The running column sums: what was there plus this block's column sums. -/
theorem r4_s_apply (v3 : Vec Ideal S5000x128 .f32) (v6 : Vec Ideal S128x128 .f32) (v10 : Vec Ideal S1x128 .f32)
    (v15 : Vec Ideal S1x128 .f32) (q : Fin 128) :
    k4_pay4 (F := Ideal) v3 v6 v10 v15 (ix2 (0 : Fin 1) q)
      = v15 (ix2 (0 : Fin 1) q) + ∑ r : Fin 5000, k4_pay3 (F := Ideal) v3 v6 v10 (ix2 r q) := by
  unfold k4_pay4
  simp only [shapeCast_self]
  rw [addf_apply, shapeCast_a_1a_apply, colsum_apply]

/-- The running column sums of squares. -/
theorem r4_ss_apply (v3 : Vec Ideal S5000x128 .f32) (v6 : Vec Ideal S128x128 .f32) (v10 : Vec Ideal S1x128 .f32)
    (v21 : Vec Ideal S1x128 .f32) (q : Fin 128) :
    k4_pay5 (F := Ideal) v3 v6 v10 v21 (ix2 (0 : Fin 1) q)
      = v21 (ix2 (0 : Fin 1) q)
        + ∑ r : Fin 5000, k4_pay3 (F := Ideal) v3 v6 v10 (ix2 r q) * k4_pay3 (F := Ideal) v3 v6 v10 (ix2 r q) := by
  unfold k4_pay5
  simp only [shapeCast_self]
  rw [addf_apply, shapeCast_a_1a_apply, colsum_apply]
  rfl

/-- The rows the two running rows are reset to at the first point: zeros. -/
theorem r4_z1_apply (q : Fin 128) : k4_pay1 (F := Ideal) (ix2 (0 : Fin 1) q) = zero32 := rfl
theorem r4_z2_apply (q : Fin 128) : k4_pay2 (F := Ideal) (ix2 (0 : Fin 1) q) = zero32 := rfl

/-! ## The second body, call 5 -/

/-- The block's entry at row r, column q (the last layer: no outer cut-off). -/
theorem a5_apply (v0 : Vec Ideal S5000x128 .f32) (v2 v4 v6 v8 : Vec Ideal S1x128 .f32) (v24 : Vec Ideal S128x128 .f32)
    (v28 : Vec Ideal S1x128 .f32) (r : Fin 5000) (q : Fin 128) :
    k5_pay1 (F := Ideal) v0 v2 v4 v6 v8 v24 v28 (ix2 r q)
      = (∑ i : Fin 128,
            relu (((v0 (ix2 r i) - v2 (ix2 (0 : Fin 1) i)) * Ideal.rsqrt (v4 (ix2 (0 : Fin 1) i) + eps32)) * v6 (ix2 (0 : Fin 1) i)
              + v8 (ix2 (0 : Fin 1) i)) * v24 (ix2 i q)) + v28 (ix2 (0 : Fin 1) q) := by
  unfold k5_pay1 relu
  simp only [shapeCast_self]
  rw [addf_apply, Cert.LibRows.matmul_plain_apply _ hdot, broadcastTo_1b_ab_apply]
  refine congrArg (fun s => s + v28 (ix2 (0 : Fin 1) q)) (Finset.sum_congr rfl fun i _ => ?_)
  refine congrArg (· * v24 (ix2 i q)) ?_
  rw [truncf_apply, maximumf_apply, addf_apply, mulf_apply, mulf_apply, subf_apply, broadcastTo_1b_ab_apply,
    broadcastTo_1b_ab_apply, broadcastTo_1b_ab_apply, broadcastTo_1b_ab_apply]
  rfl

end Cert.KernelIdeal.KV

end
-- ==== Proof.KFun.lean ====
/-
  What each kernel call leaves in its output arrays, as functions of the arrays it reads.

  The call that runs the first body over ten blocks of 5000 rows leaves, of the features z (50000 × 128), a weight w
  and a bias row b: the array y = z · w + b; the row of y's column sums; the row of the column sums of y's squares.
  The call that runs the second body leaves, of y and the rows μ, v, γ, β, a weight w and a bias row b, the array
  max((Σ_i max(((y(p,i) − μ(i)) · rsqrt(v(i) + ε)) · γ(i) + β(i), 0) · w(i,q)) + b(q), 0), the outer maximum absent in
  the last layer.
-/
import proofs.«168398_j7327214207515_1_alg».proof.Proof.Spec

noncomputable section

open scoped BigOperators
open Idealize.ShloMosaic Idealize.ShloMosaic.ValueIdx

namespace Cert.Gin

/-- Entry (p, q) of z · w + b, the arrays given as the programs hold them (the bias as a 1 × 128 array). -/
def linAt (z : (⟨2, ![50000, 128]⟩ : Shape).Idx → EReal) (w : (⟨2, ![128, 128]⟩ : Shape).Idx → EReal)
    (b : (⟨2, ![1, 128]⟩ : Shape).Idx → EReal) (p : Fin 50000) (q : Fin 128) : EReal :=
  (∑ i : Fin 128, z (ix2 p i) * w (ix2 i q)) + b (ix2 (0 : Fin 1) q)

/-- The array z · w + b. -/
def linArr (z : (⟨2, ![50000, 128]⟩ : Shape).Idx → EReal) (w : (⟨2, ![128, 128]⟩ : Shape).Idx → EReal)
    (b : (⟨2, ![1, 128]⟩ : Shape).Idx → EReal) : (⟨2, ![50000, 128]⟩ : Shape).Idx → EReal :=
  fun j => linAt z w b (j 0) (j 1)

/-- The row of column sums of an array. -/
def colSumArr (y : (⟨2, ![50000, 128]⟩ : Shape).Idx → EReal) : (⟨2, ![1, 128]⟩ : Shape).Idx → EReal :=
  fun j => ∑ p : Fin 50000, y (ix2 p (j 1))

/-- The row of column sums of an array's squares. -/
def colSqSumArr (y : (⟨2, ![50000, 128]⟩ : Shape).Idx → EReal) : (⟨2, ![1, 128]⟩ : Shape).Idx → EReal :=
  fun j => ∑ p : Fin 50000, y (ix2 p (j 1)) * y (ix2 p (j 1))

/-- Entry (p, q) of the second body's result. -/
def mlp2At (last : Bool) (y : (⟨2, ![50000, 128]⟩ : Shape).Idx → EReal) (mu var gam bet : (⟨2, ![1, 128]⟩ : Shape).Idx → EReal)
    (w : (⟨2, ![128, 128]⟩ : Shape).Idx → EReal) (b : (⟨2, ![1, 128]⟩ : Shape).Idx → EReal) (p : Fin 50000) (q : Fin 128) : EReal :=
  match last with
  | true => (∑ i : Fin 128,
      relu (((y (ix2 p i) - mu (ix2 (0 : Fin 1) i)) * Ideal.rsqrt (var (ix2 (0 : Fin 1) i) + eps32)) * gam (ix2 (0 : Fin 1) i)
        + bet (ix2 (0 : Fin 1) i)) * w (ix2 i q)) + b (ix2 (0 : Fin 1) q)
  | false => relu ((∑ i : Fin 128,
      relu (((y (ix2 p i) - mu (ix2 (0 : Fin 1) i)) * Ideal.rsqrt (var (ix2 (0 : Fin 1) i) + eps32)) * gam (ix2 (0 : Fin 1) i)
        + bet (ix2 (0 : Fin 1) i)) * w (ix2 i q)) + b (ix2 (0 : Fin 1) q))

/-- The second body's result array. -/
def mlp2Arr (last : Bool) (y : (⟨2, ![50000, 128]⟩ : Shape).Idx → EReal) (mu var gam bet : (⟨2, ![1, 128]⟩ : Shape).Idx → EReal)
    (w : (⟨2, ![128, 128]⟩ : Shape).Idx → EReal) (b : (⟨2, ![1, 128]⟩ : Shape).Idx → EReal) :
    (⟨2, ![50000, 128]⟩ : Shape).Idx → EReal :=
  fun j => mlp2At last y mu var gam bet w b (j 0) (j 1)

theorem linArr_ix2 (z w b) (p : Fin 50000) (q : Fin 128) : linArr z w b (ix2 p q) = linAt z w b p q := rfl
theorem mlp2Arr_ix2 (last y mu var gam bet w b) (p : Fin 50000) (q : Fin 128) :
    mlp2Arr last y mu var gam bet w b (ix2 p q) = mlp2At last y mu var gam bet w b p q := rfl
theorem colSumArr_ix2 (y) (q : Fin 128) : colSumArr y (ix2 (0 : Fin 1) q) = ∑ p : Fin 50000, y (ix2 p q) := rfl
theorem colSqSumArr_ix2 (y) (q : Fin 128) :
    colSqSumArr y (ix2 (0 : Fin 1) q) = ∑ p : Fin 50000, y (ix2 p q) * y (ix2 p q) := rfl

theorem colSumArr_apply (y : (⟨2, ![50000, 128]⟩ : Shape).Idx → EReal) (j : (⟨2, ![1, 128]⟩ : Shape).Idx) :
    colSumArr y j = ∑ p : Fin 50000, y (ix2 p (j 1)) := rfl
theorem colSqSumArr_apply (y : (⟨2, ![50000, 128]⟩ : Shape).Idx → EReal) (j : (⟨2, ![1, 128]⟩ : Shape).Idx) :
    colSqSumArr y j = ∑ p : Fin 50000, y (ix2 p (j 1)) * y (ix2 p (j 1)) := rfl

/-- A sum over 50000 rows, taken as ten blocks of 5000. -/
theorem sum_blocks (f : Fin 50000 → EReal) :
    ∑ p : Fin 50000, f p = ∑ t : Fin 10, ∑ r : Fin 5000, f ⟨5000 * t.val + r.val, by have := t.isLt; have := r.isLt; omega⟩ := by
  rw [← Equiv.sum_comp (finProdFinEquiv.trans (finCongr (show 10 * 5000 = 50000 by norm_num))), Fintype.sum_prod_type]
  refine Finset.sum_congr rfl fun t _ => Finset.sum_congr rfl fun r _ => congrArg f (Fin.ext ?_)
  simp only [Equiv.trans_apply, finCongr_apply, Fin.coe_cast, finProdFinEquiv_apply_val]
  omega

end Cert.Gin

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.LibBatchNorm.lean ====
/-
  Batch normalisation on the extended reals.

  A column y of real numbers, indexed by a finite set s of m = |s| rows, has the mean μ = (Σ y) / m. Its variance can
  be written as the mean of the squares minus the square of the mean, (Σ y²) / m − μ², or as the mean of the squared
  deviations, (Σ (y − μ)²) / m. On the real numbers the two agree (expand the square: Σ (y − μ)² = Σ y² − 2 μ Σ y + m μ²
  and Σ y = m μ). On the extended reals subtraction and multiplication do not obey the ring laws at the infinities, so
  the identity is stated for columns whose entries are images of real numbers and is proved by moving to the reals.

  The second half carries finiteness through one normalisation layer: sums, differences, products and quotients by a
  nonzero real of reals are real; the variance is a real number that is not negative, so the variance plus a positive
  real is positive and its reciprocal square root is real; hence the normalised, scaled, shifted and rectified entry
  is real. A finite sum of reals divided by the larger of a real count and one is real as well.

  The last part is about a sum accumulated step by step: an accumulator that starts from zero plus the first term and
  adds one term at each further step holds the sum of the terms so far.
-/
import Idealize.ShloMosaic.PureOps.Ideal
import Idealize.ShloMosaic.PureOps.Ideal.Laws
import Idealize.ShloMosaic.Lib.ValueIdx
import proofs.«168398_j7327214207515_1_alg».proof.Proof.LibRealSums

open scoped BigOperators
open Idealize.ShloMosaic Cert.RealSums

namespace Cert.BatchNorm

/-! ### Reals are closed under the operations of a normalisation layer -/

/-- The negative of a real is real. -/
theorem isReal_neg {x : EReal} (hx : IsReal x) : IsReal (-x) := by
  obtain ⟨a, rfl⟩ := hx
  exact ⟨-a, (EReal.coe_neg a).symm⟩

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem isReal_max {x y : EReal} (hx : IsReal x) (hy : IsReal y) : IsReal (max x y) := by
  rcases max_choice x y with h | h <;> rw [h] <;> assumption

/-- The quotient of a real a by a nonzero real m is the image of the real quotient a / m. -/
theorem div_coe_coe (a : ℝ) {m : ℝ} (hm : m ≠ 0) : Ideal.div (a : EReal) (m : EReal) = ((a / m : ℝ) : EReal) := by
  rw [Ideal.div_coe hm, ← EReal.coe_mul, mul_one_div]

/-- The quotient of a real by a nonzero real number is real. -/
theorem isReal_div_coe {x : EReal} (hx : IsReal x) {m : ℝ} (hm : m ≠ 0) : IsReal (Ideal.div x (m : EReal)) := by
  obtain ⟨a, rfl⟩ := hx
  exact ⟨a / m, div_coe_coe a hm⟩

/-- The quotient of a real by a real that is not zero is real. -/
theorem isReal_div {x d : EReal} (hx : IsReal x) (hd : IsReal d) (hd0 : d ≠ 0) : IsReal (Ideal.div x d) := by
  obtain ⟨m, rfl⟩ := hd
  exact isReal_div_coe hx (by intro h; exact hd0 (by rw [h, EReal.coe_zero]))

/-- A finite sum of reals is the image of the sum of their real parts. -/
theorem sum_eq_coe {ι : Type*} (s : Finset ι) (y : ι → EReal) (hy : ∀ r ∈ s, IsReal (y r)) :
    ∑ r ∈ s, y r = ((∑ r ∈ s, (y r).toReal : ℝ) : EReal) := by
  rw [← coe_sum]
  exact Finset.sum_congr rfl fun r hr => (hy r hr).eq_coe_toReal

/-- The mean of a finite family of reals over a nonzero real count is the image of the real mean. -/
theorem mean_eq_coe {ι : Type*} (s : Finset ι) (y : ι → EReal) (hy : ∀ r ∈ s, IsReal (y r)) {m : ℝ} (hm0 : m ≠ 0) :
    Ideal.div (∑ r ∈ s, y r) (m : EReal) = (((∑ r ∈ s, (y r).toReal) / m : ℝ) : EReal) := by
  rw [sum_eq_coe s y hy, div_coe_coe _ hm0]

/-! ### The two forms of the variance -/

/-- The mean of the squared deviations from the mean, of a finite family of reals, is the image of the same expression
    over the real numbers. -/
theorem varDev_eq_coe {ι : Type*} (s : Finset ι) (y : ι → EReal) (hy : ∀ r ∈ s, IsReal (y r)) {m : ℝ} (hm0 : m ≠ 0) :
    Ideal.div (∑ r ∈ s, (y r - Ideal.div (∑ r ∈ s, y r) (m : EReal)) * (y r - Ideal.div (∑ r ∈ s, y r) (m : EReal)))
        (m : EReal)
      = (((∑ r ∈ s, ((y r).toReal - (∑ r ∈ s, (y r).toReal) / m) * ((y r).toReal - (∑ r ∈ s, (y r).toReal) / m)) / m : ℝ)
          : EReal) := by
  rw [mean_eq_coe s y hy hm0]
  have h : ∑ r ∈ s, (y r - (((∑ r ∈ s, (y r).toReal) / m : ℝ) : EReal)) * (y r - (((∑ r ∈ s, (y r).toReal) / m : ℝ) : EReal))
      = ((∑ r ∈ s, ((y r).toReal - (∑ r ∈ s, (y r).toReal) / m) * ((y r).toReal - (∑ r ∈ s, (y r).toReal) / m) : ℝ)
          : EReal) := by
    rw [← coe_sum]
    refine Finset.sum_congr rfl fun r hr => ?_
    rw [EReal.coe_mul, EReal.coe_sub, ← (hy r hr).eq_coe_toReal]
  rw [h, div_coe_coe _ hm0]

/-- The mean of the squares minus the square of the mean, of a finite family of reals, is the image of the same
    expression over the real numbers. -/
theorem varSq_eq_coe {ι : Type*} (s : Finset ι) (y : ι → EReal) (hy : ∀ r ∈ s, IsReal (y r)) {m : ℝ} (hm0 : m ≠ 0) :
    Ideal.div (∑ r ∈ s, y r * y r) (m : EReal)
        - Ideal.div (∑ r ∈ s, y r) (m : EReal) * Ideal.div (∑ r ∈ s, y r) (m : EReal)
      = (((∑ r ∈ s, (y r).toReal * (y r).toReal) / m
            - (∑ r ∈ s, (y r).toReal) / m * ((∑ r ∈ s, (y r).toReal) / m) : ℝ) : EReal) := by
  rw [mean_eq_coe s y hy hm0]
  have h : ∑ r ∈ s, y r * y r = ((∑ r ∈ s, (y r).toReal * (y r).toReal : ℝ) : EReal) := by
    rw [← coe_sum]
    refine Finset.sum_congr rfl fun r hr => ?_
    rw [EReal.coe_mul, ← (hy r hr).eq_coe_toReal]
  rw [h, div_coe_coe _ hm0, EReal.coe_sub, EReal.coe_mul]

/-- Over the real numbers: the mean of the squares minus the square of the mean is the mean of the squared deviations,
    for a family indexed by a finite set of m ≠ 0 elements. -/
theorem real_var_eq {ι : Type*} (s : Finset ι) (x : ι → ℝ) {m : ℝ} (hm : m = (s.card : ℝ)) (hm0 : m ≠ 0) :
    (∑ r ∈ s, x r * x r) / m - (∑ r ∈ s, x r) / m * ((∑ r ∈ s, x r) / m)
      = (∑ r ∈ s, (x r - (∑ r ∈ s, x r) / m) * (x r - (∑ r ∈ s, x r) / m)) / m := by
  have hsum : ∀ c : ℝ, ∑ r ∈ s, (x r - c) * (x r - c)
      = (∑ r ∈ s, x r * x r) - 2 * c * (∑ r ∈ s, x r) + (s.card : ℝ) * (c * c) := by
    intro c
    have : ∀ r, (x r - c) * (x r - c) = x r * x r - 2 * c * x r + c * c := fun r => by ring
    simp only [this, Finset.sum_add_distrib, Finset.sum_sub_distrib, ← Finset.mul_sum, Finset.sum_const, nsmul_eq_mul]
    ring
  rw [hsum, ← hm]
  field_simp
  ring

/-- THE TWO VARIANCES AGREE. For a family of reals over a finite set s of m = |s| ≠ 0 rows, the mean of the squares
    minus the square of the mean equals the mean of the squared deviations from the mean, all operations being those of
    the extended reals. -/
theorem var_eq_finset {ι : Type*} (s : Finset ι) (y : ι → EReal) (hy : ∀ r ∈ s, IsReal (y r)) {m : ℝ}
    (hm : m = (s.card : ℝ)) (hm0 : m ≠ 0) :
    Ideal.div (∑ r ∈ s, y r * y r) (m : EReal)
        - Ideal.div (∑ r ∈ s, y r) (m : EReal) * Ideal.div (∑ r ∈ s, y r) (m : EReal)
      = Ideal.div (∑ r ∈ s, (y r - Ideal.div (∑ r ∈ s, y r) (m : EReal)) * (y r - Ideal.div (∑ r ∈ s, y r) (m : EReal)))
          (m : EReal) := by
  rw [varSq_eq_coe s y hy hm0, varDev_eq_coe s y hy hm0, real_var_eq s (fun r => (y r).toReal) hm hm0]

/-- The two variances agree, for a family indexed by a whole finite type of m ≠ 0 elements. -/
theorem var_eq {ι : Type*} [Fintype ι] (y : ι → EReal) (hy : ∀ r, IsReal (y r)) {m : ℝ}
    (hm : m = (Fintype.card ι : ℝ)) (hm0 : m ≠ 0) :
    Ideal.div (∑ r, y r * y r) (m : EReal) - Ideal.div (∑ r, y r) (m : EReal) * Ideal.div (∑ r, y r) (m : EReal)
      = Ideal.div (∑ r, (y r - Ideal.div (∑ r, y r) (m : EReal)) * (y r - Ideal.div (∑ r, y r) (m : EReal))) (m : EReal) :=
  var_eq_finset Finset.univ y (fun r _ => hy r) (by rw [hm, Finset.card_univ]) hm0

/-- The mean of the squared deviations of a family of reals over a positive real count is a real number that is not
    negative. -/
theorem varDev_nonneg {ι : Type*} (s : Finset ι) (y : ι → EReal) (hy : ∀ r ∈ s, IsReal (y r)) {m : ℝ} (hm0 : 0 < m) :
    ∃ v : ℝ, 0 ≤ v ∧
      Ideal.div (∑ r ∈ s, (y r - Ideal.div (∑ r ∈ s, y r) (m : EReal)) * (y r - Ideal.div (∑ r ∈ s, y r) (m : EReal)))
        (m : EReal) = (v : EReal) :=
  ⟨_, div_nonneg (Finset.sum_nonneg fun r _ => mul_self_nonneg _) hm0.le, varDev_eq_coe s y hy hm0.ne'⟩

/-- The mean of the squares minus the square of the mean, of a family of reals over a finite set of m = |s| > 0 rows, is
    a real number that is not negative. -/
theorem varSq_nonneg {ι : Type*} (s : Finset ι) (y : ι → EReal) (hy : ∀ r ∈ s, IsReal (y r)) {m : ℝ}
    (hm : m = (s.card : ℝ)) (hm0 : 0 < m) :
    ∃ v : ℝ, 0 ≤ v ∧
      Ideal.div (∑ r ∈ s, y r * y r) (m : EReal)
        - Ideal.div (∑ r ∈ s, y r) (m : EReal) * Ideal.div (∑ r ∈ s, y r) (m : EReal) = (v : EReal) := by
  rw [var_eq_finset s y hy hm hm0.ne']
  exact varDev_nonneg s y hy hm0

/-! ### The reciprocal square root of the variance plus a positive real -/

/-- The reciprocal square root of a positive real is the image of the real reciprocal square root. -/
theorem rsqrt_coe_of_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_of_pos {v : ℝ} (hv : 0 < v) : IsReal (Ideal.rsqrt (v : EReal)) :=
  ⟨_, rsqrt_coe_of_pos hv⟩

/-- The reciprocal square root of a real that is not negative plus a positive real is real. -/
theorem isReal_rsqrt_add {v e : ℝ} (hv : 0 ≤ v) (he : 0 < e) : IsReal (Ideal.rsqrt ((v : EReal) + (e : EReal))) := by
  rw [← EReal.coe_add]
  exact isReal_rsqrt_of_pos (add_pos_of_nonneg_of_pos hv he)

/-- The reciprocal square root of (mean of squares − square of the mean) + ε is real, for a family of reals over a
    finite set of m = |s| > 0 rows and a positive real ε. -/
theorem isReal_rsqrt_varSq_add {ι : Type*} (s : Finset ι) (y : ι → EReal) (hy : ∀ r ∈ s, IsReal (y r)) {m : ℝ}
    (hm : m = (s.card : ℝ)) (hm0 : 0 < m) {e : ℝ} (he : 0 < e) :
    IsReal (Ideal.rsqrt (Ideal.div (∑ r ∈ s, y r * y r) (m : EReal)
        - Ideal.div (∑ r ∈ s, y r) (m : EReal) * Ideal.div (∑ r ∈ s, y r) (m : EReal) + (e : EReal))) := by
  obtain ⟨v, hv, h⟩ := varSq_nonneg s y hy hm hm0
  rw [h]
  exact isReal_rsqrt_add hv he

/-- The reciprocal square root of (mean of the squared deviations) + ε is real, for a family of reals over a positive
    real count and a positive real ε. -/
theorem isReal_rsqrt_varDev_add {ι : Type*} (s : Finset ι) (y : ι → EReal) (hy : ∀ r ∈ s, IsReal (y r)) {m : ℝ}
    (hm0 : 0 < m) {e : ℝ} (he : 0 < e) :
    IsReal (Ideal.rsqrt (Ideal.div (∑ r ∈ s, (y r - Ideal.div (∑ r ∈ s, y r) (m : EReal))
        * (y r - Ideal.div (∑ r ∈ s, y r) (m : EReal))) (m : EReal) + (e : EReal))) := by
  obtain ⟨v, hv, h⟩ := varDev_nonneg s y hy hm0
  rw [h]
  exact isReal_rsqrt_add hv he

/-! ### The rectified output -/

/-- A selection on the comparison z ≥ 0 is a case distinction on 0 ≤ z. -/
theorem select_cmp_oge_zero {α : Type} (z : EReal) (a b : α) :
    Scalar.select (Ideal.cmp .oge z 0) a b = if 0 ≤ z then a else b := by
  by_cases h : (0 : EReal) ≤ z
  · rw [if_pos h]
    have : Ideal.cmp .oge z 0 = 1#1 := by simp [Ideal.cmp, h]
    rw [this]; exact if_pos rfl
  · rw [if_neg h]
    have : Ideal.cmp .oge z 0 = 0#1 := by simp [Ideal.cmp, h]
    rw [this]; exact if_neg (by decide)

/-- A selection between two reals is real, whatever the condition. -/
theorem isReal_select (c : BitVec 1) {a b : EReal} (ha : IsReal a) (hb : IsReal b) : IsReal (Scalar.select c a b) := by
  unfold Scalar.select
  split <;> assumption

/-- The leaky rectifier of a real with a real slope is real: z where z ≥ 0, slope · z elsewhere. -/
theorem isReal_prelu {z a : EReal} (hz : IsReal z) (ha : IsReal a) :
    IsReal (Scalar.select (Ideal.cmp .oge z 0) z (a * z)) :=
  isReal_select _ hz (ha.mul hz)

/-- The normalised, scaled and shifted entry (y − μ) · ρ · γ + β is real when its five constituents are. -/
theorem isReal_affine {y μ ρ γ β : EReal} (hy : IsReal y) (hμ : IsReal μ) (hρ : IsReal ρ) (hγ : IsReal γ)
    (hβ : IsReal β) : IsReal ((y - μ) * ρ * γ + β) :=
  (((isReal_sub hy hμ).mul hρ).mul hγ).add hβ

/-- The output of a normalisation layer with a leaky rectifier, prelu ((y − μ) · ρ · γ + β), is real when its
    constituents and the slope are. -/
theorem isReal_bn_prelu {y μ ρ γ β a : EReal} (hy : IsReal y) (hμ : IsReal μ) (hρ : IsReal ρ) (hγ : IsReal γ)
    (hβ : IsReal β) (ha : IsReal a) :
    IsReal (Scalar.select (Ideal.cmp .oge ((y - μ) * ρ * γ + β) 0) ((y - μ) * ρ * γ + β) (a * ((y - μ) * ρ * γ + β))) :=
  isReal_prelu (isReal_affine hy hμ hρ hγ hβ) ha

/-! ### A sum of reals divided by a count that is at least one -/

/-- A finite sum of reals divided by the larger of a real count and one is real. -/
theorem isReal_sum_div_max_one {ι : Type*} (s : Finset ι) (a : ι → EReal) (ha : ∀ i ∈ s, IsReal (a i)) {c : EReal}
    (hc : IsReal c) : IsReal (Ideal.div (∑ i ∈ s, a i) (max c 1)) := by
  refine isReal_div (isReal_sum s a ha) (isReal_max hc isReal_one) ?_
  exact (lt_of_lt_of_le zero_lt_one (le_max_right c 1)).ne'

/-- A real divided by the larger of a real count and one is real. -/
theorem isReal_div_max_one {x c : EReal} (hx : IsReal x) (hc : IsReal c) : IsReal (Ideal.div x (max c 1)) :=
  isReal_div hx (isReal_max hc isReal_one) (lt_of_lt_of_le zero_lt_one (le_max_right c 1)).ne'

/-! ### A sum accumulated step by step -/

/-- An accumulator that holds zero plus the first term after step 0 and adds the next term at every further step below
    N holds, after step n < N, the sum of the terms 0 … n. -/
theorem acc_eq_sum_range {β : Type*} [AddCommMonoid β] (acc g : ℕ → β) (N : ℕ) (h0 : acc 0 = 0 + g 0)
    (hs : ∀ n, n + 1 < N → acc (n + 1) = acc n + g (n + 1)) :
    ∀ n, n < N → acc n = ∑ t ∈ Finset.range (n + 1), g t := by
  intro n
  induction n with
  | zero => intro _; rw [h0, zero_add, Finset.sum_range_one]
  | succ k ih =>
    intro hk
    rw [hs k hk, ih (Nat.lt_of_succ_lt hk), Finset.sum_range_succ _ (k + 1)]

/-- After the last of N > 0 steps the accumulator holds the sum of all N terms. -/
theorem acc_last_eq_sum {β : Type*} [AddCommMonoid β] (acc g : ℕ → β) (N : ℕ) (hN : 0 < N) (h0 : acc 0 = 0 + g 0)
    (hs : ∀ n, n + 1 < N → acc (n + 1) = acc n + g (n + 1)) :
    acc (N - 1) = ∑ t ∈ Finset.range N, g t := by
  rw [acc_eq_sum_range acc g N h0 hs (N - 1) (Nat.sub_lt hN Nat.one_pos), Nat.sub_add_cancel hN]

/-- The same for an accumulator of extended reals whose first step adds the first term to the single-precision zero
    pattern, which denotes zero. -/
theorem acc_eq_sum_range_f32 (acc g : ℕ → EReal) (N : ℕ) (h0 : acc 0 = Ideal.ofBits .f32 0x00000000#32 + g 0)
    (hs : ∀ n, n + 1 < N → acc (n + 1) = acc n + g (n + 1)) :
    ∀ n, n < N → acc n = ∑ t ∈ Finset.range (n + 1), g t :=
  acc_eq_sum_range acc g N (by rw [h0, Ideal.ofBits_zero_f32]) hs

end Cert.BatchNorm
-- ==== Proof.KRegR0.lean ====
/-
  What kernel call 0 leaves in its three output arrays.

  The call runs the first body over ten points. At point t the body reads rows 5000·t … 5000·t + 4999 of the features z
  and the whole weight w and bias row b, writes the same rows of y = z · w + b, and keeps two running rows: at the first
  point it resets them to zero, and at every point it adds the block's column sums, and the column sums of the block's
  squares, to them. The rows are written back once, after the last point. So the first output ends as the array y
  (its ten blocks tile it), and the two rows end as zero plus the ten blocks' column sums added in order, which is the
  column sums over all 50000 rows: a sum of extended reals may be regrouped and its zero dropped.
-/
import proofs.«168398_j7327214207515_1_alg».proof.Proof.Gen.KernelIdeal.Frame
import proofs.«168398_j7327214207515_1_alg».proof.Proof.KPay
import proofs.«168398_j7327214207515_1_alg».proof.Proof.KFun
import proofs.«168398_j7327214207515_1_alg».proof.Proof.LibBatchNorm
import Idealize.ShloMosaic.Lib.Tactic

set_option maxRecDepth 16384

noncomputable section

open scoped BigOperators

namespace Cert.KernelIdeal.KV

open Cert.KernelIdeal Cert.KernelIdeal.Gen Cert.Gin
open Idealize.ShloMosaic Idealize.ShloMosaic.TcCoe Idealize.ShloMosaic.ValueIdx Idealize.SL.Sem Idealize.ShloMosaic.Tactic
open Idealize.ShloMosaic.Pipeline (Dat)

theorem hzR0 : (![0, 0] : Fin 2 → Nat) = fun _ => 0 := funext fun a => by fin_cases a <;> rfl

/-! ## What each case of the body leaves in each output's buffer -/

section Pieces0

variable {F : FTy → Type} [FloatOps F]

/-- First point: the block y. -/
theorem out0_A_3_eq (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S128x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hzR0]
  simp only [View.readAt_eq_ld, h1.read_unread, h2.read_unread, h3.read_unread, h5.read_unread, h6.read_unread,
    View.ld_unit_zero (S := S5000x128) hzR0, View.ld_unit_zero (S := S128x128) hzR0, View.ld_unit_zero (S := S1x128) hzR0]

/-- Later points: the block y. -/
theorem out0_B_3_eq (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S128x128 .f32) (x2 : Vec F S1x128 .f32)
    (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hzR0]
  simp only [View.readAt_eq_ld, h1.read_unread, h2.read_unread, h3.read_unread, h5.read_unread, h6.read_unread,
    View.ld_unit_zero (S := S5000x128) hzR0, View.ld_unit_zero (S := S128x128) hzR0, View.ld_unit_zero (S := S1x128) hzR0]

/-- First point: the running sums start from the stored zeros. -/
theorem out0_A_4_eq (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S128x128 .f32) (x2 : Vec F S1x128 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hzR0, View.readCov_unit_zero (S := S1x128) _ hzR0]
  simp only [View.readAt_eq_ld, h1.read_unread, h2.read_unread, h3.read_unread, h5.read_unread, h6.read_unread,
    View.ld_unit_zero (S := S5000x128) hzR0, View.ld_unit_zero (S := S128x128) hzR0, View.ld_unit_zero (S := S1x128) hzR0]

/-- Later points: the running sums continue from what the point before left. -/
theorem out0_B_4_eq (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S128x128 .f32) (x2 : Vec F S1x128 .f32)
    (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hzR0]
  simp only [View.readAt_eq_ld, h1.read_unread, h2.read_unread, h3.read_unread, h5.read_unread, h6.read_unread,
    View.ld_unit_zero (S := S5000x128) hzR0, View.ld_unit_zero (S := S128x128) hzR0, View.ld_unit_zero (S := S1x128) hzR0]

/-- First point: the running sums of squares start from the stored zeros. -/
theorem out0_A_5_eq (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S128x128 .f32) (x2 : Vec F S1x128 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hzR0, View.readCov_unit_zero (S := S1x128) _ hzR0]
  simp only [View.readAt_eq_ld, h1.read_unread, h2.read_unread, h3.read_unread, h5.read_unread, h6.read_unread,
    View.ld_unit_zero (S := S5000x128) hzR0, View.ld_unit_zero (S := S128x128) hzR0, View.ld_unit_zero (S := S1x128) hzR0]

/-- Later points: the running sums of squares continue. -/
theorem out0_B_5_eq (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S128x128 .f32) (x2 : Vec F S1x128 .f32)
    (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hzR0]
  simp only [View.readAt_eq_ld, h1.read_unread, h2.read_unread, h3.read_unread, h5.read_unread, h6.read_unread,
    View.ld_unit_zero (S := S5000x128) hzR0, View.ld_unit_zero (S := S128x128) hzR0, View.ld_unit_zero (S := S1x128) hzR0]

end Pieces0

section RegionR0

variable (V : (c : Dev nD) → (b : Ref sig .tc) → Buf (Elt Ideal) ((c : Thread nD τ).loc b))

/-- The call's index maps over its ten points: the row-block windows (input 0, output 3) sit at block t, every other
    window at block 0. -/
theorem idxR0 : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The block the body forms at point t, at row r and column q, is entry (5000·t + r, q) of z · w + b. -/
theorem yblk0 (c : Dev nD) (t : Fin cfg0.N) (r : Fin 5000) (q : Fin 128) :
    k0_pay3 (F := Ideal) (iblk0 V c 0 t) (iblk0 V c 1 t) (iblk0 V c 2 t) (ix2 r q)
      = linAt (V c main_v14) (V c main_v16) (V c main_v19)
          (⟨5000 * t.val + r.val, by have h := t.isLt; have e : cfg0.N = 10 := N_0; have := r.isLt; omega⟩ : Fin 50000) q := by
  obtain ⟨e00, e01, e30, e31, e10, e11, e20, e21, -⟩ := idxR0 t
  rw [r0_y_apply]
  unfold linAt
  have hb : iblk0 V c 2 t (ix2 (0 : Fin 1) q) = V c main_v19 (ix2 (0 : Fin 1) q) := by
    show V c main_v19 (((cfg0.win 2).blk t).view.emb (ix2 (0 : Fin 1) q)) = _
    refine congrArg (V c main_v19) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  rw [hb]
  refine congrArg (· + V c main_v19 (ix2 (0 : Fin 1) q)) (Finset.sum_congr rfl fun i _ => ?_)
  have hz' : iblk0 V c 0 t (ix2 r i) = V c main_v14 (ix2 (⟨5000 * t.val + r.val, by have h := t.isLt; have e : cfg0.N = 10 := N_0; have := r.isLt; omega⟩ : Fin 50000) i) := by
    show V c main_v14 (((cfg0.win 0).blk t).view.emb (ix2 r i)) = _
    refine congrArg (V c main_v14) (funext fun a => Fin.ext ?_)
    match a with
    | ⟨0, _⟩ => show win0_0.index t (0 : Fin 2) * 5000 + 1 * r.val = 5000 * t.val + r.val; omega
    | ⟨1, _⟩ => show win0_0.index t (1 : Fin 2) * 128 + 1 * i.val = i.val; omega
  have hw' : iblk0 V c 1 t (ix2 i q) = V c main_v16 (ix2 i q) := by
    show V c main_v16 (((cfg0.win 1).blk t).view.emb (ix2 i q)) = _
    refine congrArg (V c main_v16) (funext fun a => Fin.ext ?_)
    match a with
    | ⟨0, _⟩ => show win0_1.index t (0 : Fin 2) * 128 + 1 * i.val = i.val; omega
    | ⟨1, _⟩ => show win0_1.index t (1 : Fin 2) * 128 + 1 * q.val = q.val; omega
  rw [hz', hw']

/-! ## The outputs after each point -/

/-- After every point the first output's buffer holds the block the body formed there. -/
theorem outs0_y (c : Dev nD) (t : Fin cfg0.N) :
    (outsAt0 V c t.val t.isLt).1 = k0_pay3 (F := Ideal) (iblk0 V c 0 t) (iblk0 V c 1 t) (iblk0 V c 2 t) := by
  by_cases h0 : t.val % 10 = 0
  · rw [outsAt0_A V c t h0]
    dsimp only
    exact out0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact out0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-- The running column sum at column q after point n (zero past the grid). -/
def accS0 (c : Dev nD) (q : Fin 128) (n : ℕ) : EReal :=
  if h : n < cfg0.N then (outsAt0 V c n h).2.1 (ix2 (0 : Fin 1) q) else 0
/-- The running column sum of squares at column q after point n. -/
def accQ0 (c : Dev nD) (q : Fin 128) (n : ℕ) : EReal :=
  if h : n < cfg0.N then (outsAt0 V c n h).2.2 (ix2 (0 : Fin 1) q) else 0
/-- Point n's block's column sum at column q. -/
def gS0 (c : Dev nD) (q : Fin 128) (n : ℕ) : EReal :=
  if h : n < cfg0.N then ∑ r : Fin 5000, k0_pay3 (F := Ideal) (iblk0 V c 0 ⟨n, h⟩) (iblk0 V c 1 ⟨n, h⟩) (iblk0 V c 2 ⟨n, h⟩) (ix2 r q) else 0
/-- Point n's block's column sum of squares at column q. -/
def gQ0 (c : Dev nD) (q : Fin 128) (n : ℕ) : EReal :=
  if h : n < cfg0.N then ∑ r : Fin 5000, k0_pay3 (F := Ideal) (iblk0 V c 0 ⟨n, h⟩) (iblk0 V c 1 ⟨n, h⟩) (iblk0 V c 2 ⟨n, h⟩) (ix2 r q)
      * k0_pay3 (F := Ideal) (iblk0 V c 0 ⟨n, h⟩) (iblk0 V c 1 ⟨n, h⟩) (iblk0 V c 2 ⟨n, h⟩) (ix2 r q) else 0

theorem accS0_zero (c : Dev nD) (q : Fin 128) : accS0 V c q 0 = Ideal.ofBits .f32 0x00000000#32 + gS0 V c q 0 := by
  have h : 0 < cfg0.N := by rw [show cfg0.N = 10 from N_0]; decide
  unfold accS0 gS0
  rw [dif_pos h, dif_pos h]
  have e : (outsAt0 V c 0 h).2.1 = k0_pay4 (F := Ideal) (iblk0 V c 0 ⟨0, h⟩) (iblk0 V c 1 ⟨0, h⟩) (iblk0 V c 2 ⟨0, h⟩) (k0_pay1 (F := Ideal)) := by
    rw [outsAt0_A V c ⟨0, h⟩ (Nat.zero_mod _)]
    dsimp only
    exact out0_A_4_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr (Nat.zero_mod _)) (iblk0 V c 0 ⟨0, h⟩) (iblk0 V c 1 ⟨0, h⟩) (iblk0 V c 2 ⟨0, h⟩)
  rw [e, r0_s_apply, r0_z1_apply]
  rfl

theorem accS0_succ (c : Dev nD) (q : Fin 128) (n : ℕ) (hn : n + 1 < cfg0.N) :
    accS0 V c q (n + 1) = accS0 V c q n + gS0 V c q (n + 1) := by
  have hN : cfg0.N = 10 := N_0
  have hn' : n < cfg0.N := Nat.lt_of_succ_lt hn
  have hB : ¬(⟨n + 1, hn⟩ : Fin cfg0.N).val % 10 = 0 := by dsimp only; omega
  unfold accS0 gS0
  rw [dif_pos hn, dif_pos hn', dif_pos hn]
  have e : (outsAt0 V c (n + 1) hn).2.1
      = k0_pay4 (F := Ideal) (iblk0 V c 0 ⟨n + 1, hn⟩) (iblk0 V c 1 ⟨n + 1, hn⟩) (iblk0 V c 2 ⟨n + 1, hn⟩) (outsAt0 V c n hn').2.1 := by
    rw [outsAt0_B V c ⟨n + 1, hn⟩ hB]
    dsimp only
    exact out0_B_4_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (outsAt0 V c n hn').2.1 (outsAt0 V c n hn').2.2
  rw [e, r0_s_apply]

theorem accQ0_zero (c : Dev nD) (q : Fin 128) : accQ0 V c q 0 = Ideal.ofBits .f32 0x00000000#32 + gQ0 V c q 0 := by
  have h : 0 < cfg0.N := by rw [show cfg0.N = 10 from N_0]; decide
  unfold accQ0 gQ0
  rw [dif_pos h, dif_pos h]
  have e : (outsAt0 V c 0 h).2.2 = k0_pay5 (F := Ideal) (iblk0 V c 0 ⟨0, h⟩) (iblk0 V c 1 ⟨0, h⟩) (iblk0 V c 2 ⟨0, h⟩) (k0_pay2 (F := Ideal)) := by
    rw [outsAt0_A V c ⟨0, h⟩ (Nat.zero_mod _)]
    dsimp only
    exact out0_A_5_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr (Nat.zero_mod _)) (iblk0 V c 0 ⟨0, h⟩) (iblk0 V c 1 ⟨0, h⟩) (iblk0 V c 2 ⟨0, h⟩)
  rw [e, r0_ss_apply, r0_z2_apply]
  rfl

theorem accQ0_succ (c : Dev nD) (q : Fin 128) (n : ℕ) (hn : n + 1 < cfg0.N) :
    accQ0 V c q (n + 1) = accQ0 V c q n + gQ0 V c q (n + 1) := by
  have hN : cfg0.N = 10 := N_0
  have hn' : n < cfg0.N := Nat.lt_of_succ_lt hn
  have hB : ¬(⟨n + 1, hn⟩ : Fin cfg0.N).val % 10 = 0 := by dsimp only; omega
  unfold accQ0 gQ0
  rw [dif_pos hn, dif_pos hn', dif_pos hn]
  have e : (outsAt0 V c (n + 1) hn).2.2
      = k0_pay5 (F := Ideal) (iblk0 V c 0 ⟨n + 1, hn⟩) (iblk0 V c 1 ⟨n + 1, hn⟩) (iblk0 V c 2 ⟨n + 1, hn⟩) (outsAt0 V c n hn').2.2 := by
    rw [outsAt0_B V c ⟨n + 1, hn⟩ hB]
    dsimp only
    exact out0_B_5_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (outsAt0 V c n hn').2.1 (outsAt0 V c n hn').2.2
  rw [e, r0_ss_apply]

/-- Ten points' column sums are the column sum over all rows. -/
theorem sum_gS0 (c : Dev nD) (q : Fin 128) :
    ∑ n ∈ Finset.range 10, gS0 V c q n = ∑ p : Fin 50000, linAt (V c main_v14) (V c main_v16) (V c main_v19) p q := by
  have hN : cfg0.N = 10 := N_0
  rw [sum_blocks, Finset.sum_range]
  refine Finset.sum_congr rfl fun t _ => ?_
  have ht : t.val < cfg0.N := by have := t.isLt; omega
  unfold gS0
  rw [dif_pos ht]
  exact Finset.sum_congr rfl fun r _ => yblk0 V c ⟨t.val, ht⟩ r q

theorem sum_gQ0 (c : Dev nD) (q : Fin 128) :
    ∑ n ∈ Finset.range 10, gQ0 V c q n
      = ∑ p : Fin 50000, linAt (V c main_v14) (V c main_v16) (V c main_v19) p q * linAt (V c main_v14) (V c main_v16) (V c main_v19) p q := by
  have hN : cfg0.N = 10 := N_0
  rw [sum_blocks, Finset.sum_range]
  refine Finset.sum_congr rfl fun t _ => ?_
  have ht : t.val < cfg0.N := by have := t.isLt; omega
  unfold gQ0
  rw [dif_pos ht]
  exact Finset.sum_congr rfl fun r _ => by rw [yblk0 V c ⟨t.val, ht⟩ r q]

/-- After the last point the running rows hold the column sums over all 50000 rows. -/
theorem last_S0_at (c : Dev nD) (t : Fin cfg0.N) (h9 : t.val = 9) (q : Fin 128) :
    (outsAt0 V c t.val t.isLt).2.1 (ix2 (0 : Fin 1) q) = ∑ p : Fin 50000, linAt (V c main_v14) (V c main_v16) (V c main_v19) p q := by
  have h := Cert.BatchNorm.acc_eq_sum_range_f32 (accS0 V c q) (gS0 V c q) cfg0.N (accS0_zero V c q)
    (fun n hn => accS0_succ V c q n hn) t.val t.isLt
  unfold accS0 at h
  rw [dif_pos t.isLt] at h
  rw [h, show t.val + 1 = 10 by omega, ← sum_gS0 V c q]

theorem last_Q0_at (c : Dev nD) (t : Fin cfg0.N) (h9 : t.val = 9) (q : Fin 128) :
    (outsAt0 V c t.val t.isLt).2.2 (ix2 (0 : Fin 1) q) = ∑ p : Fin 50000, linAt (V c main_v14) (V c main_v16) (V c main_v19) p q * linAt (V c main_v14) (V c main_v16) (V c main_v19) p q := by
  have h := Cert.BatchNorm.acc_eq_sum_range_f32 (accQ0 V c q) (gQ0 V c q) cfg0.N (accQ0_zero V c q)
    (fun n hn => accQ0_succ V c q n hn) t.val t.isLt
  unfold accQ0 at h
  rw [dif_pos t.isLt] at h
  rw [h, show t.val + 1 = 10 by omega, ← sum_gQ0 V c q]

/-! ## The three arrays after the call -/

/-- What point t writes back to the first output is block t of y. -/
theorem flushedR0_3 (c : Dev nD) (t : Fin cfg0.N) :
    (dat0 V c).flushed 3 t = ((cfg0.win 3).blk t).view.read (Elt Ideal) (linArr (V c main_v14) (V c main_v16) (V c main_v19)) := by
  show (cfg0.win 3).cut (grid0.coords t) ((dat0 V c).after 3 t) = _
  rw [after0_3, outs0_y]
  obtain ⟨e00, e01, e30, e31, -⟩ := idxR0 t
  funext y
  show k0_pay3 (F := Ideal) (iblk0 V c 0 t) (iblk0 V c 1 t) (iblk0 V c 2 t) y = linArr (V c main_v14) (V c main_v16) (V c main_v19) (((cfg0.win 3).blk t).view.emb y)
  have hy : (y : S5000x128.Idx) = ix2 (⟨(y 0).val, (y 0).isLt⟩ : Fin 5000) (⟨(y 1).val, (y 1).isLt⟩ : Fin 128) := eq_ix2 (n0 := 5000) (n1 := 128) y
  refine (congrArg (k0_pay3 (F := Ideal) (iblk0 V c 0 t) (iblk0 V c 1 t) (iblk0 V c 2 t)) hy).trans ((yblk0 V c t _ _).trans ?_)
  show linAt _ _ _ _ _ = linAt _ _ _ ((((cfg0.win 3).blk t).view.emb y) 0) ((((cfg0.win 3).blk t).view.emb y) 1)
  refine congrArg₂ (linAt (V c main_v14) (V c main_v16) (V c main_v19)) (Fin.ext ?_) (Fin.ext ?_)
  · show 5000 * t.val + (y 0).val = win0_3.index t (0 : Fin 2) * 5000 + 1 * (y 0).val; omega
  · show (y 1).val = win0_3.index t (1 : Fin 2) * 128 + 1 * (y 1).val; omega

theorem mem_blkR0_3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v20_0).slice (win0_3.rect t)).set ↔ _
  rw [View.set_slice_whole, Rect.mem_set_unit]
  exact Iff.rfl

/-- THE FIRST OUTPUT after the call is y = z · w + b. -/
theorem finalR0_3 (c : Dev nD) :
    (dat0 V c).arrAt 3 cfg0.N = linArr (V c main_v14) (V c main_v16) (V c main_v19) :=
  (dat0 V c).arrAt_eq_of_cover 3 _ (fun t _ => flushedR0_3 V c t) fun i => by
    have hi0 : (i 0).val < 50000 := (i 0).isLt
    have hi1 : (i 1).val < 128 := (i 1).isLt
    have hN : cfg0.N = 10 := N_0
    let t : Fin cfg0.N := ⟨(i 0).val / 5000, by rw [hN]; omega⟩
    obtain ⟨e00, e01, e30, e31, -⟩ := idxR0 t
    have ht : t.val = (i 0).val / 5000 := rfl
    refine ⟨t, flush0_3 t, ?_⟩
    rw [mem_blkR0_3]
    intro a
    match a with
    | ⟨0, _⟩ => show win0_3.index t (0 : Fin 2) * 5000 ≤ (i 0).val ∧ (i 0).val < win0_3.index t (0 : Fin 2) * 5000 + 5000; omega
    | ⟨1, _⟩ => show win0_3.index t (1 : Fin 2) * 128 ≤ (i 1).val ∧ (i 1).val < win0_3.index t (1 : Fin 2) * 128 + 128; omega

/-- What the last point writes back to output 4: the row of column sums over all rows. -/
theorem flushedR0_4 (c : Dev nD) (t : Fin cfg0.N) (hf : (cfg0.win 4).flush t = true) :
    (dat0 V c).flushed 4 t
      = ((cfg0.win 4).blk t).view.read (Elt Ideal) (colSumArr (linArr (V c main_v14) (V c main_v16) (V c main_v19))) := by
  have hN : cfg0.N = 10 := N_0
  have h9 : t.val = 9 := by have := (flush0_4 t).mp hf; have := t.isLt; omega
  obtain ⟨e00, e01, e30, e31, e10, e11, e20, e21, e40, e41, e50, e51⟩ := idxR0 t
  generalize hG : colSumArr (linArr (V c main_v14) (V c main_v16) (V c main_v19)) = G
  show (cfg0.win 4).cut (grid0.coords t) ((dat0 V c).after 4 t) = _
  rw [after0_4]
  funext y
  show (outsAt0 V c t.val t.isLt).2.1 y = G (((cfg0.win 4).blk t).view.emb y)
  subst hG
  have hy : (y : S1x128.Idx) = ix2 (0 : Fin 1) (⟨(y 1).val, (y 1).isLt⟩ : Fin 128) :=
    (eq_ix2 (n0 := 1) (n1 := 128) y).trans (congrArg (fun a => ix2 a (⟨(y 1).val, (y 1).isLt⟩ : Fin 128)) (Fin.ext (by have h1 : (y 0).val < 1 := (y 0).isLt; show (y 0).val = 0; omega)))
  refine (congrArg (outsAt0 V c t.val t.isLt).2.1 hy).trans ((last_S0_at V c t h9 _).trans ?_)
  have hq : (⟨(y 1).val, (y 1).isLt⟩ : Fin 128) = (((cfg0.win 4).blk t).view.emb y) 1 := Fin.ext (by
    show (y 1).val = win0_4.index t (1 : Fin 2) * 128 + 1 * (y 1).val; omega)
  rw [colSumArr_apply]
  exact Finset.sum_congr rfl fun p _ => congrArg (linAt (V c main_v14) (V c main_v16) (V c main_v19) p) hq

theorem mem_blkR0_4 (t : Fin cfg0.N) (i : S1x128.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v20_1).slice (win0_4.rect t)).set ↔ _
  rw [View.set_slice_whole, Rect.mem_set_unit]
  exact Iff.rfl

/-- OUTPUT 4 after the call: the column sums of y over all 50000 rows. -/
theorem finalR0_4 (c : Dev nD) :
    (dat0 V c).arrAt 4 cfg0.N = colSumArr (linArr (V c main_v14) (V c main_v16) (V c main_v19)) :=
  (dat0 V c).arrAt_eq_of_cover 4 _ (fun t hf => flushedR0_4 V c t hf) fun i => by
    have hi0 : (i 0).val < 1 := (i 0).isLt
    have hi1 : (i 1).val < 128 := (i 1).isLt
    have hN : cfg0.N = 10 := N_0
    let t : Fin cfg0.N := ⟨9, by rw [hN]; decide⟩
    obtain ⟨e00, e01, e30, e31, e10, e11, e20, e21, e40, e41, e50, e51⟩ := idxR0 t
    refine ⟨t, (flush0_4 t).mpr rfl, ?_⟩
    rw [mem_blkR0_4]
    intro a
    match a with
    | ⟨0, _⟩ => show win0_4.index t (0 : Fin 2) * 1 ≤ (i 0).val ∧ (i 0).val < win0_4.index t (0 : Fin 2) * 1 + 1; omega
    | ⟨1, _⟩ => show win0_4.index t (1 : Fin 2) * 128 ≤ (i 1).val ∧ (i 1).val < win0_4.index t (1 : Fin 2) * 128 + 128; omega

/-- What the last point writes back to output 5: the row of column sums of squares over all rows. -/
theorem flushedR0_5 (c : Dev nD) (t : Fin cfg0.N) (hf : (cfg0.win 5).flush t = true) :
    (dat0 V c).flushed 5 t
      = ((cfg0.win 5).blk t).view.read (Elt Ideal) (colSqSumArr (linArr (V c main_v14) (V c main_v16) (V c main_v19))) := by
  have hN : cfg0.N = 10 := N_0
  have h9 : t.val = 9 := by have := (flush0_5 t).mp hf; have := t.isLt; omega
  obtain ⟨e00, e01, e30, e31, e10, e11, e20, e21, e40, e41, e50, e51⟩ := idxR0 t
  generalize hG : colSqSumArr (linArr (V c main_v14) (V c main_v16) (V c main_v19)) = G
  show (cfg0.win 5).cut (grid0.coords t) ((dat0 V c).after 5 t) = _
  rw [after0_5]
  funext y
  show (outsAt0 V c t.val t.isLt).2.2 y = G (((cfg0.win 5).blk t).view.emb y)
  subst hG
  have hy : (y : S1x128.Idx) = ix2 (0 : Fin 1) (⟨(y 1).val, (y 1).isLt⟩ : Fin 128) :=
    (eq_ix2 (n0 := 1) (n1 := 128) y).trans (congrArg (fun a => ix2 a (⟨(y 1).val, (y 1).isLt⟩ : Fin 128)) (Fin.ext (by have h1 : (y 0).val < 1 := (y 0).isLt; show (y 0).val = 0; omega)))
  refine (congrArg (outsAt0 V c t.val t.isLt).2.2 hy).trans ((last_Q0_at V c t h9 _).trans ?_)
  have hq : (⟨(y 1).val, (y 1).isLt⟩ : Fin 128) = (((cfg0.win 5).blk t).view.emb y) 1 := Fin.ext (by
    show (y 1).val = win0_5.index t (1 : Fin 2) * 128 + 1 * (y 1).val; omega)
  rw [colSqSumArr_apply]
  exact Finset.sum_congr rfl fun p _ => congrArg (fun x => linAt (V c main_v14) (V c main_v16) (V c main_v19) p x * linAt (V c main_v14) (V c main_v16) (V c main_v19) p x) hq

theorem mem_blkR0_5 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v20_2).slice (win0_5.rect t)).set ↔ _
  rw [View.set_slice_whole, Rect.mem_set_unit]
  exact Iff.rfl

/-- OUTPUT 5 after the call: the column sums of squares of y over all 50000 rows. -/
theorem finalR0_5 (c : Dev nD) :
    (dat0 V c).arrAt 5 cfg0.N = colSqSumArr (linArr (V c main_v14) (V c main_v16) (V c main_v19)) :=
  (dat0 V c).arrAt_eq_of_cover 5 _ (fun t hf => flushedR0_5 V c t hf) fun i => by
    have hi0 : (i 0).val < 1 := (i 0).isLt
    have hi1 : (i 1).val < 128 := (i 1).isLt
    have hN : cfg0.N = 10 := N_0
    let t : Fin cfg0.N := ⟨9, by rw [hN]; decide⟩
    obtain ⟨e00, e01, e30, e31, e10, e11, e20, e21, e40, e41, e50, e51⟩ := idxR0 t
    refine ⟨t, (flush0_5 t).mpr rfl, ?_⟩
    rw [mem_blkR0_5]
    intro a
    match a with
    | ⟨0, _⟩ => show win0_5.index t (0 : Fin 2) * 1 ≤ (i 0).val ∧ (i 0).val < win0_5.index t (0 : Fin 2) * 1 + 1; omega
    | ⟨1, _⟩ => show win0_5.index t (1 : Fin 2) * 128 ≤ (i 1).val ∧ (i 1).val < win0_5.index t (1 : Fin 2) * 128 + 128; omega

end RegionR0

end Cert.KernelIdeal.KV

end
-- ==== Proof.KRegR2.lean ====
/-
  What kernel call 2 leaves in its three output arrays.

  The call runs the first body over ten points. At point t the body reads rows 5000·t … 5000·t + 4999 of the features z
  and the whole weight w and bias row b, writes the same rows of y = z · w + b, and keeps two running rows: at the first
  point it resets them to zero, and at every point it adds the block's column sums, and the column sums of the block's
  squares, to them. The rows are written back once, after the last point. So the first output ends as the array y
  (its ten blocks tile it), and the two rows end as zero plus the ten blocks' column sums added in order, which is the
  column sums over all 50000 rows: a sum of extended reals may be regrouped and its zero dropped.
-/
import proofs.«168398_j7327214207515_1_alg».proof.Proof.Gen.KernelIdeal.Frame
import proofs.«168398_j7327214207515_1_alg».proof.Proof.KPay
import proofs.«168398_j7327214207515_1_alg».proof.Proof.KFun
import proofs.«168398_j7327214207515_1_alg».proof.Proof.LibBatchNorm
import Idealize.ShloMosaic.Lib.Tactic

set_option maxRecDepth 16384

noncomputable section

open scoped BigOperators

namespace Cert.KernelIdeal.KV

open Cert.KernelIdeal Cert.KernelIdeal.Gen Cert.Gin
open Idealize.ShloMosaic Idealize.ShloMosaic.TcCoe Idealize.ShloMosaic.ValueIdx Idealize.SL.Sem Idealize.ShloMosaic.Tactic
open Idealize.ShloMosaic.Pipeline (Dat)

theorem hzR2 : (![0, 0] : Fin 2 → Nat) = fun _ => 0 := funext fun a => by fin_cases a <;> rfl

/-! ## What each case of the body leaves in each output's buffer -/

section Pieces2

variable {F : FTy → Type} [FloatOps F]

/-- First point: the block y. -/
theorem out2_A_3_eq (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i) (x0 : Vec F S5000x128 .f32) (x1 : Vec F S128x128 .f32) (x2 : Vec F S1x128 .f32) :
    out2_A_3 c i a1 h1 a2 h2 a3 h3 a4 h4 a5 h5 a6 h6 hc x0 x1 x2 = k2_pay3 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  rw [View.canon_unit_zero hzR2]
  simp only [View.readAt_eq_ld, h1.read_unread, h2.read_unread, h3.read_unread, h5.read_unread, h6.read_unread,
    View.ld_unit_zero (S := S5000x128) hzR2, View.ld_unit_zero (S := S128x128) hzR2, View.ld_unit_zero (S := S1x128) hzR2]

/-- Later points: the block y. -/
theorem out2_B_3_eq (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S5000x128 .f32) (x1 : Vec F S128x128 .f32) (x2 : Vec F S1x128 .f32)
    (xo4 xo5 : Vec F S1x128 .f32) :
    out2_B_3 c i a1 h1 a2 h2 a3 h3 a4 h4 a5 h5 a6 h6 hc x0 x1 x2 xo4 xo5 = k2_pay3 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  rw [View.canon_unit_zero hzR2]
  simp only [View.readAt_eq_ld, h1.read_unread, h2.read_unread, h3.read_unread, h5.read_unread, h6.read_unread,
    View.ld_unit_zero (S := S5000x128) hzR2, View.ld_unit_zero (S := S128x128) hzR2, View.ld_unit_zero (S := S1x128) hzR2]

/-- First point: the running sums start from the stored zeros. -/
theorem out2_A_4_eq (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i) (x0 : Vec F S5000x128 .f32) (x1 : Vec F S128x128 .f32) (x2 : Vec F S1x128 .f32) :
    out2_A_4 c i a1 h1 a2 h2 a3 h3 a4 h4 a5 h5 a6 h6 hc x0 x1 x2 = k2_pay4 x0 x1 x2 k2_pay1 := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x128) hzR2, View.readCov_unit_zero (S := S1x128) _ hzR2]
  simp only [View.readAt_eq_ld, h1.read_unread, h2.read_unread, h3.read_unread, h5.read_unread, h6.read_unread,
    View.ld_unit_zero (S := S5000x128) hzR2, View.ld_unit_zero (S := S128x128) hzR2, View.ld_unit_zero (S := S1x128) hzR2]

/-- Later points: the running sums continue from what the point before left. -/
theorem out2_B_4_eq (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S5000x128 .f32) (x1 : Vec F S128x128 .f32) (x2 : Vec F S1x128 .f32)
    (xo4 xo5 : Vec F S1x128 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  rw [View.canon_unit_zero hzR2]
  simp only [View.readAt_eq_ld, h1.read_unread, h2.read_unread, h3.read_unread, h5.read_unread, h6.read_unread,
    View.ld_unit_zero (S := S5000x128) hzR2, View.ld_unit_zero (S := S128x128) hzR2, View.ld_unit_zero (S := S1x128) hzR2]

/-- First point: the running sums of squares start from the stored zeros. -/
theorem out2_A_5_eq (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i) (x0 : Vec F S5000x128 .f32) (x1 : Vec F S128x128 .f32) (x2 : Vec F S1x128 .f32) :
    out2_A_5 c i a1 h1 a2 h2 a3 h3 a4 h4 a5 h5 a6 h6 hc x0 x1 x2 = k2_pay5 x0 x1 x2 k2_pay2 := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x128) hzR2, View.readCov_unit_zero (S := S1x128) _ hzR2]
  simp only [View.readAt_eq_ld, h1.read_unread, h2.read_unread, h3.read_unread, h5.read_unread, h6.read_unread,
    View.ld_unit_zero (S := S5000x128) hzR2, View.ld_unit_zero (S := S128x128) hzR2, View.ld_unit_zero (S := S1x128) hzR2]

/-- Later points: the running sums of squares continue. -/
theorem out2_B_5_eq (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S5000x128 .f32) (x1 : Vec F S128x128 .f32) (x2 : Vec F S1x128 .f32)
    (xo4 xo5 : Vec F S1x128 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  rw [View.canon_unit_zero hzR2]
  simp only [View.readAt_eq_ld, h1.read_unread, h2.read_unread, h3.read_unread, h5.read_unread, h6.read_unread,
    View.ld_unit_zero (S := S5000x128) hzR2, View.ld_unit_zero (S := S128x128) hzR2, View.ld_unit_zero (S := S1x128) hzR2]

end Pieces2

section RegionR2

variable (V : (c : Dev nD) → (b : Ref sig .tc) → Buf (Elt Ideal) ((c : Thread nD τ).loc b))

/-- The call's index maps over its ten points: the row-block windows (input 0, output 3) sit at block t, every other
    window at block 0. -/
theorem idxR2 : ∀ t : Fin cfg2.N, win2_0.index t (0 : Fin 2) = t.val ∧ win2_0.index t (1 : Fin 2) = 0
    ∧ win2_3.index t (0 : Fin 2) = t.val ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The block the body forms at point t, at row r and column q, is entry (5000·t + r, q) of z · w + b. -/
theorem yblk2 (c : Dev nD) (t : Fin cfg2.N) (r : Fin 5000) (q : Fin 128) :
    k2_pay3 (F := Ideal) (iblk2 V c 0 t) (iblk2 V c 1 t) (iblk2 V c 2 t) (ix2 r q)
      = linAt (V c main_v51) (V c main_v53) (V c main_v56)
          (⟨5000 * t.val + r.val, by have h := t.isLt; have e : cfg2.N = 10 := N_2; have := r.isLt; omega⟩ : Fin 50000) q := by
  obtain ⟨e00, e01, e30, e31, e10, e11, e20, e21, -⟩ := idxR2 t
  rw [r2_y_apply]
  unfold linAt
  have hb : iblk2 V c 2 t (ix2 (0 : Fin 1) q) = V c main_v56 (ix2 (0 : Fin 1) q) := by
    show V c main_v56 (((cfg2.win 2).blk t).view.emb (ix2 (0 : Fin 1) q)) = _
    refine congrArg (V c main_v56) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  rw [hb]
  refine congrArg (· + V c main_v56 (ix2 (0 : Fin 1) q)) (Finset.sum_congr rfl fun i _ => ?_)
  have hz' : iblk2 V c 0 t (ix2 r i) = V c main_v51 (ix2 (⟨5000 * t.val + r.val, by have h := t.isLt; have e : cfg2.N = 10 := N_2; have := r.isLt; omega⟩ : Fin 50000) i) := by
    show V c main_v51 (((cfg2.win 0).blk t).view.emb (ix2 r i)) = _
    refine congrArg (V c main_v51) (funext fun a => Fin.ext ?_)
    match a with
    | ⟨0, _⟩ => show win2_0.index t (0 : Fin 2) * 5000 + 1 * r.val = 5000 * t.val + r.val; omega
    | ⟨1, _⟩ => show win2_0.index t (1 : Fin 2) * 128 + 1 * i.val = i.val; omega
  have hw' : iblk2 V c 1 t (ix2 i q) = V c main_v53 (ix2 i q) := by
    show V c main_v53 (((cfg2.win 1).blk t).view.emb (ix2 i q)) = _
    refine congrArg (V c main_v53) (funext fun a => Fin.ext ?_)
    match a with
    | ⟨0, _⟩ => show win2_1.index t (0 : Fin 2) * 128 + 1 * i.val = i.val; omega
    | ⟨1, _⟩ => show win2_1.index t (1 : Fin 2) * 128 + 1 * q.val = q.val; omega
  rw [hz', hw']

/-! ## The outputs after each point -/

/-- After every point the first output's buffer holds the block the body formed there. -/
theorem outs2_y (c : Dev nD) (t : Fin cfg2.N) :
    (outsAt2 V c t.val t.isLt).1 = k2_pay3 (F := Ideal) (iblk2 V c 0 t) (iblk2 V c 1 t) (iblk2 V c 2 t) := by
  by_cases h0 : t.val % 10 = 0
  · rw [outsAt2_A V c t h0]
    dsimp only
    exact out2_A_3_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)
  · rw [outsAt2_B V c t h0]
    dsimp only
    exact out2_B_3_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2

/-- The running column sum at column q after point n (zero past the grid). -/
def accS2 (c : Dev nD) (q : Fin 128) (n : ℕ) : EReal :=
  if h : n < cfg2.N then (outsAt2 V c n h).2.1 (ix2 (0 : Fin 1) q) else 0
/-- The running column sum of squares at column q after point n. -/
def accQ2 (c : Dev nD) (q : Fin 128) (n : ℕ) : EReal :=
  if h : n < cfg2.N then (outsAt2 V c n h).2.2 (ix2 (0 : Fin 1) q) else 0
/-- Point n's block's column sum at column q. -/
def gS2 (c : Dev nD) (q : Fin 128) (n : ℕ) : EReal :=
  if h : n < cfg2.N then ∑ r : Fin 5000, k2_pay3 (F := Ideal) (iblk2 V c 0 ⟨n, h⟩) (iblk2 V c 1 ⟨n, h⟩) (iblk2 V c 2 ⟨n, h⟩) (ix2 r q) else 0
/-- Point n's block's column sum of squares at column q. -/
def gQ2 (c : Dev nD) (q : Fin 128) (n : ℕ) : EReal :=
  if h : n < cfg2.N then ∑ r : Fin 5000, k2_pay3 (F := Ideal) (iblk2 V c 0 ⟨n, h⟩) (iblk2 V c 1 ⟨n, h⟩) (iblk2 V c 2 ⟨n, h⟩) (ix2 r q)
      * k2_pay3 (F := Ideal) (iblk2 V c 0 ⟨n, h⟩) (iblk2 V c 1 ⟨n, h⟩) (iblk2 V c 2 ⟨n, h⟩) (ix2 r q) else 0

theorem accS2_zero (c : Dev nD) (q : Fin 128) : accS2 V c q 0 = Ideal.ofBits .f32 0x00000000#32 + gS2 V c q 0 := by
  have h : 0 < cfg2.N := by rw [show cfg2.N = 10 from N_2]; decide
  unfold accS2 gS2
  rw [dif_pos h, dif_pos h]
  have e : (outsAt2 V c 0 h).2.1 = k2_pay4 (F := Ideal) (iblk2 V c 0 ⟨0, h⟩) (iblk2 V c 1 ⟨0, h⟩) (iblk2 V c 2 ⟨0, h⟩) (k2_pay1 (F := Ideal)) := by
    rw [outsAt2_A V c ⟨0, h⟩ (Nat.zero_mod _)]
    dsimp only
    exact out2_A_4_eq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) ((hcond2_0 ⟨0, h⟩).mpr (Nat.zero_mod _)) (iblk2 V c 0 ⟨0, h⟩) (iblk2 V c 1 ⟨0, h⟩) (iblk2 V c 2 ⟨0, h⟩)
  rw [e, r2_s_apply, r2_z1_apply]
  rfl

theorem accS2_succ (c : Dev nD) (q : Fin 128) (n : ℕ) (hn : n + 1 < cfg2.N) :
    accS2 V c q (n + 1) = accS2 V c q n + gS2 V c q (n + 1) := by
  have hN : cfg2.N = 10 := N_2
  have hn' : n < cfg2.N := Nat.lt_of_succ_lt hn
  have hB : ¬(⟨n + 1, hn⟩ : Fin cfg2.N).val % 10 = 0 := by dsimp only; omega
  unfold accS2 gS2
  rw [dif_pos hn, dif_pos hn', dif_pos hn]
  have e : (outsAt2 V c (n + 1) hn).2.1
      = k2_pay4 (F := Ideal) (iblk2 V c 0 ⟨n + 1, hn⟩) (iblk2 V c 1 ⟨n + 1, hn⟩) (iblk2 V c 2 ⟨n + 1, hn⟩) (outsAt2 V c n hn').2.1 := by
    rw [outsAt2_B V c ⟨n + 1, hn⟩ hB]
    dsimp only
    exact out2_B_4_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (outsAt2 V c n hn').2.1 (outsAt2 V c n hn').2.2
  rw [e, r2_s_apply]

theorem accQ2_zero (c : Dev nD) (q : Fin 128) : accQ2 V c q 0 = Ideal.ofBits .f32 0x00000000#32 + gQ2 V c q 0 := by
  have h : 0 < cfg2.N := by rw [show cfg2.N = 10 from N_2]; decide
  unfold accQ2 gQ2
  rw [dif_pos h, dif_pos h]
  have e : (outsAt2 V c 0 h).2.2 = k2_pay5 (F := Ideal) (iblk2 V c 0 ⟨0, h⟩) (iblk2 V c 1 ⟨0, h⟩) (iblk2 V c 2 ⟨0, h⟩) (k2_pay2 (F := Ideal)) := by
    rw [outsAt2_A V c ⟨0, h⟩ (Nat.zero_mod _)]
    dsimp only
    exact out2_A_5_eq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) ((hcond2_0 ⟨0, h⟩).mpr (Nat.zero_mod _)) (iblk2 V c 0 ⟨0, h⟩) (iblk2 V c 1 ⟨0, h⟩) (iblk2 V c 2 ⟨0, h⟩)
  rw [e, r2_ss_apply, r2_z2_apply]
  rfl

theorem accQ2_succ (c : Dev nD) (q : Fin 128) (n : ℕ) (hn : n + 1 < cfg2.N) :
    accQ2 V c q (n + 1) = accQ2 V c q n + gQ2 V c q (n + 1) := by
  have hN : cfg2.N = 10 := N_2
  have hn' : n < cfg2.N := Nat.lt_of_succ_lt hn
  have hB : ¬(⟨n + 1, hn⟩ : Fin cfg2.N).val % 10 = 0 := by dsimp only; omega
  unfold accQ2 gQ2
  rw [dif_pos hn, dif_pos hn', dif_pos hn]
  have e : (outsAt2 V c (n + 1) hn).2.2
      = k2_pay5 (F := Ideal) (iblk2 V c 0 ⟨n + 1, hn⟩) (iblk2 V c 1 ⟨n + 1, hn⟩) (iblk2 V c 2 ⟨n + 1, hn⟩) (outsAt2 V c n hn').2.2 := by
    rw [outsAt2_B V c ⟨n + 1, hn⟩ hB]
    dsimp only
    exact out2_B_5_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (outsAt2 V c n hn').2.1 (outsAt2 V c n hn').2.2
  rw [e, r2_ss_apply]

/-- Ten points' column sums are the column sum over all rows. -/
theorem sum_gS2 (c : Dev nD) (q : Fin 128) :
    ∑ n ∈ Finset.range 10, gS2 V c q n = ∑ p : Fin 50000, linAt (V c main_v51) (V c main_v53) (V c main_v56) p q := by
  have hN : cfg2.N = 10 := N_2
  rw [sum_blocks, Finset.sum_range]
  refine Finset.sum_congr rfl fun t _ => ?_
  have ht : t.val < cfg2.N := by have := t.isLt; omega
  unfold gS2
  rw [dif_pos ht]
  exact Finset.sum_congr rfl fun r _ => yblk2 V c ⟨t.val, ht⟩ r q

theorem sum_gQ2 (c : Dev nD) (q : Fin 128) :
    ∑ n ∈ Finset.range 10, gQ2 V c q n
      = ∑ p : Fin 50000, linAt (V c main_v51) (V c main_v53) (V c main_v56) p q * linAt (V c main_v51) (V c main_v53) (V c main_v56) p q := by
  have hN : cfg2.N = 10 := N_2
  rw [sum_blocks, Finset.sum_range]
  refine Finset.sum_congr rfl fun t _ => ?_
  have ht : t.val < cfg2.N := by have := t.isLt; omega
  unfold gQ2
  rw [dif_pos ht]
  exact Finset.sum_congr rfl fun r _ => by rw [yblk2 V c ⟨t.val, ht⟩ r q]

/-- After the last point the running rows hold the column sums over all 50000 rows. -/
theorem last_S2_at (c : Dev nD) (t : Fin cfg2.N) (h9 : t.val = 9) (q : Fin 128) :
    (outsAt2 V c t.val t.isLt).2.1 (ix2 (0 : Fin 1) q) = ∑ p : Fin 50000, linAt (V c main_v51) (V c main_v53) (V c main_v56) p q := by
  have h := Cert.BatchNorm.acc_eq_sum_range_f32 (accS2 V c q) (gS2 V c q) cfg2.N (accS2_zero V c q)
    (fun n hn => accS2_succ V c q n hn) t.val t.isLt
  unfold accS2 at h
  rw [dif_pos t.isLt] at h
  rw [h, show t.val + 1 = 10 by omega, ← sum_gS2 V c q]

theorem last_Q2_at (c : Dev nD) (t : Fin cfg2.N) (h9 : t.val = 9) (q : Fin 128) :
    (outsAt2 V c t.val t.isLt).2.2 (ix2 (0 : Fin 1) q) = ∑ p : Fin 50000, linAt (V c main_v51) (V c main_v53) (V c main_v56) p q * linAt (V c main_v51) (V c main_v53) (V c main_v56) p q := by
  have h := Cert.BatchNorm.acc_eq_sum_range_f32 (accQ2 V c q) (gQ2 V c q) cfg2.N (accQ2_zero V c q)
    (fun n hn => accQ2_succ V c q n hn) t.val t.isLt
  unfold accQ2 at h
  rw [dif_pos t.isLt] at h
  rw [h, show t.val + 1 = 10 by omega, ← sum_gQ2 V c q]

/-! ## The three arrays after the call -/

/-- What point t writes back to the first output is block t of y. -/
theorem flushedR2_3 (c : Dev nD) (t : Fin cfg2.N) :
    (dat2 V c).flushed 3 t = ((cfg2.win 3).blk t).view.read (Elt Ideal) (linArr (V c main_v51) (V c main_v53) (V c main_v56)) := by
  show (cfg2.win 3).cut (grid2.coords t) ((dat2 V c).after 3 t) = _
  rw [after2_3, outs2_y]
  obtain ⟨e00, e01, e30, e31, -⟩ := idxR2 t
  funext y
  show k2_pay3 (F := Ideal) (iblk2 V c 0 t) (iblk2 V c 1 t) (iblk2 V c 2 t) y = linArr (V c main_v51) (V c main_v53) (V c main_v56) (((cfg2.win 3).blk t).view.emb y)
  have hy : (y : S5000x128.Idx) = ix2 (⟨(y 0).val, (y 0).isLt⟩ : Fin 5000) (⟨(y 1).val, (y 1).isLt⟩ : Fin 128) := eq_ix2 (n0 := 5000) (n1 := 128) y
  refine (congrArg (k2_pay3 (F := Ideal) (iblk2 V c 0 t) (iblk2 V c 1 t) (iblk2 V c 2 t)) hy).trans ((yblk2 V c t _ _).trans ?_)
  show linAt _ _ _ _ _ = linAt _ _ _ ((((cfg2.win 3).blk t).view.emb y) 0) ((((cfg2.win 3).blk t).view.emb y) 1)
  refine congrArg₂ (linAt (V c main_v51) (V c main_v53) (V c main_v56)) (Fin.ext ?_) (Fin.ext ?_)
  · show 5000 * t.val + (y 0).val = win2_3.index t (0 : Fin 2) * 5000 + 1 * (y 0).val; omega
  · show (y 1).val = win2_3.index t (1 : Fin 2) * 128 + 1 * (y 1).val; omega

theorem mem_blkR2_3 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v57_0).slice (win2_3.rect t)).set ↔ _
  rw [View.set_slice_whole, Rect.mem_set_unit]
  exact Iff.rfl

/-- THE FIRST OUTPUT after the call is y = z · w + b. -/
theorem finalR2_3 (c : Dev nD) :
    (dat2 V c).arrAt 3 cfg2.N = linArr (V c main_v51) (V c main_v53) (V c main_v56) :=
  (dat2 V c).arrAt_eq_of_cover 3 _ (fun t _ => flushedR2_3 V c t) fun i => by
    have hi0 : (i 0).val < 50000 := (i 0).isLt
    have hi1 : (i 1).val < 128 := (i 1).isLt
    have hN : cfg2.N = 10 := N_2
    let t : Fin cfg2.N := ⟨(i 0).val / 5000, by rw [hN]; omega⟩
    obtain ⟨e00, e01, e30, e31, -⟩ := idxR2 t
    have ht : t.val = (i 0).val / 5000 := rfl
    refine ⟨t, flush2_3 t, ?_⟩
    rw [mem_blkR2_3]
    intro a
    match a with
    | ⟨0, _⟩ => show win2_3.index t (0 : Fin 2) * 5000 ≤ (i 0).val ∧ (i 0).val < win2_3.index t (0 : Fin 2) * 5000 + 5000; omega
    | ⟨1, _⟩ => show win2_3.index t (1 : Fin 2) * 128 ≤ (i 1).val ∧ (i 1).val < win2_3.index t (1 : Fin 2) * 128 + 128; omega

/-- What the last point writes back to output 4: the row of column sums over all rows. -/
theorem flushedR2_4 (c : Dev nD) (t : Fin cfg2.N) (hf : (cfg2.win 4).flush t = true) :
    (dat2 V c).flushed 4 t
      = ((cfg2.win 4).blk t).view.read (Elt Ideal) (colSumArr (linArr (V c main_v51) (V c main_v53) (V c main_v56))) := by
  have hN : cfg2.N = 10 := N_2
  have h9 : t.val = 9 := by have := (flush2_4 t).mp hf; have := t.isLt; omega
  obtain ⟨e00, e01, e30, e31, e10, e11, e20, e21, e40, e41, e50, e51⟩ := idxR2 t
  generalize hG : colSumArr (linArr (V c main_v51) (V c main_v53) (V c main_v56)) = G
  show (cfg2.win 4).cut (grid2.coords t) ((dat2 V c).after 4 t) = _
  rw [after2_4]
  funext y
  show (outsAt2 V c t.val t.isLt).2.1 y = G (((cfg2.win 4).blk t).view.emb y)
  subst hG
  have hy : (y : S1x128.Idx) = ix2 (0 : Fin 1) (⟨(y 1).val, (y 1).isLt⟩ : Fin 128) :=
    (eq_ix2 (n0 := 1) (n1 := 128) y).trans (congrArg (fun a => ix2 a (⟨(y 1).val, (y 1).isLt⟩ : Fin 128)) (Fin.ext (by have h1 : (y 0).val < 1 := (y 0).isLt; show (y 0).val = 0; omega)))
  refine (congrArg (outsAt2 V c t.val t.isLt).2.1 hy).trans ((last_S2_at V c t h9 _).trans ?_)
  have hq : (⟨(y 1).val, (y 1).isLt⟩ : Fin 128) = (((cfg2.win 4).blk t).view.emb y) 1 := Fin.ext (by
    show (y 1).val = win2_4.index t (1 : Fin 2) * 128 + 1 * (y 1).val; omega)
  rw [colSumArr_apply]
  exact Finset.sum_congr rfl fun p _ => congrArg (linAt (V c main_v51) (V c main_v53) (V c main_v56) p) hq

theorem mem_blkR2_4 (t : Fin cfg2.N) (i : S1x128.Idx) :
    i ∈ ((cfg2.win 4).blk t).view.set ↔ ∀ a : Fin 2, win2_4.index t a * S1x128.size a ≤ (i a).val ∧ (i a).val < win2_4.index t a * S1x128.size a + S1x128.size a := by
  show i ∈ ((View.whole main_v57_1).slice (win2_4.rect t)).set ↔ _
  rw [View.set_slice_whole, Rect.mem_set_unit]
  exact Iff.rfl

/-- OUTPUT 4 after the call: the column sums of y over all 50000 rows. -/
theorem finalR2_4 (c : Dev nD) :
    (dat2 V c).arrAt 4 cfg2.N = colSumArr (linArr (V c main_v51) (V c main_v53) (V c main_v56)) :=
  (dat2 V c).arrAt_eq_of_cover 4 _ (fun t hf => flushedR2_4 V c t hf) fun i => by
    have hi0 : (i 0).val < 1 := (i 0).isLt
    have hi1 : (i 1).val < 128 := (i 1).isLt
    have hN : cfg2.N = 10 := N_2
    let t : Fin cfg2.N := ⟨9, by rw [hN]; decide⟩
    obtain ⟨e00, e01, e30, e31, e10, e11, e20, e21, e40, e41, e50, e51⟩ := idxR2 t
    refine ⟨t, (flush2_4 t).mpr rfl, ?_⟩
    rw [mem_blkR2_4]
    intro a
    match a with
    | ⟨0, _⟩ => show win2_4.index t (0 : Fin 2) * 1 ≤ (i 0).val ∧ (i 0).val < win2_4.index t (0 : Fin 2) * 1 + 1; omega
    | ⟨1, _⟩ => show win2_4.index t (1 : Fin 2) * 128 ≤ (i 1).val ∧ (i 1).val < win2_4.index t (1 : Fin 2) * 128 + 128; omega

/-- What the last point writes back to output 5: the row of column sums of squares over all rows. -/
theorem flushedR2_5 (c : Dev nD) (t : Fin cfg2.N) (hf : (cfg2.win 5).flush t = true) :
    (dat2 V c).flushed 5 t
      = ((cfg2.win 5).blk t).view.read (Elt Ideal) (colSqSumArr (linArr (V c main_v51) (V c main_v53) (V c main_v56))) := by
  have hN : cfg2.N = 10 := N_2
  have h9 : t.val = 9 := by have := (flush2_5 t).mp hf; have := t.isLt; omega
  obtain ⟨e00, e01, e30, e31, e10, e11, e20, e21, e40, e41, e50, e51⟩ := idxR2 t
  generalize hG : colSqSumArr (linArr (V c main_v51) (V c main_v53) (V c main_v56)) = G
  show (cfg2.win 5).cut (grid2.coords t) ((dat2 V c).after 5 t) = _
  rw [after2_5]
  funext y
  show (outsAt2 V c t.val t.isLt).2.2 y = G (((cfg2.win 5).blk t).view.emb y)
  subst hG
  have hy : (y : S1x128.Idx) = ix2 (0 : Fin 1) (⟨(y 1).val, (y 1).isLt⟩ : Fin 128) :=
    (eq_ix2 (n0 := 1) (n1 := 128) y).trans (congrArg (fun a => ix2 a (⟨(y 1).val, (y 1).isLt⟩ : Fin 128)) (Fin.ext (by have h1 : (y 0).val < 1 := (y 0).isLt; show (y 0).val = 0; omega)))
  refine (congrArg (outsAt2 V c t.val t.isLt).2.2 hy).trans ((last_Q2_at V c t h9 _).trans ?_)
  have hq : (⟨(y 1).val, (y 1).isLt⟩ : Fin 128) = (((cfg2.win 5).blk t).view.emb y) 1 := Fin.ext (by
    show (y 1).val = win2_5.index t (1 : Fin 2) * 128 + 1 * (y 1).val; omega)
  rw [colSqSumArr_apply]
  exact Finset.sum_congr rfl fun p _ => congrArg (fun x => linAt (V c main_v51) (V c main_v53) (V c main_v56) p x * linAt (V c main_v51) (V c main_v53) (V c main_v56) p x) hq

theorem mem_blkR2_5 (t : Fin cfg2.N) (i : S1x128.Idx) :
    i ∈ ((cfg2.win 5).blk t).view.set ↔ ∀ a : Fin 2, win2_5.index t a * S1x128.size a ≤ (i a).val ∧ (i a).val < win2_5.index t a * S1x128.size a + S1x128.size a := by
  show i ∈ ((View.whole main_v57_2).slice (win2_5.rect t)).set ↔ _
  rw [View.set_slice_whole, Rect.mem_set_unit]
  exact Iff.rfl

/-- OUTPUT 5 after the call: the column sums of squares of y over all 50000 rows. -/
theorem finalR2_5 (c : Dev nD) :
    (dat2 V c).arrAt 5 cfg2.N = colSqSumArr (linArr (V c main_v51) (V c main_v53) (V c main_v56)) :=
  (dat2 V c).arrAt_eq_of_cover 5 _ (fun t hf => flushedR2_5 V c t hf) fun i => by
    have hi0 : (i 0).val < 1 := (i 0).isLt
    have hi1 : (i 1).val < 128 := (i 1).isLt
    have hN : cfg2.N = 10 := N_2
    let t : Fin cfg2.N := ⟨9, by rw [hN]; decide⟩
    obtain ⟨e00, e01, e30, e31, e10, e11, e20, e21, e40, e41, e50, e51⟩ := idxR2 t
    refine ⟨t, (flush2_5 t).mpr rfl, ?_⟩
    rw [mem_blkR2_5]
    intro a
    match a with
    | ⟨0, _⟩ => show win2_5.index t (0 : Fin 2) * 1 ≤ (i 0).val ∧ (i 0).val < win2_5.index t (0 : Fin 2) * 1 + 1; omega
    | ⟨1, _⟩ => show win2_5.index t (1 : Fin 2) * 128 ≤ (i 1).val ∧ (i 1).val < win2_5.index t (1 : Fin 2) * 128 + 128; omega

end RegionR2

end Cert.KernelIdeal.KV

end
-- ==== Proof.KRegR4.lean ====
/-
  What kernel call 4 leaves in its three output arrays.

  The call runs the first body over ten points. At point t the body reads rows 5000·t … 5000·t + 4999 of the features z
  and the whole weight w and bias row b, writes the same rows of y = z · w + b, and keeps two running rows: at the first
  point it resets them to zero, and at every point it adds the block's column sums, and the column sums of the block's
  squares, to them. The rows are written back once, after the last point. So the first output ends as the array y
  (its ten blocks tile it), and the two rows end as zero plus the ten blocks' column sums added in order, which is the
  column sums over all 50000 rows: a sum of extended reals may be regrouped and its zero dropped.
-/
import proofs.«168398_j7327214207515_1_alg».proof.Proof.Gen.KernelIdeal.Frame
import proofs.«168398_j7327214207515_1_alg».proof.Proof.KPay
import proofs.«168398_j7327214207515_1_alg».proof.Proof.KFun
import proofs.«168398_j7327214207515_1_alg».proof.Proof.LibBatchNorm
import Idealize.ShloMosaic.Lib.Tactic

set_option maxRecDepth 16384

noncomputable section

open scoped BigOperators

namespace Cert.KernelIdeal.KV

open Cert.KernelIdeal Cert.KernelIdeal.Gen Cert.Gin
open Idealize.ShloMosaic Idealize.ShloMosaic.TcCoe Idealize.ShloMosaic.ValueIdx Idealize.SL.Sem Idealize.ShloMosaic.Tactic
open Idealize.ShloMosaic.Pipeline (Dat)

theorem hzR4 : (![0, 0] : Fin 2 → Nat) = fun _ => 0 := funext fun a => by fin_cases a <;> rfl

/-! ## What each case of the body leaves in each output's buffer -/

section Pieces4

variable {F : FTy → Type} [FloatOps F]

/-- First point: the block y. -/
theorem out4_A_3_eq (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond4_0 i) (x0 : Vec F S5000x128 .f32) (x1 : Vec F S128x128 .f32) (x2 : Vec F S1x128 .f32) :
    out4_A_3 c i a1 h1 a2 h2 a3 h3 a4 h4 a5 h5 a6 h6 hc x0 x1 x2 = k4_pay3 x0 x1 x2 := by
  unfold out4_A_3
  rw [View.read_writes_eq_canon _ _ _ (cover4_A_3 c i a1 h1 a2 h2 a3 h3 a4 h4 a5 h5 a6 h6 hc x0 x1 x2)]
  unfold kernelRun4_A
  dsimp only
  rw [View.canon_unit_zero hzR4]
  simp only [View.readAt_eq_ld, h1.read_unread, h2.read_unread, h3.read_unread, h5.read_unread, h6.read_unread,
    View.ld_unit_zero (S := S5000x128) hzR4, View.ld_unit_zero (S := S128x128) hzR4, View.ld_unit_zero (S := S1x128) hzR4]

/-- Later points: the block y. -/
theorem out4_B_3_eq (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond4_0 i) (x0 : Vec F S5000x128 .f32) (x1 : Vec F S128x128 .f32) (x2 : Vec F S1x128 .f32)
    (xo4 xo5 : Vec F S1x128 .f32) :
    out4_B_3 c i a1 h1 a2 h2 a3 h3 a4 h4 a5 h5 a6 h6 hc x0 x1 x2 xo4 xo5 = k4_pay3 x0 x1 x2 := by
  unfold out4_B_3
  rw [View.read_writes_eq_canon _ _ _ (cover4_B_3 c i a1 h1 a2 h2 a3 h3 a4 h4 a5 h5 a6 h6 hc x0 x1 x2 xo4 xo5)]
  unfold kernelRun4_B
  dsimp only
  rw [View.canon_unit_zero hzR4]
  simp only [View.readAt_eq_ld, h1.read_unread, h2.read_unread, h3.read_unread, h5.read_unread, h6.read_unread,
    View.ld_unit_zero (S := S5000x128) hzR4, View.ld_unit_zero (S := S128x128) hzR4, View.ld_unit_zero (S := S1x128) hzR4]

/-- First point: the running sums start from the stored zeros. -/
theorem out4_A_4_eq (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond4_0 i) (x0 : Vec F S5000x128 .f32) (x1 : Vec F S128x128 .f32) (x2 : Vec F S1x128 .f32) :
    out4_A_4 c i a1 h1 a2 h2 a3 h3 a4 h4 a5 h5 a6 h6 hc x0 x1 x2 = k4_pay4 x0 x1 x2 k4_pay1 := by
  unfold out4_A_4
  rw [View.read_writes_eq_canon _ _ _ (cover4_A_4 c i a1 h1 a2 h2 a3 h3 a4 h4 a5 h5 a6 h6 hc x0 x1 x2)]
  unfold kernelRun4_A
  dsimp only
  sl_unfold_words
  rw [View.canon_cons_unit_zero (S := S1x128) hzR4, View.readCov_unit_zero (S := S1x128) _ hzR4]
  simp only [View.readAt_eq_ld, h1.read_unread, h2.read_unread, h3.read_unread, h5.read_unread, h6.read_unread,
    View.ld_unit_zero (S := S5000x128) hzR4, View.ld_unit_zero (S := S128x128) hzR4, View.ld_unit_zero (S := S1x128) hzR4]

/-- Later points: the running sums continue from what the point before left. -/
theorem out4_B_4_eq (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond4_0 i) (x0 : Vec F S5000x128 .f32) (x1 : Vec F S128x128 .f32) (x2 : Vec F S1x128 .f32)
    (xo4 xo5 : Vec F S1x128 .f32) :
    out4_B_4 c i a1 h1 a2 h2 a3 h3 a4 h4 a5 h5 a6 h6 hc x0 x1 x2 xo4 xo5 = k4_pay4 x0 x1 x2 xo4 := by
  unfold out4_B_4
  rw [View.read_writes_eq_canon _ _ _ (cover4_B_4 c i a1 h1 a2 h2 a3 h3 a4 h4 a5 h5 a6 h6 hc x0 x1 x2 xo4 xo5)]
  unfold kernelRun4_B
  dsimp only
  rw [View.canon_unit_zero hzR4]
  simp only [View.readAt_eq_ld, h1.read_unread, h2.read_unread, h3.read_unread, h5.read_unread, h6.read_unread,
    View.ld_unit_zero (S := S5000x128) hzR4, View.ld_unit_zero (S := S128x128) hzR4, View.ld_unit_zero (S := S1x128) hzR4]

/-- First point: the running sums of squares start from the stored zeros. -/
theorem out4_A_5_eq (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond4_0 i) (x0 : Vec F S5000x128 .f32) (x1 : Vec F S128x128 .f32) (x2 : Vec F S1x128 .f32) :
    out4_A_5 c i a1 h1 a2 h2 a3 h3 a4 h4 a5 h5 a6 h6 hc x0 x1 x2 = k4_pay5 x0 x1 x2 k4_pay2 := by
  unfold out4_A_5
  rw [View.read_writes_eq_canon _ _ _ (cover4_A_5 c i a1 h1 a2 h2 a3 h3 a4 h4 a5 h5 a6 h6 hc x0 x1 x2)]
  unfold kernelRun4_A
  dsimp only
  sl_unfold_words
  rw [View.canon_cons_unit_zero (S := S1x128) hzR4, View.readCov_unit_zero (S := S1x128) _ hzR4]
  simp only [View.readAt_eq_ld, h1.read_unread, h2.read_unread, h3.read_unread, h5.read_unread, h6.read_unread,
    View.ld_unit_zero (S := S5000x128) hzR4, View.ld_unit_zero (S := S128x128) hzR4, View.ld_unit_zero (S := S1x128) hzR4]

/-- Later points: the running sums of squares continue. -/
theorem out4_B_5_eq (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond4_0 i) (x0 : Vec F S5000x128 .f32) (x1 : Vec F S128x128 .f32) (x2 : Vec F S1x128 .f32)
    (xo4 xo5 : Vec F S1x128 .f32) :
    out4_B_5 c i a1 h1 a2 h2 a3 h3 a4 h4 a5 h5 a6 h6 hc x0 x1 x2 xo4 xo5 = k4_pay5 x0 x1 x2 xo5 := by
  unfold out4_B_5
  rw [View.read_writes_eq_canon _ _ _ (cover4_B_5 c i a1 h1 a2 h2 a3 h3 a4 h4 a5 h5 a6 h6 hc x0 x1 x2 xo4 xo5)]
  unfold kernelRun4_B
  dsimp only
  rw [View.canon_unit_zero hzR4]
  simp only [View.readAt_eq_ld, h1.read_unread, h2.read_unread, h3.read_unread, h5.read_unread, h6.read_unread,
    View.ld_unit_zero (S := S5000x128) hzR4, View.ld_unit_zero (S := S128x128) hzR4, View.ld_unit_zero (S := S1x128) hzR4]

end Pieces4

section RegionR4

variable (V : (c : Dev nD) → (b : Ref sig .tc) → Buf (Elt Ideal) ((c : Thread nD τ).loc b))

/-- The call's index maps over its ten points: the row-block windows (input 0, output 3) sit at block t, every other
    window at block 0. -/
theorem idxR4 : ∀ t : Fin cfg4.N, win4_0.index t (0 : Fin 2) = t.val ∧ win4_0.index t (1 : Fin 2) = 0
    ∧ win4_3.index t (0 : Fin 2) = t.val ∧ win4_3.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The block the body forms at point t, at row r and column q, is entry (5000·t + r, q) of z · w + b. -/
theorem yblk4 (c : Dev nD) (t : Fin cfg4.N) (r : Fin 5000) (q : Fin 128) :
    k4_pay3 (F := Ideal) (iblk4 V c 0 t) (iblk4 V c 1 t) (iblk4 V c 2 t) (ix2 r q)
      = linAt (V c main_v88) (V c main_v90) (V c main_v93)
          (⟨5000 * t.val + r.val, by have h := t.isLt; have e : cfg4.N = 10 := N_4; have := r.isLt; omega⟩ : Fin 50000) q := by
  obtain ⟨e00, e01, e30, e31, e10, e11, e20, e21, -⟩ := idxR4 t
  rw [r4_y_apply]
  unfold linAt
  have hb : iblk4 V c 2 t (ix2 (0 : Fin 1) q) = V c main_v93 (ix2 (0 : Fin 1) q) := by
    show V c main_v93 (((cfg4.win 2).blk t).view.emb (ix2 (0 : Fin 1) q)) = _
    refine congrArg (V c main_v93) (funext fun a => Fin.ext ?_)
    match a with
    | ⟨0, _⟩ => show win4_2.index t (0 : Fin 2) * 1 + 1 * 0 = 0; omega
    | ⟨1, _⟩ => show win4_2.index t (1 : Fin 2) * 128 + 1 * q.val = q.val; omega
  rw [hb]
  refine congrArg (· + V c main_v93 (ix2 (0 : Fin 1) q)) (Finset.sum_congr rfl fun i _ => ?_)
  have hz' : iblk4 V c 0 t (ix2 r i) = V c main_v88 (ix2 (⟨5000 * t.val + r.val, by have h := t.isLt; have e : cfg4.N = 10 := N_4; have := r.isLt; omega⟩ : Fin 50000) i) := by
    show V c main_v88 (((cfg4.win 0).blk t).view.emb (ix2 r i)) = _
    refine congrArg (V c main_v88) (funext fun a => Fin.ext ?_)
    match a with
    | ⟨0, _⟩ => show win4_0.index t (0 : Fin 2) * 5000 + 1 * r.val = 5000 * t.val + r.val; omega
    | ⟨1, _⟩ => show win4_0.index t (1 : Fin 2) * 128 + 1 * i.val = i.val; omega
  have hw' : iblk4 V c 1 t (ix2 i q) = V c main_v90 (ix2 i q) := by
    show V c main_v90 (((cfg4.win 1).blk t).view.emb (ix2 i q)) = _
    refine congrArg (V c main_v90) (funext fun a => Fin.ext ?_)
    match a with
    | ⟨0, _⟩ => show win4_1.index t (0 : Fin 2) * 128 + 1 * i.val = i.val; omega
    | ⟨1, _⟩ => show win4_1.index t (1 : Fin 2) * 128 + 1 * q.val = q.val; omega
  rw [hz', hw']

/-! ## The outputs after each point -/

/-- After every point the first output's buffer holds the block the body formed there. -/
theorem outs4_y (c : Dev nD) (t : Fin cfg4.N) :
    (outsAt4 V c t.val t.isLt).1 = k4_pay3 (F := Ideal) (iblk4 V c 0 t) (iblk4 V c 1 t) (iblk4 V c 2 t) := by
  by_cases h0 : t.val % 10 = 0
  · rw [outsAt4_A V c t h0]
    dsimp only
    exact out4_A_3_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)
  · rw [outsAt4_B V c t h0]
    dsimp only
    exact out4_B_3_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2

/-- The running column sum at column q after point n (zero past the grid). -/
def accS4 (c : Dev nD) (q : Fin 128) (n : ℕ) : EReal :=
  if h : n < cfg4.N then (outsAt4 V c n h).2.1 (ix2 (0 : Fin 1) q) else 0
/-- The running column sum of squares at column q after point n. -/
def accQ4 (c : Dev nD) (q : Fin 128) (n : ℕ) : EReal :=
  if h : n < cfg4.N then (outsAt4 V c n h).2.2 (ix2 (0 : Fin 1) q) else 0
/-- Point n's block's column sum at column q. -/
def gS4 (c : Dev nD) (q : Fin 128) (n : ℕ) : EReal :=
  if h : n < cfg4.N then ∑ r : Fin 5000, k4_pay3 (F := Ideal) (iblk4 V c 0 ⟨n, h⟩) (iblk4 V c 1 ⟨n, h⟩) (iblk4 V c 2 ⟨n, h⟩) (ix2 r q) else 0
/-- Point n's block's column sum of squares at column q. -/
def gQ4 (c : Dev nD) (q : Fin 128) (n : ℕ) : EReal :=
  if h : n < cfg4.N then ∑ r : Fin 5000, k4_pay3 (F := Ideal) (iblk4 V c 0 ⟨n, h⟩) (iblk4 V c 1 ⟨n, h⟩) (iblk4 V c 2 ⟨n, h⟩) (ix2 r q)
      * k4_pay3 (F := Ideal) (iblk4 V c 0 ⟨n, h⟩) (iblk4 V c 1 ⟨n, h⟩) (iblk4 V c 2 ⟨n, h⟩) (ix2 r q) else 0

theorem accS4_zero (c : Dev nD) (q : Fin 128) : accS4 V c q 0 = Ideal.ofBits .f32 0x00000000#32 + gS4 V c q 0 := by
  have h : 0 < cfg4.N := by rw [show cfg4.N = 10 from N_4]; decide
  unfold accS4 gS4
  rw [dif_pos h, dif_pos h]
  have e : (outsAt4 V c 0 h).2.1 = k4_pay4 (F := Ideal) (iblk4 V c 0 ⟨0, h⟩) (iblk4 V c 1 ⟨0, h⟩) (iblk4 V c 2 ⟨0, h⟩) (k4_pay1 (F := Ideal)) := by
    rw [outsAt4_A V c ⟨0, h⟩ (Nat.zero_mod _)]
    dsimp only
    exact out4_A_4_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) ((hcond4_0 ⟨0, h⟩).mpr (Nat.zero_mod _)) (iblk4 V c 0 ⟨0, h⟩) (iblk4 V c 1 ⟨0, h⟩) (iblk4 V c 2 ⟨0, h⟩)
  rw [e, r4_s_apply, r4_z1_apply]
  rfl

theorem accS4_succ (c : Dev nD) (q : Fin 128) (n : ℕ) (hn : n + 1 < cfg4.N) :
    accS4 V c q (n + 1) = accS4 V c q n + gS4 V c q (n + 1) := by
  have hN : cfg4.N = 10 := N_4
  have hn' : n < cfg4.N := Nat.lt_of_succ_lt hn
  have hB : ¬(⟨n + 1, hn⟩ : Fin cfg4.N).val % 10 = 0 := by dsimp only; omega
  unfold accS4 gS4
  rw [dif_pos hn, dif_pos hn', dif_pos hn]
  have e : (outsAt4 V c (n + 1) hn).2.1
      = k4_pay4 (F := Ideal) (iblk4 V c 0 ⟨n + 1, hn⟩) (iblk4 V c 1 ⟨n + 1, hn⟩) (iblk4 V c 2 ⟨n + 1, hn⟩) (outsAt4 V c n hn').2.1 := by
    rw [outsAt4_B V c ⟨n + 1, hn⟩ hB]
    dsimp only
    exact out4_B_4_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => hB ((hcond4_0 ⟨n + 1, hn⟩).mp h)) (iblk4 V c 0 ⟨n + 1, hn⟩) (iblk4 V c 1 ⟨n + 1, hn⟩) (iblk4 V c 2 ⟨n + 1, hn⟩) (outsAt4 V c n hn').2.1 (outsAt4 V c n hn').2.2
  rw [e, r4_s_apply]

theorem accQ4_zero (c : Dev nD) (q : Fin 128) : accQ4 V c q 0 = Ideal.ofBits .f32 0x00000000#32 + gQ4 V c q 0 := by
  have h : 0 < cfg4.N := by rw [show cfg4.N = 10 from N_4]; decide
  unfold accQ4 gQ4
  rw [dif_pos h, dif_pos h]
  have e : (outsAt4 V c 0 h).2.2 = k4_pay5 (F := Ideal) (iblk4 V c 0 ⟨0, h⟩) (iblk4 V c 1 ⟨0, h⟩) (iblk4 V c 2 ⟨0, h⟩) (k4_pay2 (F := Ideal)) := by
    rw [outsAt4_A V c ⟨0, h⟩ (Nat.zero_mod _)]
    dsimp only
    exact out4_A_5_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) ((hcond4_0 ⟨0, h⟩).mpr (Nat.zero_mod _)) (iblk4 V c 0 ⟨0, h⟩) (iblk4 V c 1 ⟨0, h⟩) (iblk4 V c 2 ⟨0, h⟩)
  rw [e, r4_ss_apply, r4_z2_apply]
  rfl

theorem accQ4_succ (c : Dev nD) (q : Fin 128) (n : ℕ) (hn : n + 1 < cfg4.N) :
    accQ4 V c q (n + 1) = accQ4 V c q n + gQ4 V c q (n + 1) := by
  have hN : cfg4.N = 10 := N_4
  have hn' : n < cfg4.N := Nat.lt_of_succ_lt hn
  have hB : ¬(⟨n + 1, hn⟩ : Fin cfg4.N).val % 10 = 0 := by dsimp only; omega
  unfold accQ4 gQ4
  rw [dif_pos hn, dif_pos hn', dif_pos hn]
  have e : (outsAt4 V c (n + 1) hn).2.2
      = k4_pay5 (F := Ideal) (iblk4 V c 0 ⟨n + 1, hn⟩) (iblk4 V c 1 ⟨n + 1, hn⟩) (iblk4 V c 2 ⟨n + 1, hn⟩) (outsAt4 V c n hn').2.2 := by
    rw [outsAt4_B V c ⟨n + 1, hn⟩ hB]
    dsimp only
    exact out4_B_5_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => hB ((hcond4_0 ⟨n + 1, hn⟩).mp h)) (iblk4 V c 0 ⟨n + 1, hn⟩) (iblk4 V c 1 ⟨n + 1, hn⟩) (iblk4 V c 2 ⟨n + 1, hn⟩) (outsAt4 V c n hn').2.1 (outsAt4 V c n hn').2.2
  rw [e, r4_ss_apply]

/-- Ten points' column sums are the column sum over all rows. -/
theorem sum_gS4 (c : Dev nD) (q : Fin 128) :
    ∑ n ∈ Finset.range 10, gS4 V c q n = ∑ p : Fin 50000, linAt (V c main_v88) (V c main_v90) (V c main_v93) p q := by
  have hN : cfg4.N = 10 := N_4
  rw [sum_blocks, Finset.sum_range]
  refine Finset.sum_congr rfl fun t _ => ?_
  have ht : t.val < cfg4.N := by have := t.isLt; omega
  unfold gS4
  rw [dif_pos ht]
  exact Finset.sum_congr rfl fun r _ => yblk4 V c ⟨t.val, ht⟩ r q

theorem sum_gQ4 (c : Dev nD) (q : Fin 128) :
    ∑ n ∈ Finset.range 10, gQ4 V c q n
      = ∑ p : Fin 50000, linAt (V c main_v88) (V c main_v90) (V c main_v93) p q * linAt (V c main_v88) (V c main_v90) (V c main_v93) p q := by
  have hN : cfg4.N = 10 := N_4
  rw [sum_blocks, Finset.sum_range]
  refine Finset.sum_congr rfl fun t _ => ?_
  have ht : t.val < cfg4.N := by have := t.isLt; omega
  unfold gQ4
  rw [dif_pos ht]
  exact Finset.sum_congr rfl fun r _ => by rw [yblk4 V c ⟨t.val, ht⟩ r q]

/-- After the last point the running rows hold the column sums over all 50000 rows. -/
theorem last_S4_at (c : Dev nD) (t : Fin cfg4.N) (h9 : t.val = 9) (q : Fin 128) :
    (outsAt4 V c t.val t.isLt).2.1 (ix2 (0 : Fin 1) q) = ∑ p : Fin 50000, linAt (V c main_v88) (V c main_v90) (V c main_v93) p q := by
  have h := Cert.BatchNorm.acc_eq_sum_range_f32 (accS4 V c q) (gS4 V c q) cfg4.N (accS4_zero V c q)
    (fun n hn => accS4_succ V c q n hn) t.val t.isLt
  unfold accS4 at h
  rw [dif_pos t.isLt] at h
  rw [h, show t.val + 1 = 10 by omega, ← sum_gS4 V c q]

theorem last_Q4_at (c : Dev nD) (t : Fin cfg4.N) (h9 : t.val = 9) (q : Fin 128) :
    (outsAt4 V c t.val t.isLt).2.2 (ix2 (0 : Fin 1) q) = ∑ p : Fin 50000, linAt (V c main_v88) (V c main_v90) (V c main_v93) p q * linAt (V c main_v88) (V c main_v90) (V c main_v93) p q := by
  have h := Cert.BatchNorm.acc_eq_sum_range_f32 (accQ4 V c q) (gQ4 V c q) cfg4.N (accQ4_zero V c q)
    (fun n hn => accQ4_succ V c q n hn) t.val t.isLt
  unfold accQ4 at h
  rw [dif_pos t.isLt] at h
  rw [h, show t.val + 1 = 10 by omega, ← sum_gQ4 V c q]

/-! ## The three arrays after the call -/

/-- What point t writes back to the first output is block t of y. -/
theorem flushedR4_3 (c : Dev nD) (t : Fin cfg4.N) :
    (dat4 V c).flushed 3 t = ((cfg4.win 3).blk t).view.read (Elt Ideal) (linArr (V c main_v88) (V c main_v90) (V c main_v93)) := by
  show (cfg4.win 3).cut (grid4.coords t) ((dat4 V c).after 3 t) = _
  rw [after4_3, outs4_y]
  obtain ⟨e00, e01, e30, e31, -⟩ := idxR4 t
  funext y
  show k4_pay3 (F := Ideal) (iblk4 V c 0 t) (iblk4 V c 1 t) (iblk4 V c 2 t) y = linArr (V c main_v88) (V c main_v90) (V c main_v93) (((cfg4.win 3).blk t).view.emb y)
  have hy : (y : S5000x128.Idx) = ix2 (⟨(y 0).val, (y 0).isLt⟩ : Fin 5000) (⟨(y 1).val, (y 1).isLt⟩ : Fin 128) := eq_ix2 (n0 := 5000) (n1 := 128) y
  refine (congrArg (k4_pay3 (F := Ideal) (iblk4 V c 0 t) (iblk4 V c 1 t) (iblk4 V c 2 t)) hy).trans ((yblk4 V c t _ _).trans ?_)
  show linAt _ _ _ _ _ = linAt _ _ _ ((((cfg4.win 3).blk t).view.emb y) 0) ((((cfg4.win 3).blk t).view.emb y) 1)
  refine congrArg₂ (linAt (V c main_v88) (V c main_v90) (V c main_v93)) (Fin.ext ?_) (Fin.ext ?_)
  · show 5000 * t.val + (y 0).val = win4_3.index t (0 : Fin 2) * 5000 + 1 * (y 0).val; omega
  · show (y 1).val = win4_3.index t (1 : Fin 2) * 128 + 1 * (y 1).val; omega

theorem mem_blkR4_3 (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v94_0).slice (win4_3.rect t)).set ↔ _
  rw [View.set_slice_whole, Rect.mem_set_unit]
  exact Iff.rfl

/-- THE FIRST OUTPUT after the call is y = z · w + b. -/
theorem finalR4_3 (c : Dev nD) :
    (dat4 V c).arrAt 3 cfg4.N = linArr (V c main_v88) (V c main_v90) (V c main_v93) :=
  (dat4 V c).arrAt_eq_of_cover 3 _ (fun t _ => flushedR4_3 V c t) fun i => by
    have hi0 : (i 0).val < 50000 := (i 0).isLt
    have hi1 : (i 1).val < 128 := (i 1).isLt
    have hN : cfg4.N = 10 := N_4
    let t : Fin cfg4.N := ⟨(i 0).val / 5000, by rw [hN]; omega⟩
    obtain ⟨e00, e01, e30, e31, -⟩ := idxR4 t
    have ht : t.val = (i 0).val / 5000 := rfl
    refine ⟨t, flush4_3 t, ?_⟩
    rw [mem_blkR4_3]
    intro a
    match a with
    | ⟨0, _⟩ => show win4_3.index t (0 : Fin 2) * 5000 ≤ (i 0).val ∧ (i 0).val < win4_3.index t (0 : Fin 2) * 5000 + 5000; omega
    | ⟨1, _⟩ => show win4_3.index t (1 : Fin 2) * 128 ≤ (i 1).val ∧ (i 1).val < win4_3.index t (1 : Fin 2) * 128 + 128; omega

/-- What the last point writes back to output 4: the row of column sums over all rows. -/
theorem flushedR4_4 (c : Dev nD) (t : Fin cfg4.N) (hf : (cfg4.win 4).flush t = true) :
    (dat4 V c).flushed 4 t
      = ((cfg4.win 4).blk t).view.read (Elt Ideal) (colSumArr (linArr (V c main_v88) (V c main_v90) (V c main_v93))) := by
  have hN : cfg4.N = 10 := N_4
  have h9 : t.val = 9 := by have := (flush4_4 t).mp hf; have := t.isLt; omega
  obtain ⟨e00, e01, e30, e31, e10, e11, e20, e21, e40, e41, e50, e51⟩ := idxR4 t
  generalize hG : colSumArr (linArr (V c main_v88) (V c main_v90) (V c main_v93)) = G
  show (cfg4.win 4).cut (grid4.coords t) ((dat4 V c).after 4 t) = _
  rw [after4_4]
  funext y
  show (outsAt4 V c t.val t.isLt).2.1 y = G (((cfg4.win 4).blk t).view.emb y)
  subst hG
  have hy : (y : S1x128.Idx) = ix2 (0 : Fin 1) (⟨(y 1).val, (y 1).isLt⟩ : Fin 128) :=
    (eq_ix2 (n0 := 1) (n1 := 128) y).trans (congrArg (fun a => ix2 a (⟨(y 1).val, (y 1).isLt⟩ : Fin 128)) (Fin.ext (by have h1 : (y 0).val < 1 := (y 0).isLt; show (y 0).val = 0; omega)))
  refine (congrArg (outsAt4 V c t.val t.isLt).2.1 hy).trans ((last_S4_at V c t h9 _).trans ?_)
  have hq : (⟨(y 1).val, (y 1).isLt⟩ : Fin 128) = (((cfg4.win 4).blk t).view.emb y) 1 := Fin.ext (by
    show (y 1).val = win4_4.index t (1 : Fin 2) * 128 + 1 * (y 1).val; omega)
  rw [colSumArr_apply]
  exact Finset.sum_congr rfl fun p _ => congrArg (linAt (V c main_v88) (V c main_v90) (V c main_v93) p) hq

theorem mem_blkR4_4 (t : Fin cfg4.N) (i : S1x128.Idx) :
    i ∈ ((cfg4.win 4).blk t).view.set ↔ ∀ a : Fin 2, win4_4.index t a * S1x128.size a ≤ (i a).val ∧ (i a).val < win4_4.index t a * S1x128.size a + S1x128.size a := by
  show i ∈ ((View.whole main_v94_1).slice (win4_4.rect t)).set ↔ _
  rw [View.set_slice_whole, Rect.mem_set_unit]
  exact Iff.rfl

/-- OUTPUT 4 after the call: the column sums of y over all 50000 rows. -/
theorem finalR4_4 (c : Dev nD) :
    (dat4 V c).arrAt 4 cfg4.N = colSumArr (linArr (V c main_v88) (V c main_v90) (V c main_v93)) :=
  (dat4 V c).arrAt_eq_of_cover 4 _ (fun t hf => flushedR4_4 V c t hf) fun i => by
    have hi0 : (i 0).val < 1 := (i 0).isLt
    have hi1 : (i 1).val < 128 := (i 1).isLt
    have hN : cfg4.N = 10 := N_4
    let t : Fin cfg4.N := ⟨9, by rw [hN]; decide⟩
    obtain ⟨e00, e01, e30, e31, e10, e11, e20, e21, e40, e41, e50, e51⟩ := idxR4 t
    refine ⟨t, (flush4_4 t).mpr rfl, ?_⟩
    rw [mem_blkR4_4]
    intro a
    match a with
    | ⟨0, _⟩ => show win4_4.index t (0 : Fin 2) * 1 ≤ (i 0).val ∧ (i 0).val < win4_4.index t (0 : Fin 2) * 1 + 1; omega
    | ⟨1, _⟩ => show win4_4.index t (1 : Fin 2) * 128 ≤ (i 1).val ∧ (i 1).val < win4_4.index t (1 : Fin 2) * 128 + 128; omega

/-- What the last point writes back to output 5: the row of column sums of squares over all rows. -/
theorem flushedR4_5 (c : Dev nD) (t : Fin cfg4.N) (hf : (cfg4.win 5).flush t = true) :
    (dat4 V c).flushed 5 t
      = ((cfg4.win 5).blk t).view.read (Elt Ideal) (colSqSumArr (linArr (V c main_v88) (V c main_v90) (V c main_v93))) := by
  have hN : cfg4.N = 10 := N_4
  have h9 : t.val = 9 := by have := (flush4_5 t).mp hf; have := t.isLt; omega
  obtain ⟨e00, e01, e30, e31, e10, e11, e20, e21, e40, e41, e50, e51⟩ := idxR4 t
  generalize hG : colSqSumArr (linArr (V c main_v88) (V c main_v90) (V c main_v93)) = G
  show (cfg4.win 5).cut (grid4.coords t) ((dat4 V c).after 5 t) = _
  rw [after4_5]
  funext y
  show (outsAt4 V c t.val t.isLt).2.2 y = G (((cfg4.win 5).blk t).view.emb y)
  subst hG
  have hy : (y : S1x128.Idx) = ix2 (0 : Fin 1) (⟨(y 1).val, (y 1).isLt⟩ : Fin 128) :=
    (eq_ix2 (n0 := 1) (n1 := 128) y).trans (congrArg (fun a => ix2 a (⟨(y 1).val, (y 1).isLt⟩ : Fin 128)) (Fin.ext (by have h1 : (y 0).val < 1 := (y 0).isLt; show (y 0).val = 0; omega)))
  refine (congrArg (outsAt4 V c t.val t.isLt).2.2 hy).trans ((last_Q4_at V c t h9 _).trans ?_)
  have hq : (⟨(y 1).val, (y 1).isLt⟩ : Fin 128) = (((cfg4.win 5).blk t).view.emb y) 1 := Fin.ext (by
    show (y 1).val = win4_5.index t (1 : Fin 2) * 128 + 1 * (y 1).val; omega)
  rw [colSqSumArr_apply]
  exact Finset.sum_congr rfl fun p _ => congrArg (fun x => linAt (V c main_v88) (V c main_v90) (V c main_v93) p x * linAt (V c main_v88) (V c main_v90) (V c main_v93) p x) hq

theorem mem_blkR4_5 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v94_2).slice (win4_5.rect t)).set ↔ _
  rw [View.set_slice_whole, Rect.mem_set_unit]
  exact Iff.rfl

/-- OUTPUT 5 after the call: the column sums of squares of y over all 50000 rows. -/
theorem finalR4_5 (c : Dev nD) :
    (dat4 V c).arrAt 5 cfg4.N = colSqSumArr (linArr (V c main_v88) (V c main_v90) (V c main_v93)) :=
  (dat4 V c).arrAt_eq_of_cover 5 _ (fun t hf => flushedR4_5 V c t hf) fun i => by
    have hi0 : (i 0).val < 1 := (i 0).isLt
    have hi1 : (i 1).val < 128 := (i 1).isLt
    have hN : cfg4.N = 10 := N_4
    let t : Fin cfg4.N := ⟨9, by rw [hN]; decide⟩
    obtain ⟨e00, e01, e30, e31, e10, e11, e20, e21, e40, e41, e50, e51⟩ := idxR4 t
    refine ⟨t, (flush4_5 t).mpr rfl, ?_⟩
    rw [mem_blkR4_5]
    intro a
    match a with
    | ⟨0, _⟩ => show win4_5.index t (0 : Fin 2) * 1 ≤ (i 0).val ∧ (i 0).val < win4_5.index t (0 : Fin 2) * 1 + 1; omega
    | ⟨1, _⟩ => show win4_5.index t (1 : Fin 2) * 128 ≤ (i 1).val ∧ (i 1).val < win4_5.index t (1 : Fin 2) * 128 + 128; omega

end RegionR4

end Cert.KernelIdeal.KV

end
-- ==== Proof.KRegA1.lean ====
/-
  What kernel call 1 leaves in its output array: the second body's result, block by block.

  The call runs over ten points. At point t the input block is rows 5000·t … 5000·t + 4999 of the array y, the six
  other inputs (four rows of column data, a 128 × 128 weight, a bias row) are their whole arrays, and the output block
  is the same rows of the result array. The body computes, at row r and column q of the block, the second body's
  expression of row 5000·t + r of y, so what point t writes back is block t of ONE function of the whole arrays; the
  ten blocks tile the result array, which therefore ends holding that function.
-/
import proofs.«168398_j7327214207515_1_alg».proof.Proof.Gen.KernelIdeal.Frame
import proofs.«168398_j7327214207515_1_alg».proof.Proof.KPay
import proofs.«168398_j7327214207515_1_alg».proof.Proof.KFun

set_option maxRecDepth 16384

noncomputable section

open scoped BigOperators

namespace Cert.KernelIdeal.KV

open Cert.KernelIdeal Cert.KernelIdeal.Gen Cert.Gin
open Idealize.ShloMosaic Idealize.ShloMosaic.TcCoe Idealize.ShloMosaic.ValueIdx Idealize.SL.Sem
open Idealize.ShloMosaic.Pipeline (Dat)

section Region1

variable (V : (c : Dev nD) → (b : Ref sig .tc) → Buf (Elt Ideal) ((c : Thread nD τ).loc b))

theorem hz1 : (![0, 0] : Fin 2 → Nat) = fun _ => 0 := funext fun a => by fin_cases a <;> rfl

/-- The call's index maps over its ten points: the row-block windows (input 0, output 7) sit at block t, every other
    window at block 0. -/
theorem idx1 : ∀ t : Fin cfg1.N, win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The body's result at one entry of a block whose rows are rows 5000·T + r of y. -/
theorem blk1 (x0 : Vec Ideal S5000x128 .f32) (x1 x2 x3 x4 : Vec Ideal S1x128 .f32) (x5 : Vec Ideal S128x128 .f32)
    (x6 : Vec Ideal S1x128 .f32)
    (a0 : S50000x128.Idx → EReal) (a1 a2 a3 a4 : S1x128.Idx → EReal) (a5 : S128x128.Idx → EReal) (a6 : S1x128.Idx → EReal)
    (T : Nat) (hT : T < 10)
    (h0 : ∀ (r : Fin 5000) (i : Fin 128), x0 (ix2 r i) = a0 (ix2 (⟨5000 * T + r.val, by have := r.isLt; omega⟩ : Fin 50000) i))
    (h1 : ∀ i : Fin 128, x1 (ix2 (0 : Fin 1) i) = a1 (ix2 (0 : Fin 1) i))
    (h2 : ∀ i : Fin 128, x2 (ix2 (0 : Fin 1) i) = a2 (ix2 (0 : Fin 1) i))
    (h3 : ∀ i : Fin 128, x3 (ix2 (0 : Fin 1) i) = a3 (ix2 (0 : Fin 1) i))
    (h4 : ∀ i : Fin 128, x4 (ix2 (0 : Fin 1) i) = a4 (ix2 (0 : Fin 1) i))
    (h5 : ∀ (i q : Fin 128), x5 (ix2 i q) = a5 (ix2 i q))
    (h6 : ∀ i : Fin 128, x6 (ix2 (0 : Fin 1) i) = a6 (ix2 (0 : Fin 1) i))
    (y : S5000x128.Idx) :
    k1_pay1 (F := Ideal) x0 x1 x2 x3 x4 x5 x6 y
      = mlp2At false a0 a1 a2 a3 a4 a5 a6 (⟨5000 * T + (y 0).val, by have : (y 0).val < 5000 := (y 0).isLt; omega⟩ : Fin 50000)
          (⟨(y 1).val, (y 1).isLt⟩ : Fin 128) := by
  obtain ⟨r, q, rfl⟩ : ∃ (r : Fin 5000) (q : Fin 128), y = ix2 r q := ⟨y 0, y 1, eq_ix2 y⟩
  rw [a1_apply]
  unfold mlp2At
  simp only [h0, h1, h2, h3, h4, h5, h6]

/-- WHAT POINT t WRITES BACK is block t of the second body's function of the arrays as the call finds them. -/
theorem flushed1_eq (c : Dev nD) (t : Fin cfg1.N) :
    (dat1 V c).flushed 7 t = ((cfg1.win 7).blk t).view.read (Elt Ideal)
      (mlp2Arr false (V c main_v20_0) (V c main_v22) (V c main_v28) (V c main_v31) (V c main_v34) (V c main_v36) (V c main_v39)) := by
  show (cfg1.win 7).cut (grid1.coords t) ((dat1 V c).after 7 t) = _
  rw [after1_7]
  unfold out1_7
  rw [View.canon_unit_zero hz1]
  simp only [View.ld_unit_zero (S := S5000x128) hz1, View.ld_unit_zero (S := S1x128) hz1, View.ld_unit_zero (S := S128x128) hz1]
  obtain ⟨e00, e01, e70, e71, e10, e11, e20, e21, e30, e31, e40, e41, e50, e51, e60, e61⟩ := idx1 t
  have hN : t.val < 10 := by have h := t.isLt; have e : cfg1.N = 10 := N_1; omega
  funext y
  show k1_pay1 (F := Ideal) (iblk1 V c 0 t) (iblk1 V c 1 t) (iblk1 V c 2 t) (iblk1 V c 3 t) (iblk1 V c 4 t) (iblk1 V c 5 t) (iblk1 V c 6 t) y
    = mlp2Arr false (V c main_v20_0) (V c main_v22) (V c main_v28) (V c main_v31) (V c main_v34) (V c main_v36) (V c main_v39) (((cfg1.win 7).blk t).view.emb y)
  refine (blk1 (iblk1 V c 0 t) (iblk1 V c 1 t) (iblk1 V c 2 t) (iblk1 V c 3 t) (iblk1 V c 4 t) (iblk1 V c 5 t) (iblk1 V c 6 t)
    (V c main_v20_0) (V c main_v22) (V c main_v28) (V c main_v31) (V c main_v34) (V c main_v36) (V c main_v39) t.val hN ?_ ?_ ?_ ?_ ?_ ?_ ?_ y).trans ?_
  · intro r i
    show V c main_v20_0 (((cfg1.win 0).blk t).view.emb (ix2 r i)) = _
    refine congrArg (V c main_v20_0) (funext fun a => Fin.ext ?_)
    match a with
    | ⟨0, _⟩ => show win1_0.index t (0 : Fin 2) * 5000 + 1 * r.val = 5000 * t.val + r.val; omega
    | ⟨1, _⟩ => show win1_0.index t (1 : Fin 2) * 128 + 1 * i.val = i.val; omega
  · intro i
    show V c main_v22 (((cfg1.win 1).blk t).view.emb (ix2 (0 : Fin 1) i)) = _
    refine congrArg (V c main_v22) (funext fun a => Fin.ext ?_)
    match a with
    | ⟨0, _⟩ => show win1_1.index t (0 : Fin 2) * 1 + 1 * 0 = 0; omega
    | ⟨1, _⟩ => show win1_1.index t (1 : Fin 2) * 128 + 1 * i.val = i.val; omega
  · intro i
    show V c main_v28 (((cfg1.win 2).blk t).view.emb (ix2 (0 : Fin 1) i)) = _
    refine congrArg (V c main_v28) (funext fun a => Fin.ext ?_)
    match a with
    | ⟨0, _⟩ => show win1_2.index t (0 : Fin 2) * 1 + 1 * 0 = 0; omega
    | ⟨1, _⟩ => show win1_2.index t (1 : Fin 2) * 128 + 1 * i.val = i.val; omega
  · intro i
    show V c main_v31 (((cfg1.win 3).blk t).view.emb (ix2 (0 : Fin 1) i)) = _
    refine congrArg (V c main_v31) (funext fun a => Fin.ext ?_)
    match a with
    | ⟨0, _⟩ => show win1_3.index t (0 : Fin 2) * 1 + 1 * 0 = 0; omega
    | ⟨1, _⟩ => show win1_3.index t (1 : Fin 2) * 128 + 1 * i.val = i.val; omega
  · intro i
    show V c main_v34 (((cfg1.win 4).blk t).view.emb (ix2 (0 : Fin 1) i)) = _
    refine congrArg (V c main_v34) (funext fun a => Fin.ext ?_)
    match a with
    | ⟨0, _⟩ => show win1_4.index t (0 : Fin 2) * 1 + 1 * 0 = 0; omega
    | ⟨1, _⟩ => show win1_4.index t (1 : Fin 2) * 128 + 1 * i.val = i.val; omega
  · intro i q
    show V c main_v36 (((cfg1.win 5).blk t).view.emb (ix2 i q)) = _
    refine congrArg (V c main_v36) (funext fun a => Fin.ext ?_)
    match a with
    | ⟨0, _⟩ => show win1_5.index t (0 : Fin 2) * 128 + 1 * i.val = i.val; omega
    | ⟨1, _⟩ => show win1_5.index t (1 : Fin 2) * 128 + 1 * q.val = q.val; omega
  · intro i
    show V c main_v39 (((cfg1.win 6).blk t).view.emb (ix2 (0 : Fin 1) i)) = _
    refine congrArg (V c main_v39) (funext fun a => Fin.ext ?_)
    match a with
    | ⟨0, _⟩ => show win1_6.index t (0 : Fin 2) * 1 + 1 * 0 = 0; omega
    | ⟨1, _⟩ => show win1_6.index t (1 : Fin 2) * 128 + 1 * i.val = i.val; omega
  · show mlp2At false _ _ _ _ _ _ _ _ _ = mlp2At false _ _ _ _ _ _ _ ((((cfg1.win 7).blk t).view.emb y) 0) ((((cfg1.win 7).blk t).view.emb y) 1)
    refine congrArg₂ (mlp2At false (V c main_v20_0) (V c main_v22) (V c main_v28) (V c main_v31) (V c main_v34) (V c main_v36) (V c main_v39)) (Fin.ext ?_) (Fin.ext ?_)
    · show 5000 * t.val + (y 0).val = win1_7.index t (0 : Fin 2) * 5000 + 1 * (y 0).val; omega
    · show (y 1).val = win1_7.index t (1 : Fin 2) * 128 + 1 * (y 1).val; omega

/-- An index of the result array is in point t's block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v40).slice (win1_7.rect t)).set ↔ _
  rw [View.set_slice_whole, Rect.mem_set_unit]
  exact Iff.rfl

/-- THE RESULT ARRAY after the call: the second body's function of the arrays as the call finds them (row p is in the
    block of point p / 5000). -/
theorem final1 (c : Dev nD) :
    (dat1 V c).arrAt 7 cfg1.N
      = mlp2Arr false (V c main_v20_0) (V c main_v22) (V c main_v28) (V c main_v31) (V c main_v34) (V c main_v36) (V c main_v39) :=
  (dat1 V c).arrAt_eq_of_cover 7 _ (fun t _ => flushed1_eq V c t) fun i => by
    have hi0 : (i 0).val < 50000 := (i 0).isLt
    have hi1 : (i 1).val < 128 := (i 1).isLt
    have hN : cfg1.N = 10 := N_1
    let t : Fin cfg1.N := ⟨(i 0).val / 5000, by rw [hN]; omega⟩
    obtain ⟨e00, e01, e70, e71, -⟩ := idx1 t
    have ht : t.val = (i 0).val / 5000 := rfl
    refine ⟨t, flush1_7 t, ?_⟩
    rw [mem_blk1]
    intro a
    match a with
    | ⟨0, _⟩ => show win1_7.index t (0 : Fin 2) * 5000 ≤ (i 0).val ∧ (i 0).val < win1_7.index t (0 : Fin 2) * 5000 + 5000; omega
    | ⟨1, _⟩ => show win1_7.index t (1 : Fin 2) * 128 ≤ (i 1).val ∧ (i 1).val < win1_7.index t (1 : Fin 2) * 128 + 128; omega

end Region1

end Cert.KernelIdeal.KV

end
-- ==== Proof.KRegA3.lean ====
/-
  What kernel call 3 leaves in its output array: the second body's result, block by block.

  The call runs over ten points. At point t the input block is rows 5000·t … 5000·t + 4999 of the array y, the six
  other inputs (four rows of column data, a 128 × 128 weight, a bias row) are their whole arrays, and the output block
  is the same rows of the result array. The body computes, at row r and column q of the block, the second body's
  expression of row 5000·t + r of y, so what point t writes back is block t of ONE function of the whole arrays; the
  ten blocks tile the result array, which therefore ends holding that function.
-/
import proofs.«168398_j7327214207515_1_alg».proof.Proof.Gen.KernelIdeal.Frame
import proofs.«168398_j7327214207515_1_alg».proof.Proof.KPay
import proofs.«168398_j7327214207515_1_alg».proof.Proof.KFun

set_option maxRecDepth 16384

noncomputable section

open scoped BigOperators

namespace Cert.KernelIdeal.KV

open Cert.KernelIdeal Cert.KernelIdeal.Gen Cert.Gin
open Idealize.ShloMosaic Idealize.ShloMosaic.TcCoe Idealize.ShloMosaic.ValueIdx Idealize.SL.Sem
open Idealize.ShloMosaic.Pipeline (Dat)

section Region3

variable (V : (c : Dev nD) → (b : Ref sig .tc) → Buf (Elt Ideal) ((c : Thread nD τ).loc b))

theorem hz3 : (![0, 0] : Fin 2 → Nat) = fun _ => 0 := funext fun a => by fin_cases a <;> rfl

/-- The call's index maps over its ten points: the row-block windows (input 0, output 7) sit at block t, every other
    window at block 0. -/
theorem idx3 : ∀ t : Fin cfg3.N, win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The body's result at one entry of a block whose rows are rows 5000·T + r of y. -/
theorem blk3 (x0 : Vec Ideal S5000x128 .f32) (x1 x2 x3 x4 : Vec Ideal S1x128 .f32) (x5 : Vec Ideal S128x128 .f32)
    (x6 : Vec Ideal S1x128 .f32)
    (a0 : S50000x128.Idx → EReal) (a1 a2 a3 a4 : S1x128.Idx → EReal) (a5 : S128x128.Idx → EReal) (a6 : S1x128.Idx → EReal)
    (T : Nat) (hT : T < 10)
    (h0 : ∀ (r : Fin 5000) (i : Fin 128), x0 (ix2 r i) = a0 (ix2 (⟨5000 * T + r.val, by have := r.isLt; omega⟩ : Fin 50000) i))
    (h1 : ∀ i : Fin 128, x1 (ix2 (0 : Fin 1) i) = a1 (ix2 (0 : Fin 1) i))
    (h2 : ∀ i : Fin 128, x2 (ix2 (0 : Fin 1) i) = a2 (ix2 (0 : Fin 1) i))
    (h3 : ∀ i : Fin 128, x3 (ix2 (0 : Fin 1) i) = a3 (ix2 (0 : Fin 1) i))
    (h4 : ∀ i : Fin 128, x4 (ix2 (0 : Fin 1) i) = a4 (ix2 (0 : Fin 1) i))
    (h5 : ∀ (i q : Fin 128), x5 (ix2 i q) = a5 (ix2 i q))
    (h6 : ∀ i : Fin 128, x6 (ix2 (0 : Fin 1) i) = a6 (ix2 (0 : Fin 1) i))
    (y : S5000x128.Idx) :
    k3_pay1 (F := Ideal) x0 x1 x2 x3 x4 x5 x6 y
      = mlp2At false a0 a1 a2 a3 a4 a5 a6 (⟨5000 * T + (y 0).val, by have : (y 0).val < 5000 := (y 0).isLt; omega⟩ : Fin 50000)
          (⟨(y 1).val, (y 1).isLt⟩ : Fin 128) := by
  obtain ⟨r, q, rfl⟩ : ∃ (r : Fin 5000) (q : Fin 128), y = ix2 r q := ⟨y 0, y 1, eq_ix2 y⟩
  rw [a3_apply]
  unfold mlp2At
  simp only [h0, h1, h2, h3, h4, h5, h6]

/-- WHAT POINT t WRITES BACK is block t of the second body's function of the arrays as the call finds them. -/
theorem flushed3_eq (c : Dev nD) (t : Fin cfg3.N) :
    (dat3 V c).flushed 7 t = ((cfg3.win 7).blk t).view.read (Elt Ideal)
      (mlp2Arr false (V c main_v57_0) (V c main_v59) (V c main_v65) (V c main_v68) (V c main_v71) (V c main_v73) (V c main_v76)) := by
  show (cfg3.win 7).cut (grid3.coords t) ((dat3 V c).after 7 t) = _
  rw [after3_7]
  unfold out3_7
  rw [View.canon_unit_zero hz3]
  simp only [View.ld_unit_zero (S := S5000x128) hz3, View.ld_unit_zero (S := S1x128) hz3, View.ld_unit_zero (S := S128x128) hz3]
  obtain ⟨e00, e01, e70, e71, e10, e11, e20, e21, e30, e31, e40, e41, e50, e51, e60, e61⟩ := idx3 t
  have hN : t.val < 10 := by have h := t.isLt; have e : cfg3.N = 10 := N_3; omega
  funext y
  show k3_pay1 (F := Ideal) (iblk3 V c 0 t) (iblk3 V c 1 t) (iblk3 V c 2 t) (iblk3 V c 3 t) (iblk3 V c 4 t) (iblk3 V c 5 t) (iblk3 V c 6 t) y
    = mlp2Arr false (V c main_v57_0) (V c main_v59) (V c main_v65) (V c main_v68) (V c main_v71) (V c main_v73) (V c main_v76) (((cfg3.win 7).blk t).view.emb y)
  refine (blk3 (iblk3 V c 0 t) (iblk3 V c 1 t) (iblk3 V c 2 t) (iblk3 V c 3 t) (iblk3 V c 4 t) (iblk3 V c 5 t) (iblk3 V c 6 t)
    (V c main_v57_0) (V c main_v59) (V c main_v65) (V c main_v68) (V c main_v71) (V c main_v73) (V c main_v76) t.val hN ?_ ?_ ?_ ?_ ?_ ?_ ?_ y).trans ?_
  · intro r i
    show V c main_v57_0 (((cfg3.win 0).blk t).view.emb (ix2 r i)) = _
    refine congrArg (V c main_v57_0) (funext fun a => Fin.ext ?_)
    match a with
    | ⟨0, _⟩ => show win3_0.index t (0 : Fin 2) * 5000 + 1 * r.val = 5000 * t.val + r.val; omega
    | ⟨1, _⟩ => show win3_0.index t (1 : Fin 2) * 128 + 1 * i.val = i.val; omega
  · intro i
    show V c main_v59 (((cfg3.win 1).blk t).view.emb (ix2 (0 : Fin 1) i)) = _
    refine congrArg (V c main_v59) (funext fun a => Fin.ext ?_)
    match a with
    | ⟨0, _⟩ => show win3_1.index t (0 : Fin 2) * 1 + 1 * 0 = 0; omega
    | ⟨1, _⟩ => show win3_1.index t (1 : Fin 2) * 128 + 1 * i.val = i.val; omega
  · intro i
    show V c main_v65 (((cfg3.win 2).blk t).view.emb (ix2 (0 : Fin 1) i)) = _
    refine congrArg (V c main_v65) (funext fun a => Fin.ext ?_)
    match a with
    | ⟨0, _⟩ => show win3_2.index t (0 : Fin 2) * 1 + 1 * 0 = 0; omega
    | ⟨1, _⟩ => show win3_2.index t (1 : Fin 2) * 128 + 1 * i.val = i.val; omega
  · intro i
    show V c main_v68 (((cfg3.win 3).blk t).view.emb (ix2 (0 : Fin 1) i)) = _
    refine congrArg (V c main_v68) (funext fun a => Fin.ext ?_)
    match a with
    | ⟨0, _⟩ => show win3_3.index t (0 : Fin 2) * 1 + 1 * 0 = 0; omega
    | ⟨1, _⟩ => show win3_3.index t (1 : Fin 2) * 128 + 1 * i.val = i.val; omega
  · intro i
    show V c main_v71 (((cfg3.win 4).blk t).view.emb (ix2 (0 : Fin 1) i)) = _
    refine congrArg (V c main_v71) (funext fun a => Fin.ext ?_)
    match a with
    | ⟨0, _⟩ => show win3_4.index t (0 : Fin 2) * 1 + 1 * 0 = 0; omega
    | ⟨1, _⟩ => show win3_4.index t (1 : Fin 2) * 128 + 1 * i.val = i.val; omega
  · intro i q
    show V c main_v73 (((cfg3.win 5).blk t).view.emb (ix2 i q)) = _
    refine congrArg (V c main_v73) (funext fun a => Fin.ext ?_)
    match a with
    | ⟨0, _⟩ => show win3_5.index t (0 : Fin 2) * 128 + 1 * i.val = i.val; omega
    | ⟨1, _⟩ => show win3_5.index t (1 : Fin 2) * 128 + 1 * q.val = q.val; omega
  · intro i
    show V c main_v76 (((cfg3.win 6).blk t).view.emb (ix2 (0 : Fin 1) i)) = _
    refine congrArg (V c main_v76) (funext fun a => Fin.ext ?_)
    match a with
    | ⟨0, _⟩ => show win3_6.index t (0 : Fin 2) * 1 + 1 * 0 = 0; omega
    | ⟨1, _⟩ => show win3_6.index t (1 : Fin 2) * 128 + 1 * i.val = i.val; omega
  · show mlp2At false _ _ _ _ _ _ _ _ _ = mlp2At false _ _ _ _ _ _ _ ((((cfg3.win 7).blk t).view.emb y) 0) ((((cfg3.win 7).blk t).view.emb y) 1)
    refine congrArg₂ (mlp2At false (V c main_v57_0) (V c main_v59) (V c main_v65) (V c main_v68) (V c main_v71) (V c main_v73) (V c main_v76)) (Fin.ext ?_) (Fin.ext ?_)
    · show 5000 * t.val + (y 0).val = win3_7.index t (0 : Fin 2) * 5000 + 1 * (y 0).val; omega
    · show (y 1).val = win3_7.index t (1 : Fin 2) * 128 + 1 * (y 1).val; omega

/-- An index of the result array is in point t's block iff each coordinate is in the block's range on its axis. -/
theorem mem_blk3 (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v77).slice (win3_7.rect t)).set ↔ _
  rw [View.set_slice_whole, Rect.mem_set_unit]
  exact Iff.rfl

/-- THE RESULT ARRAY after the call: the second body's function of the arrays as the call finds them (row p is in the
    block of point p / 5000). -/
theorem final3 (c : Dev nD) :
    (dat3 V c).arrAt 7 cfg3.N
      = mlp2Arr false (V c main_v57_0) (V c main_v59) (V c main_v65) (V c main_v68) (V c main_v71) (V c main_v73) (V c main_v76) :=
  (dat3 V c).arrAt_eq_of_cover 7 _ (fun t _ => flushed3_eq V c t) fun i => by
    have hi0 : (i 0).val < 50000 := (i 0).isLt
    have hi1 : (i 1).val < 128 := (i 1).isLt
    have hN : cfg3.N = 10 := N_3
    let t : Fin cfg3.N := ⟨(i 0).val / 5000, by rw [hN]; omega⟩
    obtain ⟨e00, e01, e70, e71, -⟩ := idx3 t
    have ht : t.val = (i 0).val / 5000 := rfl
    refine ⟨t, flush3_7 t, ?_⟩
    rw [mem_blk3]
    intro a
    match a with
    | ⟨0, _⟩ => show win3_7.index t (0 : Fin 2) * 5000 ≤ (i 0).val ∧ (i 0).val < win3_7.index t (0 : Fin 2) * 5000 + 5000; omega
    | ⟨1, _⟩ => show win3_7.index t (1 : Fin 2) * 128 ≤ (i 1).val ∧ (i 1).val < win3_7.index t (1 : Fin 2) * 128 + 128; omega

end Region3

end Cert.KernelIdeal.KV

end
-- ==== Proof.KRegA5.lean ====
/-
  What kernel call 5 leaves in its output array: the second body's result, block by block.

  The call runs over ten points. At point t the input block is rows 5000·t … 5000·t + 4999 of the array y, the six
  other inputs (four rows of column data, a 128 × 128 weight, a bias row) are their whole arrays, and the output block
  is the same rows of the result array. The body computes, at row r and column q of the block, the second body's
  expression of row 5000·t + r of y, so what point t writes back is block t of ONE function of the whole arrays; the
  ten blocks tile the result array, which therefore ends holding that function.
-/
import proofs.«168398_j7327214207515_1_alg».proof.Proof.Gen.KernelIdeal.Frame
import proofs.«168398_j7327214207515_1_alg».proof.Proof.KPay
import proofs.«168398_j7327214207515_1_alg».proof.Proof.KFun

set_option maxRecDepth 16384

noncomputable section

open scoped BigOperators

namespace Cert.KernelIdeal.KV

open Cert.KernelIdeal Cert.KernelIdeal.Gen Cert.Gin
open Idealize.ShloMosaic Idealize.ShloMosaic.TcCoe Idealize.ShloMosaic.ValueIdx Idealize.SL.Sem
open Idealize.ShloMosaic.Pipeline (Dat)

section Region5

variable (V : (c : Dev nD) → (b : Ref sig .tc) → Buf (Elt Ideal) ((c : Thread nD τ).loc b))

theorem hz5 : (![0, 0] : Fin 2 → Nat) = fun _ => 0 := funext fun a => by fin_cases a <;> rfl

/-- The call's index maps over its ten points: the row-block windows (input 0, output 7) sit at block t, every other
    window at block 0. -/
theorem idx5 : ∀ t : Fin cfg5.N, win5_0.index t (0 : Fin 2) = t.val ∧ win5_0.index t (1 : Fin 2) = 0
    ∧ win5_7.index t (0 : Fin 2) = t.val ∧ win5_7.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

/-- The body's result at one entry of a block whose rows are rows 5000·T + r of y. -/
theorem blk5 (x0 : Vec Ideal S5000x128 .f32) (x1 x2 x3 x4 : Vec Ideal S1x128 .f32) (x5 : Vec Ideal S128x128 .f32)
    (x6 : Vec Ideal S1x128 .f32)
    (a0 : S50000x128.Idx → EReal) (a1 a2 a3 a4 : S1x128.Idx → EReal) (a5 : S128x128.Idx → EReal) (a6 : S1x128.Idx → EReal)
    (T : Nat) (hT : T < 10)
    (h0 : ∀ (r : Fin 5000) (i : Fin 128), x0 (ix2 r i) = a0 (ix2 (⟨5000 * T + r.val, by have := r.isLt; omega⟩ : Fin 50000) i))
    (h1 : ∀ i : Fin 128, x1 (ix2 (0 : Fin 1) i) = a1 (ix2 (0 : Fin 1) i))
    (h2 : ∀ i : Fin 128, x2 (ix2 (0 : Fin 1) i) = a2 (ix2 (0 : Fin 1) i))
    (h3 : ∀ i : Fin 128, x3 (ix2 (0 : Fin 1) i) = a3 (ix2 (0 : Fin 1) i))
    (h4 : ∀ i : Fin 128, x4 (ix2 (0 : Fin 1) i) = a4 (ix2 (0 : Fin 1) i))
    (h5 : ∀ (i q : Fin 128), x5 (ix2 i q) = a5 (ix2 i q))
    (h6 : ∀ i : Fin 128, x6 (ix2 (0 : Fin 1) i) = a6 (ix2 (0 : Fin 1) i))
    (y : S5000x128.Idx) :
    k5_pay1 (F := Ideal) x0 x1 x2 x3 x4 x5 x6 y
      = mlp2At true a0 a1 a2 a3 a4 a5 a6 (⟨5000 * T + (y 0).val, by have : (y 0).val < 5000 := (y 0).isLt; omega⟩ : Fin 50000)
          (⟨(y 1).val, (y 1).isLt⟩ : Fin 128) := by
  obtain ⟨r, q, rfl⟩ : ∃ (r : Fin 5000) (q : Fin 128), y = ix2 r q := ⟨y 0, y 1, eq_ix2 y⟩
  rw [a5_apply]
  unfold mlp2At
  simp only [h0, h1, h2, h3, h4, h5, h6]

/-- WHAT POINT t WRITES BACK is block t of the second body's function of the arrays as the call finds them. -/
theorem flushed5_eq (c : Dev nD) (t : Fin cfg5.N) :
    (dat5 V c).flushed 7 t = ((cfg5.win 7).blk t).view.read (Elt Ideal)
      (mlp2Arr true (V c main_v94_0) (V c main_v96) (V c main_v102) (V c main_v105) (V c main_v108) (V c main_v110) (V c main_v113)) := by
  show (cfg5.win 7).cut (grid5.coords t) ((dat5 V c).after 7 t) = _
  rw [after5_7]
  unfold out5_7
  rw [View.canon_unit_zero hz5]
  simp only [View.ld_unit_zero (S := S5000x128) hz5, View.ld_unit_zero (S := S1x128) hz5, View.ld_unit_zero (S := S128x128) hz5]
  obtain ⟨e00, e01, e70, e71, e10, e11, e20, e21, e30, e31, e40, e41, e50, e51, e60, e61⟩ := idx5 t
  have hN : t.val < 10 := by have h := t.isLt; have e : cfg5.N = 10 := N_5; omega
  funext y
  show k5_pay1 (F := Ideal) (iblk5 V c 0 t) (iblk5 V c 1 t) (iblk5 V c 2 t) (iblk5 V c 3 t) (iblk5 V c 4 t) (iblk5 V c 5 t) (iblk5 V c 6 t) y
    = mlp2Arr true (V c main_v94_0) (V c main_v96) (V c main_v102) (V c main_v105) (V c main_v108) (V c main_v110) (V c main_v113) (((cfg5.win 7).blk t).view.emb y)
  refine (blk5 (iblk5 V c 0 t) (iblk5 V c 1 t) (iblk5 V c 2 t) (iblk5 V c 3 t) (iblk5 V c 4 t) (iblk5 V c 5 t) (iblk5 V c 6 t)
    (V c main_v94_0) (V c main_v96) (V c main_v102) (V c main_v105) (V c main_v108) (V c main_v110) (V c main_v113) t.val hN ?_ ?_ ?_ ?_ ?_ ?_ ?_ y).trans ?_
  · intro r i
    show V c main_v94_0 (((cfg5.win 0).blk t).view.emb (ix2 r i)) = _
    refine congrArg (V c main_v94_0) (funext fun a => Fin.ext ?_)
    match a with
    | ⟨0, _⟩ => show win5_0.index t (0 : Fin 2) * 5000 + 1 * r.val = 5000 * t.val + r.val; omega
    | ⟨1, _⟩ => show win5_0.index t (1 : Fin 2) * 128 + 1 * i.val = i.val; omega
  · intro i
    show V c main_v96 (((cfg5.win 1).blk t).view.emb (ix2 (0 : Fin 1) i)) = _
    refine congrArg (V c main_v96) (funext fun a => Fin.ext ?_)
    match a with
    | ⟨0, _⟩ => show win5_1.index t (0 : Fin 2) * 1 + 1 * 0 = 0; omega
    | ⟨1, _⟩ => show win5_1.index t (1 : Fin 2) * 128 + 1 * i.val = i.val; omega
  · intro i
    show V c main_v102 (((cfg5.win 2).blk t).view.emb (ix2 (0 : Fin 1) i)) = _
    refine congrArg (V c main_v102) (funext fun a => Fin.ext ?_)
    match a with
    | ⟨0, _⟩ => show win5_2.index t (0 : Fin 2) * 1 + 1 * 0 = 0; omega
    | ⟨1, _⟩ => show win5_2.index t (1 : Fin 2) * 128 + 1 * i.val = i.val; omega
  · intro i
    show V c main_v105 (((cfg5.win 3).blk t).view.emb (ix2 (0 : Fin 1) i)) = _
    refine congrArg (V c main_v105) (funext fun a => Fin.ext ?_)
    match a with
    | ⟨0, _⟩ => show win5_3.index t (0 : Fin 2) * 1 + 1 * 0 = 0; omega
    | ⟨1, _⟩ => show win5_3.index t (1 : Fin 2) * 128 + 1 * i.val = i.val; omega
  · intro i
    show V c main_v108 (((cfg5.win 4).blk t).view.emb (ix2 (0 : Fin 1) i)) = _
    refine congrArg (V c main_v108) (funext fun a => Fin.ext ?_)
    match a with
    | ⟨0, _⟩ => show win5_4.index t (0 : Fin 2) * 1 + 1 * 0 = 0; omega
    | ⟨1, _⟩ => show win5_4.index t (1 : Fin 2) * 128 + 1 * i.val = i.val; omega
  · intro i q
    show V c main_v110 (((cfg5.win 5).blk t).view.emb (ix2 i q)) = _
    refine congrArg (V c main_v110) (funext fun a => Fin.ext ?_)
    match a with
    | ⟨0, _⟩ => show win5_5.index t (0 : Fin 2) * 128 + 1 * i.val = i.val; omega
    | ⟨1, _⟩ => show win5_5.index t (1 : Fin 2) * 128 + 1 * q.val = q.val; omega
  · intro i
    show V c main_v113 (((cfg5.win 6).blk t).view.emb (ix2 (0 : Fin 1) i)) = _
    refine congrArg (V c main_v113) (funext fun a => Fin.ext ?_)
    match a with
    | ⟨0, _⟩ => show win5_6.index t (0 : Fin 2) * 1 + 1 * 0 = 0; omega
    | ⟨1, _⟩ => show win5_6.index t (1 : Fin 2) * 128 + 1 * i.val = i.val; omega
  · show mlp2At true _ _ _ _ _ _ _ _ _ = mlp2At true _ _ _ _ _ _ _ ((((cfg5.win 7).blk t).view.emb y) 0) ((((cfg5.win 7).blk t).view.emb y) 1)
    refine congrArg₂ (mlp2At true (V c main_v94_0) (V c main_v96) (V c main_v102) (V c main_v105) (V c main_v108) (V c main_v110) (V c main_v113)) (Fin.ext ?_) (Fin.ext ?_)
    · show 5000 * t.val + (y 0).val = win5_7.index t (0 : Fin 2) * 5000 + 1 * (y 0).val; omega
    · show (y 1).val = win5_7.index t (1 : Fin 2) * 128 + 1 * (y 1).val; omega

/-- An index of the result array is in point t's block iff each coordinate is in the block's range on its axis. -/
theorem mem_blk5 (t : Fin cfg5.N) (i : S50000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v114).slice (win5_7.rect t)).set ↔ _
  rw [View.set_slice_whole, Rect.mem_set_unit]
  exact Iff.rfl

/-- THE RESULT ARRAY after the call: the second body's function of the arrays as the call finds them (row p is in the
    block of point p / 5000). -/
theorem final5 (c : Dev nD) :
    (dat5 V c).arrAt 7 cfg5.N
      = mlp2Arr true (V c main_v94_0) (V c main_v96) (V c main_v102) (V c main_v105) (V c main_v108) (V c main_v110) (V c main_v113) :=
  (dat5 V c).arrAt_eq_of_cover 7 _ (fun t _ => flushed5_eq V c t) fun i => by
    have hi0 : (i 0).val < 50000 := (i 0).isLt
    have hi1 : (i 1).val < 128 := (i 1).isLt
    have hN : cfg5.N = 10 := N_5
    let t : Fin cfg5.N := ⟨(i 0).val / 5000, by rw [hN]; omega⟩
    obtain ⟨e00, e01, e70, e71, -⟩ := idx5 t
    have ht : t.val = (i 0).val / 5000 := rfl
    refine ⟨t, flush5_7 t, ?_⟩
    rw [mem_blk5]
    intro a
    match a with
    | ⟨0, _⟩ => show win5_7.index t (0 : Fin 2) * 5000 ≤ (i 0).val ∧ (i 0).val < win5_7.index t (0 : Fin 2) * 5000 + 5000; omega
    | ⟨1, _⟩ => show win5_7.index t (1 : Fin 2) * 128 ≤ (i 1).val ∧ (i 1).val < win5_7.index t (1 : Fin 2) * 128 + 128; omega

end Region5

end Cert.KernelIdeal.KV

end
-- ==== Proof.KAsm.lean ====
/-
  One layer assembled from its parts.

  The first kernel call of a layer leaves y = z · w1 + b1 and the rows of column sums of y and of y². The host turns the
  two rows into the mean μ = (Σ y) / n and the variance max((Σ y²) / n − μ², 0), and hands them, with the layer's scale,
  shift, second weight and second bias, to the second kernel call. If each of those arrays reads, entry by entry, as
  stated here, the second call's result is the specification's perceptron (in its first arrangement) of z.
-/
import proofs.«168398_j7327214207515_1_alg».proof.Proof.Spec
import proofs.«168398_j7327214207515_1_alg».proof.Proof.KFun

noncomputable section

open scoped BigOperators
open Idealize.ShloMosaic Idealize.ShloMosaic.ValueIdx

namespace Cert.Gin

/-- The second call's result is the perceptron of z, given what each of its input arrays holds. -/
theorem layer_assemble (last : Bool)
    (z : (⟨2, ![50000, 128]⟩ : Shape).Idx → EReal) (w1a : (⟨2, ![128, 128]⟩ : Shape).Idx → EReal)
    (b1a : (⟨2, ![1, 128]⟩ : Shape).Idx → EReal)
    (Y : (⟨2, ![50000, 128]⟩ : Shape).Idx → EReal) (mu var gam bet : (⟨2, ![1, 128]⟩ : Shape).Idx → EReal)
    (w2a : (⟨2, ![128, 128]⟩ : Shape).Idx → EReal) (b2a : (⟨2, ![1, 128]⟩ : Shape).Idx → EReal)
    (w1 : Wt) (b1 gamr betr : Row) (w2 : Wt) (b2 : Row)
    (hY : Y = linArr z w1a b1a)
    (hw1 : ∀ k i : Fin 128, w1a (ix2 k i) = w1 k i) (hb1 : ∀ i : Fin 128, b1a (ix2 (0 : Fin 1) i) = b1 i)
    (hmu : ∀ i : Fin 128, mu (ix2 (0 : Fin 1) i) = Ideal.div (colSumArr Y (ix2 (0 : Fin 1) i)) cnt32)
    (hvar : ∀ i : Fin 128, var (ix2 (0 : Fin 1) i)
      = max (Ideal.div (colSqSumArr Y (ix2 (0 : Fin 1) i)) cnt32
          - Ideal.div (colSumArr Y (ix2 (0 : Fin 1) i)) cnt32 * Ideal.div (colSumArr Y (ix2 (0 : Fin 1) i)) cnt32) zero32)
    (hgam : ∀ i : Fin 128, gam (ix2 (0 : Fin 1) i) = gamr i) (hbet : ∀ i : Fin 128, bet (ix2 (0 : Fin 1) i) = betr i)
    (hw2 : ∀ k i : Fin 128, w2a (ix2 k i) = w2 k i) (hb2 : ∀ i : Fin 128, b2a (ix2 (0 : Fin 1) i) = b2 i) :
    mlp2Arr last Y mu var gam bet w2a b2a = ofMat (mlpK last (toMat z) w1 b1 gamr betr w2 b2) := by
  have hy : ∀ (p : Fin 50000) (i : Fin 128), Y (ix2 p i) = lin (toMat z) w1 b1 p i := by
    intro p i
    rw [hY, linArr_ix2]
    unfold linAt lin toMat
    rw [hb1]
    exact congrArg (· + b1 i) (Finset.sum_congr rfl fun k _ => by rw [hw1])
  have hmean : ∀ i : Fin 128, mu (ix2 (0 : Fin 1) i) = meanK (lin (toMat z) w1 b1) i := by
    intro i
    rw [hmu, colSumArr_ix2]
    unfold meanK
    exact congrArg (fun s => Ideal.div s cnt32) (Finset.sum_congr rfl fun p _ => hy p i)
  have hv : ∀ i : Fin 128, var (ix2 (0 : Fin 1) i) = varK (lin (toMat z) w1 b1) i := by
    intro i
    rw [hvar, ← hmu, hmean, colSqSumArr_ix2]
    unfold varK
    refine congrArg (fun s => max (Ideal.div s cnt32 - meanK (lin (toMat z) w1 b1) i * meanK (lin (toMat z) w1 b1) i) zero32) ?_
    exact Finset.sum_congr rfl fun p _ => by rw [hy p i]
  funext j
  obtain ⟨p, q, rfl⟩ : ∃ (p : Fin 50000) (q : Fin 128), j = ix2 p q := ⟨j 0, j 1, eq_ix2 j⟩
  rw [mlp2Arr_ix2, ofMat_ix2]
  cases last <;>
  · unfold mlp2At mlpK mlpWith fin lin norm
    simp only [hy, hmean, hv, hgam, hbet, hw2, hb2]
    rfl

end Cert.Gin

end
-- ==== Proof.KHostLayout.lean ====
/-
  The kernel program's host stretches: what is shared by all six.

  Between its kernel calls the program runs six straight lines of array operations. The three odd ones turn the two
  rows of column sums a call leaves into the column means and variances and cut the layer's remaining parameters out
  of their stacks; the three even ones aggregate the node features along the edges and cut out the layer's first
  weight and bias. This module has the layout facts all of them use, read at an index — a cut along the first axis,
  a scalar constant broadcast, a row or a matrix taken out of a stack of three — the two statistics rows read at an
  index, and the aggregation named as one function of the two index rows and the features.
-/
import proofs.«168398_j7327214207515_1_alg».proof.Proof.Gen.KernelIdeal.Launch
import proofs.«168398_j7327214207515_1_alg».proof.Proof.Spec
import proofs.«168398_j7327214207515_1_alg».proof.Proof.LibRows
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KV

open Cert.KernelIdeal Cert.KernelIdeal.Gen Cert.Gin Idealize.ShloMosaic Idealize.ShloMosaic.TcCoe Idealize.ShloMosaic.StableHlo Idealize.ShloMosaic.ValueIdx

/-! ## Layout operations read at an index -/

section Layout
variable {α : Type}

/-- A three-axis array cut along its first axis from `o` reads, at `(j, d, e)`, the source at `(k, d, e)` with
    `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (d : Fin n1) (e : Fin n2) (k : Fin n0) (hk : k.val = o + j.val) :
    extractStridedSlice ⟨3, ![m, n1, n2]⟩ ![o, 0, 0] X h (ix3 j d e) = X (ix3 k d e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A scalar float constant broadcast to any shape reads, everywhere, the extended real its word denotes. -/
theorem scalarConst_apply {s : Shape} (b : BitVec 32) (h : (⟨0, ![]⟩ : Shape).BroadcastsInDim s ![]) (j : s.Idx) :
    broadcastInDim s ![] h (constant (F := Ideal) (⟨0, ![]⟩ : Shape) .f32 b) j = Ideal.ofBits .f32 b := by
  rw [Cert.LibRows.scalarInDim_apply]; rfl

/-- Row `l` of a stack of three rows of 128 — cut out as a `[1, 128]` array, flattened to `[128]` and made a
    `[1, 128]` row again — reads, at `(0, q)`, the stack's entry `(l, q)`. -/
theorem rowOfStack_apply (x : (⟨2, ![3, 128]⟩ : Shape).Idx → α) (o : Nat)
    (hs : (⟨2, ![3, 128]⟩ : Shape).Slices ![o, 0] ⟨2, ![1, 128]⟩)
    (h1 : (⟨2, ![1, 128]⟩ : Shape).ShapeCasts ⟨1, ![128]⟩) (h2 : (⟨1, ![128]⟩ : Shape).ShapeCasts ⟨2, ![1, 128]⟩)
    (l : Fin 3) (hl : l.val = o) (q : Fin 128) :
    shapeCast ⟨2, ![1, 128]⟩ (shapeCast ⟨1, ![128]⟩ (extractStridedSlice ⟨2, ![1, 128]⟩ ![o, 0] x hs) h1) h2
        (ix2 (0 : Fin 1) q) = x (ix2 l q) := by
  rw [shapeCast_a_1a_apply, shapeCast_1a_a_apply]
  exact slice2_axis0_apply o x hs (0 : Fin 1) q l (by rw [hl]; rfl)

/-- Matrix `l` of a stack of three 128 × 128 matrices — cut out as a `[1, 128, 128]` array and cast to
    `[128, 128]` — reads, at `(i, q)`, the stack's entry `(l, i, q)`. -/
theorem matOfStack_apply (x : (⟨3, ![3, 128, 128]⟩ : Shape).Idx → α) (o : Nat)
    (hs : (⟨3, ![3, 128, 128]⟩ : Shape).Slices ![o, 0, 0] ⟨3, ![1, 128, 128]⟩)
    (h1 : (⟨3, ![1, 128, 128]⟩ : Shape).ShapeCasts ⟨2, ![128, 128]⟩)
    (l : Fin 3) (hl : l.val = o) (i q : Fin 128) :
    shapeCast ⟨2, ![128, 128]⟩ (extractStridedSlice ⟨3, ![1, 128, 128]⟩ ![o, 0, 0] x hs) h1 (ix2 i q)
      = x (ix3 l i q) := by
  rw [shapeCast_1ab_ab_apply]
  exact slice3_axis0_apply o x hs (0 : Fin 1) i q l (by rw [hl]; rfl)

end Layout

/-! ## The column statistics of a layer, from the two rows of sums a kernel call leaves -/

/-- The mean row: the row of sums over the broadcast count, at an index. -/
theorem meanRow_apply (s1 : FVec Ideal S1x128 .f32) (hb : S_.BroadcastsInDim S1x128 ![]) (j : S1x128.Idx) :
    Host.divf s1 (broadcastInDim S1x128 ![] hb (constant (F := Ideal) S_ .f32 0x47435000#32)) j
      = Ideal.div (s1 j) cnt32 := by
  show Ideal.div (s1 j) (broadcastInDim S1x128 ![] hb (constant (F := Ideal) S_ .f32 0x47435000#32) j) = _
  rw [scalarConst_apply]; rfl

/-- The variance row: mean of squares minus squared mean, cut off below at the broadcast zero, at an index. -/
theorem varRow_apply (s1 s2 : FVec Ideal S1x128 .f32) (hb : S_.BroadcastsInDim S1x128 ![]) (j : S1x128.Idx) :
    maximumf
        (subf (Host.divf s2 (broadcastInDim S1x128 ![] hb (constant (F := Ideal) S_ .f32 0x47435000#32)))
          (mulf (Host.divf s1 (broadcastInDim S1x128 ![] hb (constant (F := Ideal) S_ .f32 0x47435000#32)))
            (Host.divf s1 (broadcastInDim S1x128 ![] hb (constant (F := Ideal) S_ .f32 0x47435000#32)))))
        (broadcastInDim S1x128 ![] hb (constant (F := Ideal) S_ .f32 0x00000000#32)) j
      = max (Ideal.div (s2 j) cnt32 - Ideal.div (s1 j) cnt32 * Ideal.div (s1 j) cnt32) zero32 := by
  show max (Ideal.div (s2 j) (broadcastInDim S1x128 ![] hb (constant (F := Ideal) S_ .f32 0x47435000#32) j)
      - Ideal.div (s1 j) (broadcastInDim S1x128 ![] hb (constant (F := Ideal) S_ .f32 0x47435000#32) j)
        * Ideal.div (s1 j) (broadcastInDim S1x128 ![] hb (constant (F := Ideal) S_ .f32 0x47435000#32) j))
      (broadcastInDim S1x128 ![] hb (constant (F := Ideal) S_ .f32 0x00000000#32) j) = _
  rw [scalarConst_apply, scalarConst_apply]; rfl

/-! ## The aggregation, as one function -/

/-- Row 0 of the edge array: the sending node of every edge. -/
def edgeSrc (e : IVec S2x640000 32) : IVec S640000 32 :=
  shapeCast _ (extractStridedSlice S1x640000 ![0, 0] e slices_S2x640000_S1x640000_0_0) shapeCasts_S1x640000_S640000

/-- Row 1 of the edge array: the receiving node of every edge. -/
def edgeDst (e : IVec S2x640000 32) : IVec S640000 32 :=
  shapeCast _ (extractStridedSlice S1x640000 ![1, 0] e slices_S2x640000_S1x640000_1_0) shapeCasts_S1x640000_S640000

/-- The aggregation: gather the rows of `h` at the sending nodes (a negative index wrapped by the row count), add
    them into zeros at the receiving nodes, and add `h` itself. -/
def aggI (v1 v3 : IVec S640000 32) (h : FVec Ideal S50000x128 .f32) : FVec Ideal S50000x128 .f32 :=
  addf h (Host.scatterAdd scatter_S50000x128_S640000x1_S640000x128_1_0_0_1
    (broadcastInDim S50000x128 ![] bcast_S_S50000x128 (constant S_ .f32 0x00000000#32))
    (broadcastInDim S640000x1 ![0] bcast_S640000_S640000x1_0 v3)
    (Host.gather gather_S50000x128_S640000x1_S640000x128_1_0_n_n_0_1_1128 h
      (broadcastInDim S640000x1 ![0] bcast_S640000_S640000x1_0
        (select (cmpi .slt v1 (broadcastInDim S640000 ![] bcast_S_S640000 (constantI S_ 32 0#32)))
          (addi v1 (broadcastInDim S640000 ![] bcast_S_S640000 (constantI S_ 32 50000#32))) v1))))

end Cert.KernelIdeal.KV

end
-- ==== Proof.KHost0.lean ====
/-
  Host stretch 0 of the kernel program, read over an arbitrary valuation of the buffers: the two index rows cut out of the edge array, the node features of layer 0 aggregated along the edges (one named function of the index rows and the features), and the
  layer's first weight and first bias cut out of their stacks of three; every other buffer keeps its contents.
-/
import proofs.«168398_j7327214207515_1_alg».proof.Proof.KHostLayout

noncomputable section

namespace Cert.KernelIdeal.KV

open Cert.KernelIdeal Cert.KernelIdeal.Gen Cert.Gin Idealize.ShloMosaic Idealize.ShloMosaic.TcCoe Idealize.ShloMosaic.StableHlo Idealize.ShloMosaic.ValueIdx

/-! ## Stretch 0: the aggregation and the first weight and bias of layer 0 -/

section Stretch0
variable (W : Valuation τ sig (Elt Ideal))

/-- The buffers stretch 0 writes. -/
abbrev writes0 : List (Ref sig .tc) :=
  [main_v0, main_v1, main_v2, main_v3, main_c, main_v4, main_v5, main_c_0, main_v6, main_v7, main_v8, main_v9,
   main_v10, main_cst, main_v11, main_v12, main_v13, main_v14, main_v15, main_v16, main_v17, main_v18, main_v19]

theorem writes0_sub : (hostOps0 (F := Ideal)).Forall fun op =>
    op.writes ⊆ (writes0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 0 does not write keeps its contents. -/
theorem keep0 (b : Ref sig .tc) (hb : b ∉ writes0) :
    after (hostOps0 (F := Ideal)) W (Proc.devRef .tc b) = W (Proc.devRef .tc b) :=
  StableHlo.after_of_writes_sub _ W writes0_sub hb

/-- The sending-node row, cut out of the edge array. -/
theorem host0_v1 :
    after (hostOps0 (F := Ideal)) W (Proc.devRef .tc main_v1) = edgeSrc (W (Proc.devRef .tc main_arg7)) := by
  after_results; rfl

/-- The receiving-node row, cut out of the edge array. -/
theorem host0_v3 :
    after (hostOps0 (F := Ideal)) W (Proc.devRef .tc main_v3) = edgeDst (W (Proc.devRef .tc main_arg7)) := by
  after_results; rfl

/-- The aggregated features of layer 0. -/
theorem host0_z :
    after (hostOps0 (F := Ideal)) W (Proc.devRef .tc main_v14)
      = aggI (edgeSrc (W (Proc.devRef .tc main_arg7))) (edgeDst (W (Proc.devRef .tc main_arg7)))
          (W (Proc.devRef .tc main_arg0)) := by
  after_results_simp; rfl

theorem host0_w1 (i q : Fin 128) :
    after (hostOps0 (F := Ideal)) W (Proc.devRef .tc main_v16) (ix2 i q)
      = W (Proc.devRef .tc main_arg1) (ix3 (0 : Fin 3) i q) := by
  have h : after (hostOps0 (F := Ideal)) W (Proc.devRef .tc main_v16)
      = shapeCast S128x128
          (extractStridedSlice S1x128x128 ![0, 0, 0] (W (Proc.devRef .tc main_arg1)) slices_S3x128x128_S1x128x128_0_0_0)
          shapeCasts_S1x128x128_S128x128 := by
    after_results; rfl
  exact (congrFun h _).trans (matOfStack_apply _ 0 _ _ (0 : Fin 3) rfl i q)

theorem host0_b1 (q : Fin 128) :
    after (hostOps0 (F := Ideal)) W (Proc.devRef .tc main_v19) (ix2 (0 : Fin 1) q)
      = W (Proc.devRef .tc main_arg2) (ix2 (0 : Fin 3) q) := by
  have h : after (hostOps0 (F := Ideal)) W (Proc.devRef .tc main_v19)
      = shapeCast S1x128 (shapeCast S128
          (extractStridedSlice S1x128 ![0, 0] (W (Proc.devRef .tc main_arg2)) slices_S3x128_S1x128_0_0)
          shapeCasts_S1x128_S128) shapeCasts_S128_S1x128 := by
    after_results; rfl
  exact (congrFun h _).trans (rowOfStack_apply _ 0 _ _ _ (0 : Fin 3) rfl q)

end Stretch0

end Cert.KernelIdeal.KV

end
-- ==== Proof.KHost1.lean ====
/-
  Host stretch 1 of the kernel program, read over an arbitrary valuation of the buffers: the column means and
  variances of layer 0 from the two rows of sums the preceding kernel call leaves, and the layer's scale, shift,
  second weight and second bias cut out of their stacks of three; every other buffer keeps its contents.
-/
import proofs.«168398_j7327214207515_1_alg».proof.Proof.KHostLayout

noncomputable section

namespace Cert.KernelIdeal.KV

open Cert.KernelIdeal Cert.KernelIdeal.Gen Cert.Gin Idealize.ShloMosaic Idealize.ShloMosaic.TcCoe Idealize.ShloMosaic.StableHlo Idealize.ShloMosaic.ValueIdx

/-! ## Stretch 1: the statistics and the remaining parameters of layer 0 -/

section Stretch1
variable (W : Valuation τ sig (Elt Ideal))

/-- The buffers stretch 1 writes. -/
abbrev writes1 : List (Ref sig .tc) :=
  [main_cst_1, main_v21, main_v22, main_cst_2, main_v23, main_v24, main_v25, main_v26, main_cst_3, main_v27, main_v28,
   main_v29, main_v30, main_v31, main_v32, main_v33, main_v34, main_v35, main_v36, main_v37, main_v38, main_v39]

theorem writes1_sub : (hostOps1 (F := Ideal)).Forall fun op =>
    op.writes ⊆ (writes1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 1 does not write keeps its contents. -/
theorem keep1 (b : Ref sig .tc) (hb : b ∉ writes1) :
    after (hostOps1 (F := Ideal)) W (Proc.devRef .tc b) = W (Proc.devRef .tc b) :=
  StableHlo.after_of_writes_sub _ W writes1_sub hb

theorem host1_mean (q : Fin 128) :
    after (hostOps1 (F := Ideal)) W (Proc.devRef .tc main_v22) (ix2 (0 : Fin 1) q)
      = Ideal.div (W (Proc.devRef .tc main_v20_1) (ix2 (0 : Fin 1) q)) cnt32 := by
  have h : after (hostOps1 (F := Ideal)) W (Proc.devRef .tc main_v22)
      = Host.divf (W (Proc.devRef .tc main_v20_1))
          (broadcastInDim S1x128 ![] bcast_S_S1x128 (constant (F := Ideal) S_ .f32 0x47435000#32)) := by
    after_results
  exact (congrFun h _).trans (meanRow_apply _ _ _)

theorem host1_var (q : Fin 128) :
    after (hostOps1 (F := Ideal)) W (Proc.devRef .tc main_v28) (ix2 (0 : Fin 1) q)
      = max (Ideal.div (W (Proc.devRef .tc main_v20_2) (ix2 (0 : Fin 1) q)) cnt32
          - Ideal.div (W (Proc.devRef .tc main_v20_1) (ix2 (0 : Fin 1) q)) cnt32
            * Ideal.div (W (Proc.devRef .tc main_v20_1) (ix2 (0 : Fin 1) q)) cnt32) zero32 := by
  have h : after (hostOps1 (F := Ideal)) W (Proc.devRef .tc main_v28)
      = maximumf
          (subf (Host.divf (W (Proc.devRef .tc main_v20_2))
              (broadcastInDim S1x128 ![] bcast_S_S1x128 (constant (F := Ideal) S_ .f32 0x47435000#32)))
            (mulf (Host.divf (W (Proc.devRef .tc main_v20_1))
                (broadcastInDim S1x128 ![] bcast_S_S1x128 (constant (F := Ideal) S_ .f32 0x47435000#32)))
              (Host.divf (W (Proc.devRef .tc main_v20_1))
                (broadcastInDim S1x128 ![] bcast_S_S1x128 (constant (F := Ideal) S_ .f32 0x47435000#32)))))
          (broadcastInDim S1x128 ![] bcast_S_S1x128 (constant (F := Ideal) S_ .f32 0x00000000#32)) := by
    after_results
  exact (congrFun h _).trans (varRow_apply _ _ _ _)

theorem host1_gam (q : Fin 128) :
    after (hostOps1 (F := Ideal)) W (Proc.devRef .tc main_v31) (ix2 (0 : Fin 1) q)
      = W (Proc.devRef .tc main_arg3) (ix2 (0 : Fin 3) q) := by
  have h : after (hostOps1 (F := Ideal)) W (Proc.devRef .tc main_v31)
      = shapeCast S1x128 (shapeCast S128
          (extractStridedSlice S1x128 ![0, 0] (W (Proc.devRef .tc main_arg3)) slices_S3x128_S1x128_0_0)
          shapeCasts_S1x128_S128) shapeCasts_S128_S1x128 := by
    after_results; rfl
  exact (congrFun h _).trans (rowOfStack_apply _ 0 _ _ _ (0 : Fin 3) rfl q)

theorem host1_bet (q : Fin 128) :
    after (hostOps1 (F := Ideal)) W (Proc.devRef .tc main_v34) (ix2 (0 : Fin 1) q)
      = W (Proc.devRef .tc main_arg4) (ix2 (0 : Fin 3) q) := by
  have h : after (hostOps1 (F := Ideal)) W (Proc.devRef .tc main_v34)
      = shapeCast S1x128 (shapeCast S128
          (extractStridedSlice S1x128 ![0, 0] (W (Proc.devRef .tc main_arg4)) slices_S3x128_S1x128_0_0)
          shapeCasts_S1x128_S128) shapeCasts_S128_S1x128 := by
    after_results; rfl
  exact (congrFun h _).trans (rowOfStack_apply _ 0 _ _ _ (0 : Fin 3) rfl q)

theorem host1_w2 (i q : Fin 128) :
    after (hostOps1 (F := Ideal)) W (Proc.devRef .tc main_v36) (ix2 i q)
      = W (Proc.devRef .tc main_arg5) (ix3 (0 : Fin 3) i q) := by
  have h : after (hostOps1 (F := Ideal)) W (Proc.devRef .tc main_v36)
      = shapeCast S128x128
          (extractStridedSlice S1x128x128 ![0, 0, 0] (W (Proc.devRef .tc main_arg5)) slices_S3x128x128_S1x128x128_0_0_0)
          shapeCasts_S1x128x128_S128x128 := by
    after_results; rfl
  exact (congrFun h _).trans (matOfStack_apply _ 0 _ _ (0 : Fin 3) rfl i q)

theorem host1_b2 (q : Fin 128) :
    after (hostOps1 (F := Ideal)) W (Proc.devRef .tc main_v39) (ix2 (0 : Fin 1) q)
      = W (Proc.devRef .tc main_arg6) (ix2 (0 : Fin 3) q) := by
  have h : after (hostOps1 (F := Ideal)) W (Proc.devRef .tc main_v39)
      = shapeCast S1x128 (shapeCast S128
          (extractStridedSlice S1x128 ![0, 0] (W (Proc.devRef .tc main_arg6)) slices_S3x128_S1x128_0_0)
          shapeCasts_S1x128_S128) shapeCasts_S128_S1x128 := by
    after_results; rfl
  exact (congrFun h _).trans (rowOfStack_apply _ 0 _ _ _ (0 : Fin 3) rfl q)

end Stretch1

end Cert.KernelIdeal.KV

end
-- ==== Proof.KHost2.lean ====
/-
  Host stretch 2 of the kernel program, read over an arbitrary valuation of the buffers: the node features of layer 1 aggregated along the edges (one named function of the index rows and the features), and the
  layer's first weight and first bias cut out of their stacks of three; every other buffer keeps its contents.
-/
import proofs.«168398_j7327214207515_1_alg».proof.Proof.KHostLayout

noncomputable section

namespace Cert.KernelIdeal.KV

open Cert.KernelIdeal Cert.KernelIdeal.Gen Cert.Gin Idealize.ShloMosaic Idealize.ShloMosaic.TcCoe Idealize.ShloMosaic.StableHlo Idealize.ShloMosaic.ValueIdx

/-! ## Stretch 2: the aggregation and the first weight and bias of layer 1 -/

section Stretch2
variable (W : Valuation τ sig (Elt Ideal))

/-- The buffers stretch 2 writes. -/
abbrev writes2 : List (Ref sig .tc) :=
  [main_c_4, main_v41, main_v42, main_c_5, main_v43, main_v44, main_v45, main_v46, main_v47, main_cst_6,
   main_v48, main_v49, main_v50, main_v51, main_v52, main_v53, main_v54, main_v55, main_v56]

theorem writes2_sub : (hostOps2 (F := Ideal)).Forall fun op =>
    op.writes ⊆ (writes2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 2 does not write keeps its contents. -/
theorem keep2 (b : Ref sig .tc) (hb : b ∉ writes2) :
    after (hostOps2 (F := Ideal)) W (Proc.devRef .tc b) = W (Proc.devRef .tc b) :=
  StableHlo.after_of_writes_sub _ W writes2_sub hb

/-- The aggregated features of layer 1, over the two index rows stretch 0 left. -/
theorem host2_z :
    after (hostOps2 (F := Ideal)) W (Proc.devRef .tc main_v51)
      = aggI (W (Proc.devRef .tc main_v1)) (W (Proc.devRef .tc main_v3)) (W (Proc.devRef .tc main_v40)) := by
  after_results_simp; rfl

theorem host2_w1 (i q : Fin 128) :
    after (hostOps2 (F := Ideal)) W (Proc.devRef .tc main_v53) (ix2 i q)
      = W (Proc.devRef .tc main_arg1) (ix3 (1 : Fin 3) i q) := by
  have h : after (hostOps2 (F := Ideal)) W (Proc.devRef .tc main_v53)
      = shapeCast S128x128
          (extractStridedSlice S1x128x128 ![1, 0, 0] (W (Proc.devRef .tc main_arg1)) slices_S3x128x128_S1x128x128_1_0_0)
          shapeCasts_S1x128x128_S128x128 := by
    after_results; rfl
  exact (congrFun h _).trans (matOfStack_apply _ 1 _ _ (1 : Fin 3) rfl i q)

theorem host2_b1 (q : Fin 128) :
    after (hostOps2 (F := Ideal)) W (Proc.devRef .tc main_v56) (ix2 (0 : Fin 1) q)
      = W (Proc.devRef .tc main_arg2) (ix2 (1 : Fin 3) q) := by
  have h : after (hostOps2 (F := Ideal)) W (Proc.devRef .tc main_v56)
      = shapeCast S1x128 (shapeCast S128
          (extractStridedSlice S1x128 ![1, 0] (W (Proc.devRef .tc main_arg2)) slices_S3x128_S1x128_1_0)
          shapeCasts_S1x128_S128) shapeCasts_S128_S1x128 := by
    after_results; rfl
  exact (congrFun h _).trans (rowOfStack_apply _ 1 _ _ _ (1 : Fin 3) rfl q)

end Stretch2

end Cert.KernelIdeal.KV

end
-- ==== Proof.KHost3.lean ====
/-
  Host stretch 3 of the kernel program, read over an arbitrary valuation of the buffers: the column means and
  variances of layer 1 from the two rows of sums the preceding kernel call leaves, and the layer's scale, shift,
  second weight and second bias cut out of their stacks of three; every other buffer keeps its contents.
-/
import proofs.«168398_j7327214207515_1_alg».proof.Proof.KHostLayout

noncomputable section

namespace Cert.KernelIdeal.KV

open Cert.KernelIdeal Cert.KernelIdeal.Gen Cert.Gin Idealize.ShloMosaic Idealize.ShloMosaic.TcCoe Idealize.ShloMosaic.StableHlo Idealize.ShloMosaic.ValueIdx

/-! ## Stretch 3: the statistics and the remaining parameters of layer 1 -/

section Stretch3
variable (W : Valuation τ sig (Elt Ideal))

/-- The buffers stretch 3 writes. -/
abbrev writes3 : List (Ref sig .tc) :=
  [main_cst_7, main_v58, main_v59, main_cst_8, main_v60, main_v61, main_v62, main_v63, main_cst_9, main_v64, main_v65,
   main_v66, main_v67, main_v68, main_v69, main_v70, main_v71, main_v72, main_v73, main_v74, main_v75, main_v76]

theorem writes3_sub : (hostOps3 (F := Ideal)).Forall fun op =>
    op.writes ⊆ (writes3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 3 does not write keeps its contents. -/
theorem keep3 (b : Ref sig .tc) (hb : b ∉ writes3) :
    after (hostOps3 (F := Ideal)) W (Proc.devRef .tc b) = W (Proc.devRef .tc b) :=
  StableHlo.after_of_writes_sub _ W writes3_sub hb

theorem host3_mean (q : Fin 128) :
    after (hostOps3 (F := Ideal)) W (Proc.devRef .tc main_v59) (ix2 (0 : Fin 1) q)
      = Ideal.div (W (Proc.devRef .tc main_v57_1) (ix2 (0 : Fin 1) q)) cnt32 := by
  have h : after (hostOps3 (F := Ideal)) W (Proc.devRef .tc main_v59)
      = Host.divf (W (Proc.devRef .tc main_v57_1))
          (broadcastInDim S1x128 ![] bcast_S_S1x128 (constant (F := Ideal) S_ .f32 0x47435000#32)) := by
    after_results
  exact (congrFun h _).trans (meanRow_apply _ _ _)

theorem host3_var (q : Fin 128) :
    after (hostOps3 (F := Ideal)) W (Proc.devRef .tc main_v65) (ix2 (0 : Fin 1) q)
      = max (Ideal.div (W (Proc.devRef .tc main_v57_2) (ix2 (0 : Fin 1) q)) cnt32
          - Ideal.div (W (Proc.devRef .tc main_v57_1) (ix2 (0 : Fin 1) q)) cnt32
            * Ideal.div (W (Proc.devRef .tc main_v57_1) (ix2 (0 : Fin 1) q)) cnt32) zero32 := by
  have h : after (hostOps3 (F := Ideal)) W (Proc.devRef .tc main_v65)
      = maximumf
          (subf (Host.divf (W (Proc.devRef .tc main_v57_2))
              (broadcastInDim S1x128 ![] bcast_S_S1x128 (constant (F := Ideal) S_ .f32 0x47435000#32)))
            (mulf (Host.divf (W (Proc.devRef .tc main_v57_1))
                (broadcastInDim S1x128 ![] bcast_S_S1x128 (constant (F := Ideal) S_ .f32 0x47435000#32)))
              (Host.divf (W (Proc.devRef .tc main_v57_1))
                (broadcastInDim S1x128 ![] bcast_S_S1x128 (constant (F := Ideal) S_ .f32 0x47435000#32)))))
          (broadcastInDim S1x128 ![] bcast_S_S1x128 (constant (F := Ideal) S_ .f32 0x00000000#32)) := by
    after_results
  exact (congrFun h _).trans (varRow_apply _ _ _ _)

theorem host3_gam (q : Fin 128) :
    after (hostOps3 (F := Ideal)) W (Proc.devRef .tc main_v68) (ix2 (0 : Fin 1) q)
      = W (Proc.devRef .tc main_arg3) (ix2 (1 : Fin 3) q) := by
  have h : after (hostOps3 (F := Ideal)) W (Proc.devRef .tc main_v68)
      = shapeCast S1x128 (shapeCast S128
          (extractStridedSlice S1x128 ![1, 0] (W (Proc.devRef .tc main_arg3)) slices_S3x128_S1x128_1_0)
          shapeCasts_S1x128_S128) shapeCasts_S128_S1x128 := by
    after_results; rfl
  exact (congrFun h _).trans (rowOfStack_apply _ 1 _ _ _ (1 : Fin 3) rfl q)

theorem host3_bet (q : Fin 128) :
    after (hostOps3 (F := Ideal)) W (Proc.devRef .tc main_v71) (ix2 (0 : Fin 1) q)
      = W (Proc.devRef .tc main_arg4) (ix2 (1 : Fin 3) q) := by
  have h : after (hostOps3 (F := Ideal)) W (Proc.devRef .tc main_v71)
      = shapeCast S1x128 (shapeCast S128
          (extractStridedSlice S1x128 ![1, 0] (W (Proc.devRef .tc main_arg4)) slices_S3x128_S1x128_1_0)
          shapeCasts_S1x128_S128) shapeCasts_S128_S1x128 := by
    after_results; rfl
  exact (congrFun h _).trans (rowOfStack_apply _ 1 _ _ _ (1 : Fin 3) rfl q)

theorem host3_w2 (i q : Fin 128) :
    after (hostOps3 (F := Ideal)) W (Proc.devRef .tc main_v73) (ix2 i q)
      = W (Proc.devRef .tc main_arg5) (ix3 (1 : Fin 3) i q) := by
  have h : after (hostOps3 (F := Ideal)) W (Proc.devRef .tc main_v73)
      = shapeCast S128x128
          (extractStridedSlice S1x128x128 ![1, 0, 0] (W (Proc.devRef .tc main_arg5)) slices_S3x128x128_S1x128x128_1_0_0)
          shapeCasts_S1x128x128_S128x128 := by
    after_results; rfl
  exact (congrFun h _).trans (matOfStack_apply _ 1 _ _ (1 : Fin 3) rfl i q)

theorem host3_b2 (q : Fin 128) :
    after (hostOps3 (F := Ideal)) W (Proc.devRef .tc main_v76) (ix2 (0 : Fin 1) q)
      = W (Proc.devRef .tc main_arg6) (ix2 (1 : Fin 3) q) := by
  have h : after (hostOps3 (F := Ideal)) W (Proc.devRef .tc main_v76)
      = shapeCast S1x128 (shapeCast S128
          (extractStridedSlice S1x128 ![1, 0] (W (Proc.devRef .tc main_arg6)) slices_S3x128_S1x128_1_0)
          shapeCasts_S1x128_S128) shapeCasts_S128_S1x128 := by
    after_results; rfl
  exact (congrFun h _).trans (rowOfStack_apply _ 1 _ _ _ (1 : Fin 3) rfl q)

end Stretch3

end Cert.KernelIdeal.KV

end
-- ==== Proof.KHost4.lean ====
/-
  Host stretch 4 of the kernel program, read over an arbitrary valuation of the buffers: the node features of layer 2 aggregated along the edges (one named function of the index rows and the features), and the
  layer's first weight and first bias cut out of their stacks of three; every other buffer keeps its contents.
-/
import proofs.«168398_j7327214207515_1_alg».proof.Proof.KHostLayout

noncomputable section

namespace Cert.KernelIdeal.KV

open Cert.KernelIdeal Cert.KernelIdeal.Gen Cert.Gin Idealize.ShloMosaic Idealize.ShloMosaic.TcCoe Idealize.ShloMosaic.StableHlo Idealize.ShloMosaic.ValueIdx

/-! ## Stretch 4: the aggregation and the first weight and bias of layer 2 -/

section Stretch4
variable (W : Valuation τ sig (Elt Ideal))

/-- The buffers stretch 4 writes. -/
abbrev writes4 : List (Ref sig .tc) :=
  [main_c_10, main_v78, main_v79, main_c_11, main_v80, main_v81, main_v82, main_v83, main_v84, main_cst_12,
   main_v85, main_v86, main_v87, main_v88, main_v89, main_v90, main_v91, main_v92, main_v93]

theorem writes4_sub : (hostOps4 (F := Ideal)).Forall fun op =>
    op.writes ⊆ (writes4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 4 does not write keeps its contents. -/
theorem keep4 (b : Ref sig .tc) (hb : b ∉ writes4) :
    after (hostOps4 (F := Ideal)) W (Proc.devRef .tc b) = W (Proc.devRef .tc b) :=
  StableHlo.after_of_writes_sub _ W writes4_sub hb

/-- The aggregated features of layer 2, over the two index rows stretch 0 left. -/
theorem host4_z :
    after (hostOps4 (F := Ideal)) W (Proc.devRef .tc main_v88)
      = aggI (W (Proc.devRef .tc main_v1)) (W (Proc.devRef .tc main_v3)) (W (Proc.devRef .tc main_v77)) := by
  after_results_simp; rfl

theorem host4_w1 (i q : Fin 128) :
    after (hostOps4 (F := Ideal)) W (Proc.devRef .tc main_v90) (ix2 i q)
      = W (Proc.devRef .tc main_arg1) (ix3 (2 : Fin 3) i q) := by
  have h : after (hostOps4 (F := Ideal)) W (Proc.devRef .tc main_v90)
      = shapeCast S128x128
          (extractStridedSlice S1x128x128 ![2, 0, 0] (W (Proc.devRef .tc main_arg1)) slices_S3x128x128_S1x128x128_2_0_0)
          shapeCasts_S1x128x128_S128x128 := by
    after_results; rfl
  exact (congrFun h _).trans (matOfStack_apply _ 2 _ _ (2 : Fin 3) rfl i q)

theorem host4_b1 (q : Fin 128) :
    after (hostOps4 (F := Ideal)) W (Proc.devRef .tc main_v93) (ix2 (0 : Fin 1) q)
      = W (Proc.devRef .tc main_arg2) (ix2 (2 : Fin 3) q) := by
  have h : after (hostOps4 (F := Ideal)) W (Proc.devRef .tc main_v93)
      = shapeCast S1x128 (shapeCast S128
          (extractStridedSlice S1x128 ![2, 0] (W (Proc.devRef .tc main_arg2)) slices_S3x128_S1x128_2_0)
          shapeCasts_S1x128_S128) shapeCasts_S128_S1x128 := by
    after_results; rfl
  exact (congrFun h _).trans (rowOfStack_apply _ 2 _ _ _ (2 : Fin 3) rfl q)

end Stretch4

end Cert.KernelIdeal.KV

end
-- ==== Proof.KHost5.lean ====
/-
  Host stretch 5 of the kernel program, read over an arbitrary valuation of the buffers: the column means and
  variances of layer 2 from the two rows of sums the preceding kernel call leaves, and the layer's scale, shift,
  second weight and second bias cut out of their stacks of three; every other buffer keeps its contents.
-/
import proofs.«168398_j7327214207515_1_alg».proof.Proof.KHostLayout

noncomputable section

namespace Cert.KernelIdeal.KV

open Cert.KernelIdeal Cert.KernelIdeal.Gen Cert.Gin Idealize.ShloMosaic Idealize.ShloMosaic.TcCoe Idealize.ShloMosaic.StableHlo Idealize.ShloMosaic.ValueIdx

/-! ## Stretch 5: the statistics and the remaining parameters of layer 2 -/

section Stretch5
variable (W : Valuation τ sig (Elt Ideal))

/-- The buffers stretch 5 writes. -/
abbrev writes5 : List (Ref sig .tc) :=
  [main_cst_13, main_v95, main_v96, main_cst_14, main_v97, main_v98, main_v99, main_v100, main_cst_15, main_v101, main_v102,
   main_v103, main_v104, main_v105, main_v106, main_v107, main_v108, main_v109, main_v110, main_v111, main_v112, main_v113]

theorem writes5_sub : (hostOps5 (F := Ideal)).Forall fun op =>
    op.writes ⊆ (writes5.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 5 does not write keeps its contents. -/
theorem keep5 (b : Ref sig .tc) (hb : b ∉ writes5) :
    after (hostOps5 (F := Ideal)) W (Proc.devRef .tc b) = W (Proc.devRef .tc b) :=
  StableHlo.after_of_writes_sub _ W writes5_sub hb

theorem host5_mean (q : Fin 128) :
    after (hostOps5 (F := Ideal)) W (Proc.devRef .tc main_v96) (ix2 (0 : Fin 1) q)
      = Ideal.div (W (Proc.devRef .tc main_v94_1) (ix2 (0 : Fin 1) q)) cnt32 := by
  have h : after (hostOps5 (F := Ideal)) W (Proc.devRef .tc main_v96)
      = Host.divf (W (Proc.devRef .tc main_v94_1))
          (broadcastInDim S1x128 ![] bcast_S_S1x128 (constant (F := Ideal) S_ .f32 0x47435000#32)) := by
    after_results
  exact (congrFun h _).trans (meanRow_apply _ _ _)

theorem host5_var (q : Fin 128) :
    after (hostOps5 (F := Ideal)) W (Proc.devRef .tc main_v102) (ix2 (0 : Fin 1) q)
      = max (Ideal.div (W (Proc.devRef .tc main_v94_2) (ix2 (0 : Fin 1) q)) cnt32
          - Ideal.div (W (Proc.devRef .tc main_v94_1) (ix2 (0 : Fin 1) q)) cnt32
            * Ideal.div (W (Proc.devRef .tc main_v94_1) (ix2 (0 : Fin 1) q)) cnt32) zero32 := by
  have h : after (hostOps5 (F := Ideal)) W (Proc.devRef .tc main_v102)
      = maximumf
          (subf (Host.divf (W (Proc.devRef .tc main_v94_2))
              (broadcastInDim S1x128 ![] bcast_S_S1x128 (constant (F := Ideal) S_ .f32 0x47435000#32)))
            (mulf (Host.divf (W (Proc.devRef .tc main_v94_1))
                (broadcastInDim S1x128 ![] bcast_S_S1x128 (constant (F := Ideal) S_ .f32 0x47435000#32)))
              (Host.divf (W (Proc.devRef .tc main_v94_1))
                (broadcastInDim S1x128 ![] bcast_S_S1x128 (constant (F := Ideal) S_ .f32 0x47435000#32)))))
          (broadcastInDim S1x128 ![] bcast_S_S1x128 (constant (F := Ideal) S_ .f32 0x00000000#32)) := by
    after_results
  exact (congrFun h _).trans (varRow_apply _ _ _ _)

theorem host5_gam (q : Fin 128) :
    after (hostOps5 (F := Ideal)) W (Proc.devRef .tc main_v105) (ix2 (0 : Fin 1) q)
      = W (Proc.devRef .tc main_arg3) (ix2 (2 : Fin 3) q) := by
  have h : after (hostOps5 (F := Ideal)) W (Proc.devRef .tc main_v105)
      = shapeCast S1x128 (shapeCast S128
          (extractStridedSlice S1x128 ![2, 0] (W (Proc.devRef .tc main_arg3)) slices_S3x128_S1x128_2_0)
          shapeCasts_S1x128_S128) shapeCasts_S128_S1x128 := by
    after_results; rfl
  exact (congrFun h _).trans (rowOfStack_apply _ 2 _ _ _ (2 : Fin 3) rfl q)

theorem host5_bet (q : Fin 128) :
    after (hostOps5 (F := Ideal)) W (Proc.devRef .tc main_v108) (ix2 (0 : Fin 1) q)
      = W (Proc.devRef .tc main_arg4) (ix2 (2 : Fin 3) q) := by
  have h : after (hostOps5 (F := Ideal)) W (Proc.devRef .tc main_v108)
      = shapeCast S1x128 (shapeCast S128
          (extractStridedSlice S1x128 ![2, 0] (W (Proc.devRef .tc main_arg4)) slices_S3x128_S1x128_2_0)
          shapeCasts_S1x128_S128) shapeCasts_S128_S1x128 := by
    after_results; rfl
  exact (congrFun h _).trans (rowOfStack_apply _ 2 _ _ _ (2 : Fin 3) rfl q)

theorem host5_w2 (i q : Fin 128) :
    after (hostOps5 (F := Ideal)) W (Proc.devRef .tc main_v110) (ix2 i q)
      = W (Proc.devRef .tc main_arg5) (ix3 (2 : Fin 3) i q) := by
  have h : after (hostOps5 (F := Ideal)) W (Proc.devRef .tc main_v110)
      = shapeCast S128x128
          (extractStridedSlice S1x128x128 ![2, 0, 0] (W (Proc.devRef .tc main_arg5)) slices_S3x128x128_S1x128x128_2_0_0)
          shapeCasts_S1x128x128_S128x128 := by
    after_results; rfl
  exact (congrFun h _).trans (matOfStack_apply _ 2 _ _ (2 : Fin 3) rfl i q)

theorem host5_b2 (q : Fin 128) :
    after (hostOps5 (F := Ideal)) W (Proc.devRef .tc main_v113) (ix2 (0 : Fin 1) q)
      = W (Proc.devRef .tc main_arg6) (ix2 (2 : Fin 3) q) := by
  have h : after (hostOps5 (F := Ideal)) W (Proc.devRef .tc main_v113)
      = shapeCast S1x128 (shapeCast S128
          (extractStridedSlice S1x128 ![2, 0] (W (Proc.devRef .tc main_arg6)) slices_S3x128_S1x128_2_0)
          shapeCasts_S1x128_S128) shapeCasts_S128_S1x128 := by
    after_results; rfl
  exact (congrFun h _).trans (rowOfStack_apply _ 2 _ _ _ (2 : Fin 3) rfl q)

end Stretch5

end Cert.KernelIdeal.KV

end
-- ==== Proof.KHost.lean ====
/-
  The kernel program's six host stretches, read over an arbitrary valuation of the buffers: one module per stretch
  (they are independent of one another and share only the layout facts), gathered here so that one import brings
  them all.
-/
import proofs.«168398_j7327214207515_1_alg».proof.Proof.KHost0
import proofs.«168398_j7327214207515_1_alg».proof.Proof.KHost1
import proofs.«168398_j7327214207515_1_alg».proof.Proof.KHost2
import proofs.«168398_j7327214207515_1_alg».proof.Proof.KHost3
import proofs.«168398_j7327214207515_1_alg».proof.Proof.KHost4
import proofs.«168398_j7327214207515_1_alg».proof.Proof.KHost5
-- ==== Proof.KAgg.lean ====
/-
  The aggregation step as the kernel program spells it: every node's row plus the rows of the nodes that send it an
  edge, the sending and receiving node of each edge being the two rows of the edge array.
-/
import proofs.«168398_j7327214207515_1_alg».proof.Proof.KHostLayout

noncomputable section

namespace Cert.KernelIdeal.KV

open Cert.KernelIdeal Idealize.ShloMosaic

/-- The aggregation of the features `h` along the edges `e`. -/
def aggK (e : IVec S2x640000 32) (h : FVec Ideal S50000x128 .f32) : FVec Ideal S50000x128 .f32 :=
  aggI (edgeSrc e) (edgeDst e) h

end Cert.KernelIdeal.KV

end
-- ==== Proof.KChain.lean ====
/-
  The idealized kernel program's result as the specification's network.

  The buffers' contents at the program's segment boundaries are a fold: a host stretch applies its operations, a
  kernel call leaves its output arrays at what its write-backs leave and every other buffer alone. Layer by layer:
  the aggregating stretch leaves the aggregated features and the layer's first weight and bias; the first call leaves
  y and its two rows of column sums; the statistics stretch leaves the mean, the variance and the layer's four other
  parameters; the second call leaves the layer's output. A buffer that no segment in between writes (an argument, the
  two index rows cut out of the edge array in the first stretch, a call's output until its reader) keeps its
  contents, and that is how each stretch finds the arguments as launched. Assembled, each layer's output is the
  specification's layer (first arrangement) of the layer before's, and the result is the three in a row.
-/
import proofs.«168398_j7327214207515_1_alg».proof.Proof.Gen.KernelIdeal.Frame
import proofs.«168398_j7327214207515_1_alg».proof.Proof.KRegR0
import proofs.«168398_j7327214207515_1_alg».proof.Proof.KRegR2
import proofs.«168398_j7327214207515_1_alg».proof.Proof.KRegR4
import proofs.«168398_j7327214207515_1_alg».proof.Proof.KRegA1
import proofs.«168398_j7327214207515_1_alg».proof.Proof.KRegA3
import proofs.«168398_j7327214207515_1_alg».proof.Proof.KRegA5
import proofs.«168398_j7327214207515_1_alg».proof.Proof.KAsm
import proofs.«168398_j7327214207515_1_alg».proof.Proof.KHost
import proofs.«168398_j7327214207515_1_alg».proof.Proof.KAgg

set_option maxRecDepth 16384

noncomputable section

open scoped BigOperators

namespace Cert.KernelIdeal.KV

open Cert.KernelIdeal Cert.KernelIdeal.Gen Cert.Gin
open Idealize.ShloMosaic Idealize.ShloMosaic.TcCoe Idealize.ShloMosaic.ValueIdx Idealize.SL.Sem Idealize.ShloMosaic.StableHlo
open Idealize.ShloMosaic.Pipeline (Dat)

section Chain

variable (m : (ℓ : Loc nD τ sig) → Buf (Elt Ideal) ℓ) (ρ : Dev nD → PrngReg)

/-- Layer 0: the second call's output is the specification's layer of the input features. -/
theorem layer0_out (c : Dev nD) :
    W4 m ρ c (Proc.devRef .tc main_v40)
      = layerWith mlpK (aggK (m ((c : Thread nD τ).loc main_arg7))) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) false 0 (m ((c : Thread nD τ).loc main_arg0)) := by
  have hY : V3 m ρ c main_v20_0 = linArr (V1 m ρ c main_v14) (V1 m ρ c main_v16) (V1 m ρ c main_v19) :=
    (keep1 (W2 m ρ c) main_v20_0 (by decide)).trans ((W2_arr m ρ c 3).trans (finalR0_3 (V1 m ρ) c))
  have hS : W2 m ρ c (Proc.devRef .tc main_v20_1) = colSumArr (V3 m ρ c main_v20_0) :=
    ((W2_arr m ρ c 4).trans (finalR0_4 (V1 m ρ) c)).trans (congrArg colSumArr hY.symm)
  have hQ : W2 m ρ c (Proc.devRef .tc main_v20_2) = colSqSumArr (V3 m ρ c main_v20_0) :=
    ((W2_arr m ρ c 5).trans (finalR0_5 (V1 m ρ) c)).trans (congrArg colSqSumArr hY.symm)
  have hz : V1 m ρ c main_v14 = aggK (m ((c : Thread nD τ).loc main_arg7)) (m ((c : Thread nD τ).loc main_arg0)) := host0_z (W0 m ρ c)
  refine ((W4_arr m ρ c 7).trans (final1 (V3 m ρ) c)).trans ?_
  unfold layerWith
  rw [← hz]
  refine layer_assemble false (V1 m ρ c main_v14) (V1 m ρ c main_v16) (V1 m ρ c main_v19) (V3 m ρ c main_v20_0)
    (V3 m ρ c main_v22) (V3 m ρ c main_v28) (V3 m ρ c main_v31) (V3 m ρ c main_v34) (V3 m ρ c main_v36) (V3 m ρ c main_v39)
    _ _ _ _ _ _ hY ?_ ?_ ?_ ?_ ?_ ?_ ?_ ?_
  · intro k i
    exact (host0_w1 (W0 m ρ c) k i)
  · intro i
    exact (host0_b1 (W0 m ρ c) i)
  · intro i
    exact (host1_mean (W2 m ρ c) i).trans (by rw [hS])
  · intro i
    exact (host1_var (W2 m ρ c) i).trans (by rw [hS, hQ])
  · intro i
    exact (host1_gam (W2 m ρ c) i).trans (congrFun (((W2_of_ne m ρ c main_arg3 (by decide)).trans (keep0 (W0 m ρ c) main_arg3 (by decide))).trans rfl) _)
  · intro i
    exact (host1_bet (W2 m ρ c) i).trans (congrFun (((W2_of_ne m ρ c main_arg4 (by decide)).trans (keep0 (W0 m ρ c) main_arg4 (by decide))).trans rfl) _)
  · intro k i
    exact (host1_w2 (W2 m ρ c) k i).trans (congrFun (((W2_of_ne m ρ c main_arg5 (by decide)).trans (keep0 (W0 m ρ c) main_arg5 (by decide))).trans rfl) _)
  · intro i
    exact (host1_b2 (W2 m ρ c) i).trans (congrFun (((W2_of_ne m ρ c main_arg6 (by decide)).trans (keep0 (W0 m ρ c) main_arg6 (by decide))).trans rfl) _)

/-- Layer 1: the second call's output is the specification's layer of the layer before's output. -/
theorem layer1_out (c : Dev nD) :
    W8 m ρ c (Proc.devRef .tc main_v77)
      = layerWith mlpK (aggK (m ((c : Thread nD τ).loc main_arg7))) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) false 1 (W4 m ρ c (Proc.devRef .tc main_v40)) := by
  have hY : V7 m ρ c main_v57_0 = linArr (V5 m ρ c main_v51) (V5 m ρ c main_v53) (V5 m ρ c main_v56) :=
    (keep3 (W6 m ρ c) main_v57_0 (by decide)).trans ((W6_arr m ρ c 3).trans (finalR2_3 (V5 m ρ) c))
  have hS : W6 m ρ c (Proc.devRef .tc main_v57_1) = colSumArr (V7 m ρ c main_v57_0) :=
    ((W6_arr m ρ c 4).trans (finalR2_4 (V5 m ρ) c)).trans (congrArg colSumArr hY.symm)
  have hQ : W6 m ρ c (Proc.devRef .tc main_v57_2) = colSqSumArr (V7 m ρ c main_v57_0) :=
    ((W6_arr m ρ c 5).trans (finalR2_5 (V5 m ρ) c)).trans (congrArg colSqSumArr hY.symm)
  have hz : V5 m ρ c main_v51 = aggK (m ((c : Thread nD τ).loc main_arg7)) (W4 m ρ c (Proc.devRef .tc main_v40)) := (host2_z (W4 m ρ c)).trans (by rw [show W4 m ρ c (Proc.devRef .tc main_v1) = edgeSrc (m ((c : Thread nD τ).loc main_arg7)) from (((W4_of_ne m ρ c main_v1 (by decide)).trans ((keep1 (W2 m ρ c) main_v1 (by decide)).trans (W2_of_ne m ρ c main_v1 (by decide)))).trans (host0_v1 (W0 m ρ c))), show W4 m ρ c (Proc.devRef .tc main_v3) = edgeDst (m ((c : Thread nD τ).loc main_arg7)) from (((W4_of_ne m ρ c main_v3 (by decide)).trans ((keep1 (W2 m ρ c) main_v3 (by decide)).trans (W2_of_ne m ρ c main_v3 (by decide)))).trans (host0_v3 (W0 m ρ c)))]; rfl)
  refine ((W8_arr m ρ c 7).trans (final3 (V7 m ρ) c)).trans ?_
  unfold layerWith
  rw [← hz]
  refine layer_assemble false (V5 m ρ c main_v51) (V5 m ρ c main_v53) (V5 m ρ c main_v56) (V7 m ρ c main_v57_0)
    (V7 m ρ c main_v59) (V7 m ρ c main_v65) (V7 m ρ c main_v68) (V7 m ρ c main_v71) (V7 m ρ c main_v73) (V7 m ρ c main_v76)
    _ _ _ _ _ _ hY ?_ ?_ ?_ ?_ ?_ ?_ ?_ ?_
  · intro k i
    exact (host2_w1 (W4 m ρ c) k i).trans (congrFun (((W4_of_ne m ρ c main_arg1 (by decide)).trans ((keep1 (W2 m ρ c) main_arg1 (by decide)).trans ((W2_of_ne m ρ c main_arg1 (by decide)).trans (keep0 (W0 m ρ c) main_arg1 (by decide))))).trans rfl) _)
  · intro i
    exact (host2_b1 (W4 m ρ c) i).trans (congrFun (((W4_of_ne m ρ c main_arg2 (by decide)).trans ((keep1 (W2 m ρ c) main_arg2 (by decide)).trans ((W2_of_ne m ρ c main_arg2 (by decide)).trans (keep0 (W0 m ρ c) main_arg2 (by decide))))).trans rfl) _)
  · intro i
    exact (host3_mean (W6 m ρ c) i).trans (by rw [hS])
  · intro i
    exact (host3_var (W6 m ρ c) i).trans (by rw [hS, hQ])
  · intro i
    exact (host3_gam (W6 m ρ c) i).trans (congrFun (((W6_of_ne m ρ c main_arg3 (by decide)).trans ((keep2 (W4 m ρ c) main_arg3 (by decide)).trans ((W4_of_ne m ρ c main_arg3 (by decide)).trans ((keep1 (W2 m ρ c) main_arg3 (by decide)).trans ((W2_of_ne m ρ c main_arg3 (by decide)).trans (keep0 (W0 m ρ c) main_arg3 (by decide))))))).trans rfl) _)
  · intro i
    exact (host3_bet (W6 m ρ c) i).trans (congrFun (((W6_of_ne m ρ c main_arg4 (by decide)).trans ((keep2 (W4 m ρ c) main_arg4 (by decide)).trans ((W4_of_ne m ρ c main_arg4 (by decide)).trans ((keep1 (W2 m ρ c) main_arg4 (by decide)).trans ((W2_of_ne m ρ c main_arg4 (by decide)).trans (keep0 (W0 m ρ c) main_arg4 (by decide))))))).trans rfl) _)
  · intro k i
    exact (host3_w2 (W6 m ρ c) k i).trans (congrFun (((W6_of_ne m ρ c main_arg5 (by decide)).trans ((keep2 (W4 m ρ c) main_arg5 (by decide)).trans ((W4_of_ne m ρ c main_arg5 (by decide)).trans ((keep1 (W2 m ρ c) main_arg5 (by decide)).trans ((W2_of_ne m ρ c main_arg5 (by decide)).trans (keep0 (W0 m ρ c) main_arg5 (by decide))))))).trans rfl) _)
  · intro i
    exact (host3_b2 (W6 m ρ c) i).trans (congrFun (((W6_of_ne m ρ c main_arg6 (by decide)).trans ((keep2 (W4 m ρ c) main_arg6 (by decide)).trans ((W4_of_ne m ρ c main_arg6 (by decide)).trans ((keep1 (W2 m ρ c) main_arg6 (by decide)).trans ((W2_of_ne m ρ c main_arg6 (by decide)).trans (keep0 (W0 m ρ c) main_arg6 (by decide))))))).trans rfl) _)

/-- Layer 2: the second call's output is the specification's layer of the layer before's output. -/
theorem layer2_out (c : Dev nD) :
    W12 m ρ c (Proc.devRef .tc main_v114)
      = layerWith mlpK (aggK (m ((c : Thread nD τ).loc main_arg7))) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) true 2 (W8 m ρ c (Proc.devRef .tc main_v77)) := by
  have hY : V11 m ρ c main_v94_0 = linArr (V9 m ρ c main_v88) (V9 m ρ c main_v90) (V9 m ρ c main_v93) :=
    (keep5 (W10 m ρ c) main_v94_0 (by decide)).trans ((W10_arr m ρ c 3).trans (finalR4_3 (V9 m ρ) c))
  have hS : W10 m ρ c (Proc.devRef .tc main_v94_1) = colSumArr (V11 m ρ c main_v94_0) :=
    ((W10_arr m ρ c 4).trans (finalR4_4 (V9 m ρ) c)).trans (congrArg colSumArr hY.symm)
  have hQ : W10 m ρ c (Proc.devRef .tc main_v94_2) = colSqSumArr (V11 m ρ c main_v94_0) :=
    ((W10_arr m ρ c 5).trans (finalR4_5 (V9 m ρ) c)).trans (congrArg colSqSumArr hY.symm)
  have hz : V9 m ρ c main_v88 = aggK (m ((c : Thread nD τ).loc main_arg7)) (W8 m ρ c (Proc.devRef .tc main_v77)) := (host4_z (W8 m ρ c)).trans (by rw [show W8 m ρ c (Proc.devRef .tc main_v1) = edgeSrc (m ((c : Thread nD τ).loc main_arg7)) from (((W8_of_ne m ρ c main_v1 (by decide)).trans ((keep3 (W6 m ρ c) main_v1 (by decide)).trans ((W6_of_ne m ρ c main_v1 (by decide)).trans ((keep2 (W4 m ρ c) main_v1 (by decide)).trans ((W4_of_ne m ρ c main_v1 (by decide)).trans ((keep1 (W2 m ρ c) main_v1 (by decide)).trans (W2_of_ne m ρ c main_v1 (by decide)))))))).trans (host0_v1 (W0 m ρ c))), show W8 m ρ c (Proc.devRef .tc main_v3) = edgeDst (m ((c : Thread nD τ).loc main_arg7)) from (((W8_of_ne m ρ c main_v3 (by decide)).trans ((keep3 (W6 m ρ c) main_v3 (by decide)).trans ((W6_of_ne m ρ c main_v3 (by decide)).trans ((keep2 (W4 m ρ c) main_v3 (by decide)).trans ((W4_of_ne m ρ c main_v3 (by decide)).trans ((keep1 (W2 m ρ c) main_v3 (by decide)).trans (W2_of_ne m ρ c main_v3 (by decide)))))))).trans (host0_v3 (W0 m ρ c)))]; rfl)
  refine ((W12_arr m ρ c 7).trans (final5 (V11 m ρ) c)).trans ?_
  unfold layerWith
  rw [← hz]
  refine layer_assemble true (V9 m ρ c main_v88) (V9 m ρ c main_v90) (V9 m ρ c main_v93) (V11 m ρ c main_v94_0)
    (V11 m ρ c main_v96) (V11 m ρ c main_v102) (V11 m ρ c main_v105) (V11 m ρ c main_v108) (V11 m ρ c main_v110) (V11 m ρ c main_v113)
    _ _ _ _ _ _ hY ?_ ?_ ?_ ?_ ?_ ?_ ?_ ?_
  · intro k i
    exact (host4_w1 (W8 m ρ c) k i).trans (congrFun (((W8_of_ne m ρ c main_arg1 (by decide)).trans ((keep3 (W6 m ρ c) main_arg1 (by decide)).trans ((W6_of_ne m ρ c main_arg1 (by decide)).trans ((keep2 (W4 m ρ c) main_arg1 (by decide)).trans ((W4_of_ne m ρ c main_arg1 (by decide)).trans ((keep1 (W2 m ρ c) main_arg1 (by decide)).trans ((W2_of_ne m ρ c main_arg1 (by decide)).trans (keep0 (W0 m ρ c) main_arg1 (by decide))))))))).trans rfl) _)
  · intro i
    exact (host4_b1 (W8 m ρ c) i).trans (congrFun (((W8_of_ne m ρ c main_arg2 (by decide)).trans ((keep3 (W6 m ρ c) main_arg2 (by decide)).trans ((W6_of_ne m ρ c main_arg2 (by decide)).trans ((keep2 (W4 m ρ c) main_arg2 (by decide)).trans ((W4_of_ne m ρ c main_arg2 (by decide)).trans ((keep1 (W2 m ρ c) main_arg2 (by decide)).trans ((W2_of_ne m ρ c main_arg2 (by decide)).trans (keep0 (W0 m ρ c) main_arg2 (by decide))))))))).trans rfl) _)
  · intro i
    exact (host5_mean (W10 m ρ c) i).trans (by rw [hS])
  · intro i
    exact (host5_var (W10 m ρ c) i).trans (by rw [hS, hQ])
  · intro i
    exact (host5_gam (W10 m ρ c) i).trans (congrFun (((W10_of_ne m ρ c main_arg3 (by decide)).trans ((keep4 (W8 m ρ c) main_arg3 (by decide)).trans ((W8_of_ne m ρ c main_arg3 (by decide)).trans ((keep3 (W6 m ρ c) main_arg3 (by decide)).trans ((W6_of_ne m ρ c main_arg3 (by decide)).trans ((keep2 (W4 m ρ c) main_arg3 (by decide)).trans ((W4_of_ne m ρ c main_arg3 (by decide)).trans ((keep1 (W2 m ρ c) main_arg3 (by decide)).trans ((W2_of_ne m ρ c main_arg3 (by decide)).trans (keep0 (W0 m ρ c) main_arg3 (by decide))))))))))).trans rfl) _)
  · intro i
    exact (host5_bet (W10 m ρ c) i).trans (congrFun (((W10_of_ne m ρ c main_arg4 (by decide)).trans ((keep4 (W8 m ρ c) main_arg4 (by decide)).trans ((W8_of_ne m ρ c main_arg4 (by decide)).trans ((keep3 (W6 m ρ c) main_arg4 (by decide)).trans ((W6_of_ne m ρ c main_arg4 (by decide)).trans ((keep2 (W4 m ρ c) main_arg4 (by decide)).trans ((W4_of_ne m ρ c main_arg4 (by decide)).trans ((keep1 (W2 m ρ c) main_arg4 (by decide)).trans ((W2_of_ne m ρ c main_arg4 (by decide)).trans (keep0 (W0 m ρ c) main_arg4 (by decide))))))))))).trans rfl) _)
  · intro k i
    exact (host5_w2 (W10 m ρ c) k i).trans (congrFun (((W10_of_ne m ρ c main_arg5 (by decide)).trans ((keep4 (W8 m ρ c) main_arg5 (by decide)).trans ((W8_of_ne m ρ c main_arg5 (by decide)).trans ((keep3 (W6 m ρ c) main_arg5 (by decide)).trans ((W6_of_ne m ρ c main_arg5 (by decide)).trans ((keep2 (W4 m ρ c) main_arg5 (by decide)).trans ((W4_of_ne m ρ c main_arg5 (by decide)).trans ((keep1 (W2 m ρ c) main_arg5 (by decide)).trans ((W2_of_ne m ρ c main_arg5 (by decide)).trans (keep0 (W0 m ρ c) main_arg5 (by decide))))))))))).trans rfl) _)
  · intro i
    exact (host5_b2 (W10 m ρ c) i).trans (congrFun (((W10_of_ne m ρ c main_arg6 (by decide)).trans ((keep4 (W8 m ρ c) main_arg6 (by decide)).trans ((W8_of_ne m ρ c main_arg6 (by decide)).trans ((keep3 (W6 m ρ c) main_arg6 (by decide)).trans ((W6_of_ne m ρ c main_arg6 (by decide)).trans ((keep2 (W4 m ρ c) main_arg6 (by decide)).trans ((W4_of_ne m ρ c main_arg6 (by decide)).trans ((keep1 (W2 m ρ c) main_arg6 (by decide)).trans ((W2_of_ne m ρ c main_arg6 (by decide)).trans (keep0 (W0 m ρ c) main_arg6 (by decide))))))))))).trans rfl) _)

/-- THE RESULT: the last boundary's contents at the result buffer are the network (first arrangement) of the
    arguments as launched. -/
theorem kernel_value (c : Dev nD) :
    W12 m ρ c (Proc.devRef .tc main_v114)
      = netK (aggK (m ((c : Thread nD τ).loc main_arg7))) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg0)) := by
  rw [layer2_out, layer1_out, layer0_out]
  rfl

end Chain

end Cert.KernelIdeal.KV

end
-- ==== Proof.RefLayer.lean ====
/-
  One layer of the reference network as operations on whole arrays, read entry by entry.

  The reference applies the same layer three times. A layer first aggregates: every node adds to its own row the rows
  of the nodes that send it an edge (`aggIdx`, over the sender and receiver arrays; `aggR`, over the edge array they
  are cut out of). Then it applies, to the 50000 × 128 array `z` so obtained,
      y   = z · w1 + b1,            μ = the column means of y,          d = y − μ,
      v   = the column means of d · d,
      a   = max(d · rsqrt(v + ε) · γ + β, 0),
      out = a · w2 + b2,  and in every layer but the last  max(out, 0),
  each step an operation on whole arrays (`layerArr`): a bias, a mean or a scale is a row of 128 numbers made a
  one-row array and repeated down the rows, the constants are scalars repeated everywhere, a column sum starts from
  a zero. Read at an entry (p, q) these are the formulas of the specification's second arrangement: `toMat_layerArr`
  says the layer, as a matrix, is `mlpR` of its input and parameters, and `layer_eq` that, with the parameters cut out
  of the stacks of three, the layer after an aggregation is the specification's `layerWith mlpR`.

  The aggregation is never opened beyond one fact: it keeps entries real (`aggR_isReal`), being an entry of the
  features plus a zero plus a finite sum of entries of the features.
-/
import proofs.«168398_j7327214207515_1_alg».proof.Proof.Gen.ReferenceIdeal
import proofs.«168398_j7327214207515_1_alg».proof.Proof.Spec
import proofs.«168398_j7327214207515_1_alg».proof.Proof.LibRows
import proofs.«168398_j7327214207515_1_alg».proof.Proof.LibRealSums
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.Gin Cert.RealSums Idealize.ShloMosaic Idealize.ShloMosaic.ValueIdx

/-! ## The layer as array operations -/

/-- The sending node of every edge: the edge array's first row. -/
def srcOf (e : (⟨S2x640000, .i32⟩ : BufTy).Contents (Elt Ideal)) : IVec S640000 32 :=
  shapeCast _ (extractStridedSlice S1x640000 ![0, 0] e slices_S2x640000_S1x640000_0_0) shapeCasts_S1x640000_S640000

/-- The receiving node of every edge: the edge array's second row. -/
def dstOf (e : (⟨S2x640000, .i32⟩ : BufTy).Contents (Elt Ideal)) : IVec S640000 32 :=
  shapeCast _ (extractStridedSlice S1x640000 ![1, 0] e slices_S2x640000_S1x640000_1_0) shapeCasts_S1x640000_S640000

/-- The aggregation over given sender and receiver arrays: every node adds to its own row the rows of the nodes that
    send it an edge (a negative sender counted from the end; the sum scattered into an array of zeros). -/
def aggIdx (src dst : IVec S640000 32) (h : FVec Ideal S50000x128 .f32) : FVec Ideal S50000x128 .f32 :=
  addf h (Host.scatterAdd scatter_S50000x128_S640000x1_S640000x128_1_0_0_1 (broadcastInDim S50000x128 ![] bcast_S_S50000x128 (constant S_ .f32 0x00000000#32)) (broadcastInDim S640000x1 ![0] bcast_S640000_S640000x1_0 dst) (Host.gather gather_S50000x128_S640000x1_S640000x128_1_0_n_n_0_1_1128 h (broadcastInDim S640000x1 ![0] bcast_S640000_S640000x1_0 (select (cmpi .slt src (broadcastInDim S640000 ![] bcast_S_S640000 (constantI S_ 32 0#32))) (addi src (broadcastInDim S640000 ![] bcast_S_S640000 (constantI S_ 32 50000#32))) src))))

/-- The aggregation of the edge array `e`. -/
def aggR (e : (⟨S2x640000, .i32⟩ : BufTy).Contents (Elt Ideal)) (h : FVec Ideal S50000x128 .f32) :
    FVec Ideal S50000x128 .f32 :=
  aggIdx (srcOf e) (dstOf e) h
/-- A row of 128 numbers made a one-row array and repeated down the 50000 rows. -/
def rowsOf (v : FVec Ideal S128 .f32) : FVec Ideal S50000x128 .f32 :=
  broadcastInDim S50000x128 ![0, 1] bcast_S1x128_S50000x128_0_1 (broadcastInDim S1x128 ![1] bcast_S128_S1x128_1 v)

/-- The array of zeros. -/
def zeroArr : FVec Ideal S50000x128 .f32 :=
  broadcastInDim S50000x128 ![] bcast_S_S50000x128 (constant S_ .f32 0x00000000#32)

/-- The row whose every entry is the number of rows, 50000. -/
def cntRow : FVec Ideal S128 .f32 := broadcastInDim S128 ![] bcast_S_S128 (constant S_ .f32 0x47435000#32)

/-- The row whose every entry is the small constant added to the variance. -/
def epsRow : FVec Ideal S128 .f32 := broadcastInDim S128 ![] bcast_S_S128 (constant S_ .f32 0x3727C5AC#32)

/-- A product with a 128 × 128 weight plus a bias row. -/
def linArr (z : FVec Ideal S50000x128 .f32) (w : FVec Ideal S128x128 .f32) (b : FVec Ideal S128 .f32) :
    FVec Ideal S50000x128 .f32 :=
  addf (Host.dotGeneral dot_S50000x128_S128x128_S50000x128_1_0_0_1_n_n none z w) (rowsOf b)

/-- The column means: each column's sum, started from a zero, divided by the number of rows. -/
def colMean (y : FVec Ideal S50000x128 .f32) : FVec Ideal S128 .f32 :=
  Host.divf (Host.reduceAdd y (constant S_ .f32 0x00000000#32) reducesTo_S50000x128_S128_d0 h_S_) cntRow

/-- Every entry minus its column's mean. -/
def devArr (y : FVec Ideal S50000x128 .f32) : FVec Ideal S50000x128 .f32 := subf y (rowsOf (colMean y))

/-- Normalising by the column statistics (the variance is the column mean of the squared deviations), then scale and
    shift. -/
def normArr (y : FVec Ideal S50000x128 .f32) (gam bet : FVec Ideal S128 .f32) : FVec Ideal S50000x128 .f32 :=
  addf (mulf (mulf (devArr y) (rowsOf (Host.rsqrt (addf (colMean (mulf (devArr y) (devArr y))) epsRow)))) (rowsOf gam))
    (rowsOf bet)

/-- Cutting off below at zero. -/
def reluArr (t : FVec Ideal S50000x128 .f32) : FVec Ideal S50000x128 .f32 := maximumf t zeroArr

/-- One layer after the aggregation: product and bias, normalisation, cut-off, product and bias, and in every layer
    but the last a final cut-off. -/
def layerArr (last : Bool) (w1 : FVec Ideal S128x128 .f32) (b1 gam bet : FVec Ideal S128 .f32)
    (w2 : FVec Ideal S128x128 .f32) (b2 : FVec Ideal S128 .f32) (z : FVec Ideal S50000x128 .f32) :
    FVec Ideal S50000x128 .f32 :=
  match last with
  | true => linArr (reluArr (normArr (linArr z w1 b1) gam bet)) w2 b2
  | false => reluArr (linArr (reluArr (normArr (linArr z w1 b1) gam bet)) w2 b2)

/-- Layer `o` of a stack of three weights, cut out and reshaped to 128 × 128. -/
def wCut (W : FVec Ideal S3x128x128 .f32) (o : Nat) (hs : S3x128x128.Slices ![o, 0, 0] S1x128x128) : FVec Ideal S128x128 .f32 :=
  shapeCast _ (extractStridedSlice S1x128x128 ![o, 0, 0] W hs) shapeCasts_S1x128x128_S128x128

/-- Layer `o` of a stack of three rows, cut out and reshaped to one row. -/
def bCut (B : FVec Ideal S3x128 .f32) (o : Nat) (hs : S3x128.Slices ![o, 0] S1x128) : FVec Ideal S128 .f32 :=
  shapeCast _ (extractStridedSlice S1x128 ![o, 0] B hs) shapeCasts_S1x128_S128

/-! ## The aggregation keeps entries real -/

/-- Every entry of the aggregated array is an entry of the features, plus a zero, plus a finite sum of entries of the
    features (whichever the edges select): real when the features are. -/
theorem aggIdx_isReal (src dst : IVec S640000 32) (h : FVec Ideal S50000x128 .f32) (hh : ∀ j, IsReal (h j)) :
    ∀ j, IsReal (aggIdx src dst h j) := by
  intro j
  unfold aggIdx
  refine IsReal.add (hh j) ?_
  simp only [Host.scatterAdd, Ideal.hostScatterAdd_def]
  unfold Ideal.hostScatterAdd
  refine IsReal.add ?_ (isReal_sum _ _ fun i _ => hh _)
  rw [broadcastInDim_apply ![] bcast_S_S50000x128 _ j ix0 (fun ax => ax.elim0)]
  exact ⟨0, Ideal.ofBits_zero_f32⟩

theorem aggR_isReal (e : (⟨S2x640000, .i32⟩ : BufTy).Contents (Elt Ideal)) (h : FVec Ideal S50000x128 .f32)
    (hh : ∀ j, IsReal (h j)) : ∀ j, IsReal (aggR e h j) :=
  aggIdx_isReal (srcOf e) (dstOf e) h hh

/-! ## Each step read at an entry -/

/-- A row repeated down the rows reads, at (p, q), the row's entry q. -/
theorem rowsOf_apply (v : FVec Ideal S128 .f32) (p : Fin 50000) (q : Fin 128) : rowsOf v (ix2 p q) = v (ix1 q) :=
  Cert.LibRows.rowBiasInDim_apply v bcast_S128_S1x128_1 bcast_S1x128_S50000x128_0_1 p q

theorem zeroArr_apply (j : S50000x128.Idx) : zeroArr j = zero32 :=
  Cert.LibRows.scalarInDim_apply (constant (F := Ideal) S_ .f32 0x00000000#32) bcast_S_S50000x128 j

theorem cntRow_apply (j : S128.Idx) : cntRow j = cnt32 :=
  Cert.LibRows.scalarInDim_apply (constant (F := Ideal) S_ .f32 0x47435000#32) bcast_S_S128 j

theorem epsRow_apply (j : S128.Idx) : epsRow j = eps32 :=
  Cert.LibRows.scalarInDim_apply (constant (F := Ideal) S_ .f32 0x3727C5AC#32) bcast_S_S128 j

/-- The product plus the bias, at (p, q): the sum over the 128 columns of the row p times the weight's column q, plus
    the bias's entry q. -/
theorem linArr_apply (z : FVec Ideal S50000x128 .f32) (w : FVec Ideal S128x128 .f32) (b : FVec Ideal S128 .f32)
    (p : Fin 50000) (q : Fin 128) :
    linArr z w b (ix2 p q) = (∑ i : Fin 128, z (ix2 p i) * w (ix2 i q)) + b (ix1 q) :=
  congrArg₂ (· + ·)
    (Cert.LibRows.dotGeneral_plain_apply dot_S50000x128_S128x128_S50000x128_1_0_0_1_n_n rfl none z w p q)
    (rowsOf_apply b p q)

/-- A column sum started from a zero, at column q: the zero plus the sum over the 50000 rows. -/
theorem colSum_apply (y : FVec Ideal S50000x128 .f32) (q : Fin 128) :
    Host.reduceAdd y (constant (F := Ideal) S_ .f32 0x00000000#32) reducesTo_S50000x128_S128_d0 h_S_ (ix1 q)
      = zero32 + ∑ p : Fin 50000, y (ix2 p q) := by
  simp only [Host.reduceAdd, Ideal.hostReduceAdd_def]
  rw [Ideal.hostReduceAdd_single reducesTo_S50000x128_S128_d0 (by decide)]
  refine congrArg (_ + ·) (Finset.sum_congr rfl fun k _ => ?_)
  exact congrArg y (funext fun a => Fin.ext (by match a with | ⟨0, _⟩ => rfl | ⟨1, _⟩ => rfl))

/-- The column mean, at column q. -/
theorem colMean_apply (y : FVec Ideal S50000x128 .f32) (q : Fin 128) :
    colMean y (ix1 q) = Ideal.div (zero32 + ∑ p : Fin 50000, y (ix2 p q)) cnt32 := by
  have h1 := colSum_apply y q
  have h2 := cntRow_apply (ix1 q)
  show Ideal.div (Host.reduceAdd y (constant (F := Ideal) S_ .f32 0x00000000#32) reducesTo_S50000x128_S128_d0 h_S_ (ix1 q))
      (cntRow (ix1 q)) = _
  rw [h1, h2]

/-- The deviation from the column mean, at (p, q). -/
theorem devArr_apply (y : FVec Ideal S50000x128 .f32) (p : Fin 50000) (q : Fin 128) :
    devArr y (ix2 p q) = y (ix2 p q) - colMean y (ix1 q) :=
  congrArg (y (ix2 p q) - ·) (rowsOf_apply (colMean y) p q)

/-- The normalised, scaled and shifted value, at (p, q). -/
theorem normArr_apply (y : FVec Ideal S50000x128 .f32) (gam bet : FVec Ideal S128 .f32) (p : Fin 50000) (q : Fin 128) :
    normArr y gam bet (ix2 p q)
      = (devArr y (ix2 p q) * Ideal.rsqrt (colMean (mulf (devArr y) (devArr y)) (ix1 q) + eps32)) * gam (ix1 q)
          + bet (ix1 q) := by
  show (devArr y (ix2 p q) * rowsOf (Host.rsqrt (addf (colMean (mulf (devArr y) (devArr y))) epsRow)) (ix2 p q))
      * rowsOf gam (ix2 p q) + rowsOf bet (ix2 p q) = _
  simp only [rowsOf_apply]
  show (devArr y (ix2 p q) * Ideal.rsqrt (colMean (mulf (devArr y) (devArr y)) (ix1 q) + epsRow (ix1 q))) * gam (ix1 q)
      + bet (ix1 q) = _
  rw [epsRow_apply]

/-! ## The steps as the specification's matrix operations -/

theorem toMat_linArr (z : FVec Ideal S50000x128 .f32) (w : FVec Ideal S128x128 .f32) (b : FVec Ideal S128 .f32) :
    toMat (linArr z w b) = lin (toMat z) (fun i q => w (ix2 i q)) (fun q => b (ix1 q)) := by
  funext p q
  exact linArr_apply z w b p q

/-- The column means are the specification's, the sum started from a zero. -/
theorem meanR_eq (y : FVec Ideal S50000x128 .f32) (q : Fin 128) : colMean y (ix1 q) = meanR (toMat y) q :=
  colMean_apply y q

/-- The column means of the squared deviations are the specification's variances. -/
theorem varR_eq (y : FVec Ideal S50000x128 .f32) (q : Fin 128) :
    colMean (mulf (devArr y) (devArr y)) (ix1 q) = varR (toMat y) q := by
  rw [colMean_apply]
  show Ideal.div (zero32 + ∑ p : Fin 50000, devArr y (ix2 p q) * devArr y (ix2 p q)) cnt32 = _
  simp only [devArr_apply, meanR_eq]
  rfl

theorem toMat_normArr (y : FVec Ideal S50000x128 .f32) (gam bet : FVec Ideal S128 .f32) :
    toMat (normArr y gam bet)
      = norm (toMat y) (meanR (toMat y)) (varR (toMat y)) (fun q => gam (ix1 q)) (fun q => bet (ix1 q)) := by
  funext p q
  show normArr y gam bet (ix2 p q) = _
  rw [normArr_apply, varR_eq, devArr_apply, meanR_eq]
  rfl

theorem toMat_reluArr (t : FVec Ideal S50000x128 .f32) : toMat (reluArr t) = fun p q => relu (toMat t p q) := by
  funext p q
  show max (t (ix2 p q)) (zeroArr (ix2 p q)) = _
  rw [zeroArr_apply]
  rfl

/-- ONE LAYER AFTER THE AGGREGATION, AS A MATRIX: the specification's perceptron in its second arrangement, of the
    input and the parameters read as matrices and rows. -/
theorem toMat_layerArr (last : Bool) (w1 : FVec Ideal S128x128 .f32) (b1 gam bet : FVec Ideal S128 .f32)
    (w2 : FVec Ideal S128x128 .f32) (b2 : FVec Ideal S128 .f32) (z : FVec Ideal S50000x128 .f32) :
    toMat (layerArr last w1 b1 gam bet w2 b2 z)
      = mlpR last (toMat z) (fun i q => w1 (ix2 i q)) (fun q => b1 (ix1 q)) (fun q => gam (ix1 q))
          (fun q => bet (ix1 q)) (fun i q => w2 (ix2 i q)) (fun q => b2 (ix1 q)) := by
  have hcore : toMat (linArr (reluArr (normArr (linArr z w1 b1) gam bet)) w2 b2)
      = mlpR true (toMat z) (fun i q => w1 (ix2 i q)) (fun q => b1 (ix1 q)) (fun q => gam (ix1 q))
          (fun q => bet (ix1 q)) (fun i q => w2 (ix2 i q)) (fun q => b2 (ix1 q)) := by
    rw [toMat_linArr, toMat_reluArr, toMat_normArr, toMat_linArr]
    rfl
  cases last
  · show toMat (reluArr (linArr (reluArr (normArr (linArr z w1 b1) gam bet)) w2 b2)) = _
    rw [toMat_reluArr, hcore]
    rfl
  · exact hcore

theorem layerArr_apply (last : Bool) (w1 : FVec Ideal S128x128 .f32) (b1 gam bet : FVec Ideal S128 .f32)
    (w2 : FVec Ideal S128x128 .f32) (b2 : FVec Ideal S128 .f32) (z : FVec Ideal S50000x128 .f32)
    (p : Fin 50000) (q : Fin 128) :
    layerArr last w1 b1 gam bet w2 b2 z (ix2 p q)
      = mlpR last (toMat z) (fun i q => w1 (ix2 i q)) (fun q => b1 (ix1 q)) (fun q => gam (ix1 q))
          (fun q => bet (ix1 q)) (fun i q => w2 (ix2 i q)) (fun q => b2 (ix1 q)) p q :=
  congrFun (congrFun (toMat_layerArr last w1 b1 gam bet w2 b2 z) p) q

/-! ## The parameters cut out of the stacks of three -/

/-- Layer `o` of a stack of three weights, cut out and reshaped, read at an entry. -/
theorem wCut_apply (W : FVec Ideal S3x128x128 .f32) (o : Nat) (ho : o < 3) (hs : S3x128x128.Slices ![o, 0, 0] S1x128x128)
    (i q : Fin 128) : wCut W o hs (ix2 i q) = W (ix3 (⟨o, ho⟩ : Fin 3) i q) := by
  unfold wCut
  refine (shapeCast_apply _ shapeCasts_S1x128x128_S128x128 (ix2 i q) (ix3 (0 : Fin 1) i q) ?_).trans ?_
  · rewrite [Shape.rowMajor_val_three, Shape.rowMajor_val_two]
    have h0 : i.val < 128 := i.isLt
    have h1 : q.val < 128 := q.isLt
    show (0 * 128 + i.val) * 128 + q.val = i.val * 128 + q.val
    omega
  · exact extractStridedSlice_apply ![o, 0, 0] W hs (ix3 (0 : Fin 1) i q) (ix3 (⟨o, ho⟩ : Fin 3) i q) (fun a => match a with
      | ⟨0, _⟩ => by show o = o + 0; omega
      | ⟨1, _⟩ => by show i.val = 0 + i.val; omega
      | ⟨2, _⟩ => by show q.val = 0 + q.val; omega)

/-- Layer `o` of a stack of three rows, cut out and reshaped, read at an entry. -/
theorem bCut_apply (B : FVec Ideal S3x128 .f32) (o : Nat) (ho : o < 3) (hs : S3x128.Slices ![o, 0] S1x128) (q : Fin 128) :
    bCut B o hs (ix1 q) = B (ix2 (⟨o, ho⟩ : Fin 3) q) := by
  unfold bCut
  refine (shapeCast_apply _ shapeCasts_S1x128_S128 (ix1 q) (ix2 (0 : Fin 1) q) ?_).trans ?_
  · rewrite [Shape.rowMajor_val_two, Shape.rowMajor_val_one]
    have h1 : q.val < 128 := q.isLt
    show 0 * 128 + q.val = q.val
    omega
  · exact extractStridedSlice_apply ![o, 0] B hs (ix2 (0 : Fin 1) q) (ix2 (⟨o, ho⟩ : Fin 3) q) (fun a => match a with
      | ⟨0, _⟩ => by show o = o + 0; omega
      | ⟨1, _⟩ => by show q.val = 0 + q.val; omega)

theorem wCut_eq (W : FVec Ideal S3x128x128 .f32) (o : Nat) (ho : o < 3) (hs : S3x128x128.Slices ![o, 0, 0] S1x128x128) :
    (fun i q => wCut W o hs (ix2 i q)) = wSlice W ⟨o, ho⟩ := by
  funext i q
  exact wCut_apply W o ho hs i q

theorem bCut_eq (B : FVec Ideal S3x128 .f32) (o : Nat) (ho : o < 3) (hs : S3x128.Slices ![o, 0] S1x128) :
    (fun q => bCut B o hs (ix1 q)) = bSlice B ⟨o, ho⟩ := by
  funext q
  exact bCut_apply B o ho hs q

/-- ONE WHOLE LAYER: with layer `o`'s parameters cut out of the stacks, the array layer applied to an aggregated array
    is the specification's layer `o` in its second arrangement. -/
theorem layer_eq (A : FVec Ideal S50000x128 .f32 → FVec Ideal S50000x128 .f32)
    (W1 : FVec Ideal S3x128x128 .f32) (B1 G Be : FVec Ideal S3x128 .f32) (W2 : FVec Ideal S3x128x128 .f32)
    (B2 : FVec Ideal S3x128 .f32) (last : Bool) (o : Nat) (ho : o < 3)
    (hw : S3x128x128.Slices ![o, 0, 0] S1x128x128) (hb : S3x128.Slices ![o, 0] S1x128) (h : FVec Ideal S50000x128 .f32) :
    layerArr last (wCut W1 o hw) (bCut B1 o hb) (bCut G o hb) (bCut Be o hb) (wCut W2 o hw) (bCut B2 o hb) (A h)
      = layerWith mlpR A W1 B1 G Be W2 B2 last ⟨o, ho⟩ h := by
  refine (ofMat_toMat _).symm.trans ?_
  rw [toMat_layerArr, wCut_eq W1 o ho hw, wCut_eq W2 o ho hw, bCut_eq B1 o ho hb, bCut_eq G o ho hb,
    bCut_eq Be o ho hb, bCut_eq B2 o ho hb]
  rfl

end Cert.ReferenceIdeal.RefValue

end
-- ==== Proof.RefValue.lean ====
/-
  What the reference program computes: the specification's network in its second arrangement.

  The program is a straight line of 211 array operations, and its run leaves every buffer at the fold of the
  operations over the launch contents. The line is three layers in a row: operations 0 to 73 (which also cut the
  sender and receiver arrays out of the edge array), 74 to 143 and 144 to 210. Each of the three, run from ANY
  contents `W`, leaves at its last buffer the array layer (`layerArr`) of the parameters cut out of the stacks in `W`
  and of the aggregation of its input buffer; it writes none of the arguments, and the second does not write the
  sender and receiver arrays the later two read. Folding the three in order, the result buffer holds the three array layers
  composed, which by `layer_eq` is the specification's `netR` of the arguments; and no operation writes an argument.
-/
import proofs.«168398_j7327214207515_1_alg».proof.Proof.RefRunP
import proofs.«168398_j7327214207515_1_alg».proof.Proof.RefLayer

noncomputable section

open scoped BigOperators

namespace Cert.ReferenceIdeal.RefValue

open Cert.ReferenceIdeal Cert.ReferenceIdeal.Gen Cert.ReferenceIdeal.ValueP Cert.Gin Cert.RealSums Idealize.ShloMosaic
  Idealize.ShloMosaic.TcCoe Idealize.SL.Sem Idealize.ShloMosaic.StableHlo Idealize.ShloMosaic.ValueIdx

/-! ## The line of operations, cut at the layer boundaries -/

section
variable {F : FTy → Type} [FloatOps F]

/-- The first layer's operations (they also cut the sender and receiver arrays out of the edge array). -/
def ops0 : List (HloOp τ sig (Elt F)) :=
  [ unary main_arg7 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg7 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    unary main_arg1 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v15 main_v16 rfl shapeCasts_S1x128x128_S128x128,
    binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v18 ((extractStridedSlice S1x128 ![0, 0] · slices_S3x128_S1x128_0_0) : (⟨S3x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v17 main_v21 main_v22 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x00000000#32),
    binary main_v22 main_cst_1 main_v23 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_2 (constant S_ .f32 0x47435000#32),
    unary main_cst_2 main_v24 (broadcastInDim S128 ![] bcast_S_S128 : (⟨S_, .f32⟩ : BufTy).Contents (Elt F) → (⟨S128, .f32⟩ : BufTy).Contents (Elt F)),
    binary main_v23 main_v24 main_v25 (Host.divf : (⟨S128, .f32⟩ : BufTy).Contents (Elt F) → (⟨S128, .f32⟩ : BufTy).Contents (Elt F) → (⟨S128, .f32⟩ : BufTy).Contents (Elt F)),
    unary main_v25 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v22 main_v27 main_v28 (subf : (⟨S50000x128, .f32⟩ : BufTy).Contents (Elt F) → (⟨S50000x128, .f32⟩ : BufTy).Contents (Elt F) → (⟨S50000x128, .f32⟩ : BufTy).Contents (Elt F)),
    binary main_v28 main_v28 main_v29 (mulf : (⟨S50000x128, .f32⟩ : BufTy).Contents (Elt F) → (⟨S50000x128, .f32⟩ : BufTy).Contents (Elt F) → (⟨S50000x128, .f32⟩ : BufTy).Contents (Elt F)),
    nullary main_cst_3 (constant S_ .f32 0x00000000#32),
    binary main_v29 main_cst_3 main_v30 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_4 (constant S_ .f32 0x47435000#32),
    unary main_cst_4 main_v31 (broadcastInDim S128 ![] bcast_S_S128 : (⟨S_, .f32⟩ : BufTy).Contents (Elt F) → (⟨S128, .f32⟩ : BufTy).Contents (Elt F)),
    binary main_v30 main_v31 main_v32 (Host.divf : (⟨S128, .f32⟩ : BufTy).Contents (Elt F) → (⟨S128, .f32⟩ : BufTy).Contents (Elt F) → (⟨S128, .f32⟩ : BufTy).Contents (Elt F)),
    unary main_v25 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v22 main_v34 main_v35 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v36 (broadcastInDim S128 ![] bcast_S_S128 : (⟨S_, .f32⟩ : BufTy).Contents (Elt F) → (⟨S128, .f32⟩ : BufTy).Contents (Elt F)),
    binary main_v32 main_v36 main_v37 (addf : (⟨S128, .f32⟩ : BufTy).Contents (Elt F) → (⟨S128, .f32⟩ : BufTy).Contents (Elt F) → (⟨S128, .f32⟩ : BufTy).Contents (Elt F)),
    unary main_v37 main_v38 (Host.rsqrt : (⟨S128, .f32⟩ : BufTy).Contents (Elt F) → (⟨S128, .f32⟩ : BufTy).Contents (Elt F)),
    unary main_v38 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v35 main_v40 main_v41 (mulf : (⟨S50000x128, .f32⟩ : BufTy).Contents (Elt F) → (⟨S50000x128, .f32⟩ : BufTy).Contents (Elt F) → (⟨S50000x128, .f32⟩ : BufTy).Contents (Elt F)),
    unary main_arg3 main_v42 ((extractStridedSlice S1x128 ![0, 0] · slices_S3x128_S1x128_0_0) : (⟨S3x128, .f32⟩ : BufTy).Contents (Elt F) → (⟨S1x128, .f32⟩ : BufTy).Contents (Elt F)),
    reshape main_v42 main_v43 rfl shapeCasts_S1x128_S128,
    unary main_v43 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v41 main_v45 main_v46 (mulf : (⟨S50000x128, .f32⟩ : BufTy).Contents (Elt F) → (⟨S50000x128, .f32⟩ : BufTy).Contents (Elt F) → (⟨S50000x128, .f32⟩ : BufTy).Contents (Elt F)),
    unary main_arg4 main_v47 ((extractStridedSlice S1x128 ![0, 0] · slices_S3x128_S1x128_0_0) : (⟨S3x128, .f32⟩ : BufTy).Contents (Elt F) → (⟨S1x128, .f32⟩ : BufTy).Contents (Elt F)),
    reshape main_v47 main_v48 rfl shapeCasts_S1x128_S128,
    unary main_v48 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)),
    binary main_v46 main_v50 main_v51 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v51) (TRef.of (T := ⟨S50000x128, .f32⟩) main_call0_v0) (TRef.of (T := ⟨S50000x128, .f32⟩) main_v52) maximumf,
    unary main_arg5 main_v53 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v53 main_v54 rfl shapeCasts_S1x128x128_S128x128,
    binary main_v52 main_v54 main_v55 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v56 ((extractStridedSlice S1x128 ![0, 0] · slices_S3x128_S1x128_0_0) : (⟨S3x128, .f32⟩ : BufTy).Contents (Elt F) → (⟨S1x128, .f32⟩ : BufTy).Contents (Elt F)),
    reshape main_v56 main_v57 rfl shapeCasts_S1x128_S128,
    unary main_v57 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v55 main_v59 main_v60 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v60) (TRef.of (T := ⟨S50000x128, .f32⟩) main_call1_v0) (TRef.of (T := ⟨S50000x128, .f32⟩) main_v61) maximumf ]

/-- The second layer's operations. -/
def ops1 : List (HloOp τ sig (Elt F)) :=
  [ nullary main_c_6 (constantI S_ 32 0#32),
    unary main_c_6 main_v62 (broadcastInDim S640000 ![] bcast_S_S640000 : (⟨S_, .i32⟩ : BufTy).Contents (Elt F) → (⟨S640000, .i32⟩ : BufTy).Contents (Elt F)),
    binary main_v1 main_v62 main_v63 (cmpi .slt : (⟨S640000, .i32⟩ : BufTy).Contents (Elt F) → (⟨S640000, .i32⟩ : BufTy).Contents (Elt F) → (⟨S640000, .i1⟩ : BufTy).Contents (Elt F)),
    nullary main_c_7 (constantI S_ 32 50000#32),
    unary main_c_7 main_v64 (broadcastInDim S640000 ![] bcast_S_S640000 : (⟨S_, .i32⟩ : BufTy).Contents (Elt F) → (⟨S640000, .i32⟩ : BufTy).Contents (Elt F)),
    binary main_v1 main_v64 main_v65 (addi : (⟨S640000, .i32⟩ : BufTy).Contents (Elt F) → (⟨S640000, .i32⟩ : BufTy).Contents (Elt F) → (⟨S640000, .i32⟩ : BufTy).Contents (Elt F)),
    ternary main_v63 main_v65 main_v1 main_v66 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v66 main_v67 (broadcastInDim S640000x1 ![0] bcast_S640000_S640000x1_0 : (⟨S640000, .i32⟩ : BufTy).Contents (Elt F) → (⟨S640000x1, .i32⟩ : BufTy).Contents (Elt F)),
    binary main_v61 main_v67 main_v68 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_8 (constant S_ .f32 0x00000000#32),
    unary main_cst_8 main_v69 (broadcastInDim S50000x128 ![] bcast_S_S50000x128 : (⟨S_, .f32⟩ : BufTy).Contents (Elt F) → (⟨S50000x128, .f32⟩ : BufTy).Contents (Elt F)),
    unary main_v3 main_v70 (broadcastInDim S640000x1 ![0] bcast_S640000_S640000x1_0 : (⟨S640000, .i32⟩ : BufTy).Contents (Elt F) → (⟨S640000x1, .i32⟩ : BufTy).Contents (Elt F)),
    ternary main_v69 main_v70 main_v68 main_v71 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    binary main_v61 main_v71 main_v72 (addf : (⟨S50000x128, .f32⟩ : BufTy).Contents (Elt F) → (⟨S50000x128, .f32⟩ : BufTy).Contents (Elt F) → (⟨S50000x128, .f32⟩ : BufTy).Contents (Elt F)),
    unary main_arg1 main_v73 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v73 main_v74 rfl shapeCasts_S1x128x128_S128x128,
    binary main_v72 main_v74 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v76 ((extractStridedSlice S1x128 ![1, 0] · slices_S3x128_S1x128_1_0) : (⟨S3x128, .f32⟩ : BufTy).Contents (Elt F) → (⟨S1x128, .f32⟩ : BufTy).Contents (Elt F)),
    reshape main_v76 main_v77 rfl shapeCasts_S1x128_S128,
    unary main_v77 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v75 main_v79 main_v80 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v80 main_cst_9 main_v81 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v82 (broadcastInDim S128 ![] bcast_S_S128 : (⟨S_, .f32⟩ : BufTy).Contents (Elt F) → (⟨S128, .f32⟩ : BufTy).Contents (Elt F)),
    binary main_v81 main_v82 main_v83 (Host.divf : (⟨S128, .f32⟩ : BufTy).Contents (Elt F) → (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v80 main_v85 main_v86 (subf : (⟨S50000x128, .f32⟩ : BufTy).Contents (Elt F) → (⟨S50000x128, .f32⟩ : BufTy).Contents (Elt F) → (⟨S50000x128, .f32⟩ : BufTy).Contents (Elt F)),
    binary main_v86 main_v86 main_v87 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v87 main_cst_11 main_v88 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v89 (broadcastInDim S128 ![] bcast_S_S128 : (⟨S_, .f32⟩ : BufTy).Contents (Elt F) → (⟨S128, .f32⟩ : BufTy).Contents (Elt F)),
    binary main_v88 main_v89 main_v90 (Host.divf : (⟨S128, .f32⟩ : BufTy).Contents (Elt F) → (⟨S128, .f32⟩ : BufTy).Contents (Elt F) → (⟨S128, .f32⟩ : BufTy).Contents (Elt F)),
    unary main_v83 main_v91 (broadcastInDim S1x128 ![1] bcast_S128_S1x128_1 : (⟨S128, .f32⟩ : BufTy).Contents (Elt F) → (⟨S1x128, .f32⟩ : BufTy).Contents (Elt F)),
    unary main_v91 main_v92 (broadcastInDim S50000x128 ![0, 1] bcast_S1x128_S50000x128_0_1 : (⟨S1x128, .f32⟩ : BufTy).Contents (Elt F) → (⟨S50000x128, .f32⟩ : BufTy).Contents (Elt F)),
    binary main_v80 main_v92 main_v93 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v94 (broadcastInDim S128 ![] bcast_S_S128 : (⟨S_, .f32⟩ : BufTy).Contents (Elt F) → (⟨S128, .f32⟩ : BufTy).Contents (Elt F)),
    binary main_v90 main_v94 main_v95 (addf : (⟨S128, .f32⟩ : BufTy).Contents (Elt F) → (⟨S128, .f32⟩ : BufTy).Contents (Elt F) → (⟨S128, .f32⟩ : BufTy).Contents (Elt F)),
    unary main_v95 main_v96 (Host.rsqrt : (⟨S128, .f32⟩ : BufTy).Contents (Elt F) → (⟨S128, .f32⟩ : BufTy).Contents (Elt F)),
    unary main_v96 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v93 main_v98 main_v99 (mulf : (⟨S50000x128, .f32⟩ : BufTy).Contents (Elt F) → (⟨S50000x128, .f32⟩ : BufTy).Contents (Elt F) → (⟨S50000x128, .f32⟩ : BufTy).Contents (Elt F)),
    unary main_arg3 main_v100 ((extractStridedSlice S1x128 ![1, 0] · slices_S3x128_S1x128_1_0) : (⟨S3x128, .f32⟩ : BufTy).Contents (Elt F) → (⟨S1x128, .f32⟩ : BufTy).Contents (Elt F)),
    reshape main_v100 main_v101 rfl shapeCasts_S1x128_S128,
    unary main_v101 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v99 main_v103 main_v104 (mulf : (⟨S50000x128, .f32⟩ : BufTy).Contents (Elt F) → (⟨S50000x128, .f32⟩ : BufTy).Contents (Elt F) → (⟨S50000x128, .f32⟩ : BufTy).Contents (Elt F)),
    unary main_arg4 main_v105 ((extractStridedSlice S1x128 ![1, 0] · slices_S3x128_S1x128_1_0) : (⟨S3x128, .f32⟩ : BufTy).Contents (Elt F) → (⟨S1x128, .f32⟩ : BufTy).Contents (Elt F)),
    reshape main_v105 main_v106 rfl shapeCasts_S1x128_S128,
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v104 main_v108 main_v109 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v109) (TRef.of (T := ⟨S50000x128, .f32⟩) main_call2_v0) (TRef.of (T := ⟨S50000x128, .f32⟩) main_v110) maximumf,
    unary main_arg5 main_v111 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v111 main_v112 rfl shapeCasts_S1x128x128_S128x128,
    binary main_v110 main_v112 main_v113 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v114 ((extractStridedSlice S1x128 ![1, 0] · slices_S3x128_S1x128_1_0) : (⟨S3x128, .f32⟩ : BufTy).Contents (Elt F) → (⟨S1x128, .f32⟩ : BufTy).Contents (Elt F)),
    reshape main_v114 main_v115 rfl shapeCasts_S1x128_S128,
    unary main_v115 main_v116 (broadcastInDim S1x128 ![1] bcast_S128_S1x128_1 : (⟨S128, .f32⟩ : BufTy).Contents (Elt F) → (⟨S1x128, .f32⟩ : BufTy).Contents (Elt F)),
    unary main_v116 main_v117 (broadcastInDim S50000x128 ![0, 1] bcast_S1x128_S50000x128_0_1 : (⟨S1x128, .f32⟩ : BufTy).Contents (Elt F) → (⟨S50000x128, .f32⟩ : BufTy).Contents (Elt F)),
    binary main_v113 main_v117 main_v118 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v118) (TRef.of (T := ⟨S50000x128, .f32⟩) main_call3_v0) (TRef.of (T := ⟨S50000x128, .f32⟩) main_v119) maximumf ]

/-- The third layer's operations. -/
def ops2 : List (HloOp τ sig (Elt F)) :=
  [ nullary main_c_14 (constantI S_ 32 0#32),
    unary main_c_14 main_v120 (broadcastInDim S640000 ![] bcast_S_S640000 : (⟨S_, .i32⟩ : BufTy).Contents (Elt F) → (⟨S640000, .i32⟩ : BufTy).Contents (Elt F)),
    binary main_v1 main_v120 main_v121 (cmpi .slt : (⟨S640000, .i32⟩ : BufTy).Contents (Elt F) → (⟨S640000, .i32⟩ : BufTy).Contents (Elt F) → (⟨S640000, .i1⟩ : BufTy).Contents (Elt F)),
    nullary main_c_15 (constantI S_ 32 50000#32),
    unary main_c_15 main_v122 (broadcastInDim S640000 ![] bcast_S_S640000 : (⟨S_, .i32⟩ : BufTy).Contents (Elt F) → (⟨S640000, .i32⟩ : BufTy).Contents (Elt F)),
    binary main_v1 main_v122 main_v123 (addi : (⟨S640000, .i32⟩ : BufTy).Contents (Elt F) → (⟨S640000, .i32⟩ : BufTy).Contents (Elt F) → (⟨S640000, .i32⟩ : BufTy).Contents (Elt F)),
    ternary main_v121 main_v123 main_v1 main_v124 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v124 main_v125 (broadcastInDim S640000x1 ![0] bcast_S640000_S640000x1_0 : (⟨S640000, .i32⟩ : BufTy).Contents (Elt F) → (⟨S640000x1, .i32⟩ : BufTy).Contents (Elt F)),
    binary main_v119 main_v125 main_v126 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_16 (constant S_ .f32 0x00000000#32),
    unary main_cst_16 main_v127 (broadcastInDim S50000x128 ![] bcast_S_S50000x128 : (⟨S_, .f32⟩ : BufTy).Contents (Elt F) → (⟨S50000x128, .f32⟩ : BufTy).Contents (Elt F)),
    unary main_v3 main_v128 (broadcastInDim S640000x1 ![0] bcast_S640000_S640000x1_0 : (⟨S640000, .i32⟩ : BufTy).Contents (Elt F) → (⟨S640000x1, .i32⟩ : BufTy).Contents (Elt F)),
    ternary main_v127 main_v128 main_v126 main_v129 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    binary main_v119 main_v129 main_v130 (addf : (⟨S50000x128, .f32⟩ : BufTy).Contents (Elt F) → (⟨S50000x128, .f32⟩ : BufTy).Contents (Elt F) → (⟨S50000x128, .f32⟩ : BufTy).Contents (Elt F)),
    unary main_arg1 main_v131 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v131 main_v132 rfl shapeCasts_S1x128x128_S128x128,
    binary main_v130 main_v132 main_v133 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v134 ((extractStridedSlice S1x128 ![2, 0] · slices_S3x128_S1x128_2_0) : (⟨S3x128, .f32⟩ : BufTy).Contents (Elt F) → (⟨S1x128, .f32⟩ : BufTy).Contents (Elt F)),
    reshape main_v134 main_v135 rfl shapeCasts_S1x128_S128,
    unary main_v135 main_v136 (broadcastInDim S1x128 ![1] bcast_S128_S1x128_1 : (⟨S128, .f32⟩ : BufTy).Contents (Elt F) → (⟨S1x128, .f32⟩ : BufTy).Contents (Elt F)),
    unary main_v136 main_v137 (broadcastInDim S50000x128 ![0, 1] bcast_S1x128_S50000x128_0_1 : (⟨S1x128, .f32⟩ : BufTy).Contents (Elt F) → (⟨S50000x128, .f32⟩ : BufTy).Contents (Elt F)),
    binary main_v133 main_v137 main_v138 (addf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x00000000#32),
    binary main_v138 main_cst_17 main_v139 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_18 (constant S_ .f32 0x47435000#32),
    unary main_cst_18 main_v140 (broadcastInDim S128 ![] bcast_S_S128 : (⟨S_, .f32⟩ : BufTy).Contents (Elt F) → (⟨S128, .f32⟩ : BufTy).Contents (Elt F)),
    binary main_v139 main_v140 main_v141 (Host.divf : (⟨S128, .f32⟩ : BufTy).Contents (Elt F) → (⟨S128, .f32⟩ : BufTy).Contents (Elt F) → (⟨S128, .f32⟩ : BufTy).Contents (Elt F)),
    unary main_v141 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v138 main_v143 main_v144 (subf : (⟨S50000x128, .f32⟩ : BufTy).Contents (Elt F) → (⟨S50000x128, .f32⟩ : BufTy).Contents (Elt F) → (⟨S50000x128, .f32⟩ : BufTy).Contents (Elt F)),
    binary main_v144 main_v144 main_v145 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v145 main_cst_19 main_v146 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32),
    unary main_cst_20 main_v147 (broadcastInDim S128 ![] bcast_S_S128 : (⟨S_, .f32⟩ : BufTy).Contents (Elt F) → (⟨S128, .f32⟩ : BufTy).Contents (Elt F)),
    binary main_v146 main_v147 main_v148 (Host.divf : (⟨S128, .f32⟩ : BufTy).Contents (Elt F) → (⟨S128, .f32⟩ : BufTy).Contents (Elt F) → (⟨S128, .f32⟩ : BufTy).Contents (Elt F)),
    unary main_v141 main_v149 (broadcastInDim S1x128 ![1] bcast_S128_S1x128_1 : (⟨S128, .f32⟩ : BufTy).Contents (Elt F) → (⟨S1x128, .f32⟩ : BufTy).Contents (Elt F)),
    unary main_v149 main_v150 (broadcastInDim S50000x128 ![0, 1] bcast_S1x128_S50000x128_0_1 : (⟨S1x128, .f32⟩ : BufTy).Contents (Elt F) → (⟨S50000x128, .f32⟩ : BufTy).Contents (Elt F)),
    binary main_v138 main_v150 main_v151 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v152 (broadcastInDim S128 ![] bcast_S_S128 : (⟨S_, .f32⟩ : BufTy).Contents (Elt F) → (⟨S128, .f32⟩ : BufTy).Contents (Elt F)),
    binary main_v148 main_v152 main_v153 (addf : (⟨S128, .f32⟩ : BufTy).Contents (Elt F) → (⟨S128, .f32⟩ : BufTy).Contents (Elt F) → (⟨S128, .f32⟩ : BufTy).Contents (Elt F)),
    unary main_v153 main_v154 (Host.rsqrt : (⟨S128, .f32⟩ : BufTy).Contents (Elt F) → (⟨S128, .f32⟩ : BufTy).Contents (Elt F)),
    unary main_v154 main_v155 (broadcastInDim S1x128 ![1] bcast_S128_S1x128_1 : (⟨S128, .f32⟩ : BufTy).Contents (Elt F) → (⟨S1x128, .f32⟩ : BufTy).Contents (Elt F)),
    unary main_v155 main_v156 (broadcastInDim S50000x128 ![0, 1] bcast_S1x128_S50000x128_0_1 : (⟨S1x128, .f32⟩ : BufTy).Contents (Elt F) → (⟨S50000x128, .f32⟩ : BufTy).Contents (Elt F)),
    binary main_v151 main_v156 main_v157 (mulf : (⟨S50000x128, .f32⟩ : BufTy).Contents (Elt F) → (⟨S50000x128, .f32⟩ : BufTy).Contents (Elt F) → (⟨S50000x128, .f32⟩ : BufTy).Contents (Elt F)),
    unary main_arg3 main_v158 ((extractStridedSlice S1x128 ![2, 0] · slices_S3x128_S1x128_2_0) : (⟨S3x128, .f32⟩ : BufTy).Contents (Elt F) → (⟨S1x128, .f32⟩ : BufTy).Contents (Elt F)),
    reshape main_v158 main_v159 rfl shapeCasts_S1x128_S128,
    unary main_v159 main_v160 (broadcastInDim S1x128 ![1] bcast_S128_S1x128_1 : (⟨S128, .f32⟩ : BufTy).Contents (Elt F) → (⟨S1x128, .f32⟩ : BufTy).Contents (Elt F)),
    unary main_v160 main_v161 (broadcastInDim S50000x128 ![0, 1] bcast_S1x128_S50000x128_0_1 : (⟨S1x128, .f32⟩ : BufTy).Contents (Elt F) → (⟨S50000x128, .f32⟩ : BufTy).Contents (Elt F)),
    binary main_v157 main_v161 main_v162 (mulf : (⟨S50000x128, .f32⟩ : BufTy).Contents (Elt F) → (⟨S50000x128, .f32⟩ : BufTy).Contents (Elt F) → (⟨S50000x128, .f32⟩ : BufTy).Contents (Elt F)),
    unary main_arg4 main_v163 ((extractStridedSlice S1x128 ![2, 0] · slices_S3x128_S1x128_2_0) : (⟨S3x128, .f32⟩ : BufTy).Contents (Elt F) → (⟨S1x128, .f32⟩ : BufTy).Contents (Elt F)),
    reshape main_v163 main_v164 rfl shapeCasts_S1x128_S128,
    unary main_v164 main_v165 (broadcastInDim S1x128 ![1] bcast_S128_S1x128_1 : (⟨S128, .f32⟩ : BufTy).Contents (Elt F) → (⟨S1x128, .f32⟩ : BufTy).Contents (Elt F)),
    unary main_v165 main_v166 (broadcastInDim S50000x128 ![0, 1] bcast_S1x128_S50000x128_0_1 : (⟨S1x128, .f32⟩ : BufTy).Contents (Elt F) → (⟨S50000x128, .f32⟩ : BufTy).Contents (Elt F)),
    binary main_v162 main_v166 main_v167 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v167) (TRef.of (T := ⟨S50000x128, .f32⟩) main_call4_v0) (TRef.of (T := ⟨S50000x128, .f32⟩) main_v168) maximumf,
    unary main_arg5 main_v169 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v169 main_v170 rfl shapeCasts_S1x128x128_S128x128,
    binary main_v168 main_v170 main_v171 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v172 ((extractStridedSlice S1x128 ![2, 0] · slices_S3x128_S1x128_2_0) : (⟨S3x128, .f32⟩ : BufTy).Contents (Elt F) → (⟨S1x128, .f32⟩ : BufTy).Contents (Elt F)),
    reshape main_v172 main_v173 rfl shapeCasts_S1x128_S128,
    unary main_v173 main_v174 (broadcastInDim S1x128 ![1] bcast_S128_S1x128_1 : (⟨S128, .f32⟩ : BufTy).Contents (Elt F) → (⟨S1x128, .f32⟩ : BufTy).Contents (Elt F)),
    unary main_v174 main_v175 (broadcastInDim S50000x128 ![0, 1] bcast_S1x128_S50000x128_0_1 : (⟨S1x128, .f32⟩ : BufTy).Contents (Elt F) → (⟨S50000x128, .f32⟩ : BufTy).Contents (Elt F)),
    binary main_v171 main_v175 main_v176 (addf : (⟨S50000x128, .f32⟩ : BufTy).Contents (Elt F) → (⟨S50000x128, .f32⟩ : BufTy).Contents (Elt F) → (⟨S50000x128, .f32⟩ : BufTy).Contents (Elt F)) ]

end

set_option maxRecDepth 8192 in
/-- The program's line is the three layers' lines in a row. -/
theorem ops_split : ops (F := Ideal) = ops0 ++ (ops1 ++ ops2) := rfl

/-- Running two lines one after the other is running their concatenation. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-! ## Each layer's line, run from any contents -/

set_option maxRecDepth 8192 in
/-- The first layer's line leaves at its last buffer the array layer of the aggregated features. -/
theorem layer0_out (W : Valuation τ sig (Elt Ideal)) :
    after (ops0 (F := Ideal)) W (Proc.devRef .tc main_v61)
      = layerArr false (wCut (W (Proc.devRef .tc main_arg1)) 0 slices_S3x128x128_S1x128x128_0_0_0) (bCut (W (Proc.devRef .tc main_arg2)) 0 slices_S3x128_S1x128_0_0) (bCut (W (Proc.devRef .tc main_arg3)) 0 slices_S3x128_S1x128_0_0) (bCut (W (Proc.devRef .tc main_arg4)) 0 slices_S3x128_S1x128_0_0) (wCut (W (Proc.devRef .tc main_arg5)) 0 slices_S3x128x128_S1x128x128_0_0_0) (bCut (W (Proc.devRef .tc main_arg6)) 0 slices_S3x128_S1x128_0_0)
          (aggR (W (Proc.devRef .tc main_arg7)) (W (Proc.devRef .tc main_arg0))) := by
  unfold ops0
  after_results_simp
  rfl

set_option maxRecDepth 8192 in
/-- The first layer's line leaves the sender array in its buffer. -/
theorem layer0_src (W : Valuation τ sig (Elt Ideal)) :
    after (ops0 (F := Ideal)) W (Proc.devRef .tc main_v1) = srcOf (W (Proc.devRef .tc main_arg7)) := by
  unfold ops0
  after_results_simp
  rfl

set_option maxRecDepth 8192 in
/-- The first layer's line leaves the receiver array in its buffer. -/
theorem layer0_dst (W : Valuation τ sig (Elt Ideal)) :
    after (ops0 (F := Ideal)) W (Proc.devRef .tc main_v3) = dstOf (W (Proc.devRef .tc main_arg7)) := by
  unfold ops0
  after_results_simp
  rfl

set_option maxRecDepth 8192 in
/-- The second layer's line, reading the sender and receiver arrays and the first layer's output from their buffers. -/
theorem layer1_out (W : Valuation τ sig (Elt Ideal)) :
    after (ops1 (F := Ideal)) W (Proc.devRef .tc main_v119)
      = layerArr false (wCut (W (Proc.devRef .tc main_arg1)) 1 slices_S3x128x128_S1x128x128_1_0_0) (bCut (W (Proc.devRef .tc main_arg2)) 1 slices_S3x128_S1x128_1_0) (bCut (W (Proc.devRef .tc main_arg3)) 1 slices_S3x128_S1x128_1_0) (bCut (W (Proc.devRef .tc main_arg4)) 1 slices_S3x128_S1x128_1_0) (wCut (W (Proc.devRef .tc main_arg5)) 1 slices_S3x128x128_S1x128x128_1_0_0) (bCut (W (Proc.devRef .tc main_arg6)) 1 slices_S3x128_S1x128_1_0)
          (aggIdx (W (Proc.devRef .tc main_v1)) (W (Proc.devRef .tc main_v3)) (W (Proc.devRef .tc main_v61))) := by
  unfold ops1
  after_results_simp
  rfl

set_option maxRecDepth 8192 in
/-- The third layer's line, reading the sender and receiver arrays and the second layer's output from their buffers. -/
theorem layer2_out (W : Valuation τ sig (Elt Ideal)) :
    after (ops2 (F := Ideal)) W (Proc.devRef .tc main_v176)
      = layerArr true (wCut (W (Proc.devRef .tc main_arg1)) 2 slices_S3x128x128_S1x128x128_2_0_0) (bCut (W (Proc.devRef .tc main_arg2)) 2 slices_S3x128_S1x128_2_0) (bCut (W (Proc.devRef .tc main_arg3)) 2 slices_S3x128_S1x128_2_0) (bCut (W (Proc.devRef .tc main_arg4)) 2 slices_S3x128_S1x128_2_0) (wCut (W (Proc.devRef .tc main_arg5)) 2 slices_S3x128x128_S1x128x128_2_0_0) (bCut (W (Proc.devRef .tc main_arg6)) 2 slices_S3x128_S1x128_2_0)
          (aggIdx (W (Proc.devRef .tc main_v1)) (W (Proc.devRef .tc main_v3)) (W (Proc.devRef .tc main_v119))) := by
  unfold ops2
  after_results_simp
  rfl

/-! ## What the first two lines do not write -/

set_option maxRecDepth 8192 in
theorem ops0_keeps_arg1 (W : Valuation τ sig (Elt Ideal)) :
    after (ops0 (F := Ideal)) W (Proc.devRef .tc main_arg1) = W (Proc.devRef .tc main_arg1) := by
  unfold ops0
  after_results_simp

set_option maxRecDepth 8192 in
theorem ops0_keeps_arg2 (W : Valuation τ sig (Elt Ideal)) :
    after (ops0 (F := Ideal)) W (Proc.devRef .tc main_arg2) = W (Proc.devRef .tc main_arg2) := by
  unfold ops0
  after_results_simp

set_option maxRecDepth 8192 in
theorem ops0_keeps_arg3 (W : Valuation τ sig (Elt Ideal)) :
    after (ops0 (F := Ideal)) W (Proc.devRef .tc main_arg3) = W (Proc.devRef .tc main_arg3) := by
  unfold ops0
  after_results_simp

set_option maxRecDepth 8192 in
theorem ops0_keeps_arg4 (W : Valuation τ sig (Elt Ideal)) :
    after (ops0 (F := Ideal)) W (Proc.devRef .tc main_arg4) = W (Proc.devRef .tc main_arg4) := by
  unfold ops0
  after_results_simp

set_option maxRecDepth 8192 in
theorem ops0_keeps_arg5 (W : Valuation τ sig (Elt Ideal)) :
    after (ops0 (F := Ideal)) W (Proc.devRef .tc main_arg5) = W (Proc.devRef .tc main_arg5) := by
  unfold ops0
  after_results_simp

set_option maxRecDepth 8192 in
theorem ops0_keeps_arg6 (W : Valuation τ sig (Elt Ideal)) :
    after (ops0 (F := Ideal)) W (Proc.devRef .tc main_arg6) = W (Proc.devRef .tc main_arg6) := by
  unfold ops0
  after_results_simp

set_option maxRecDepth 8192 in
theorem ops1_keeps_arg1 (W : Valuation τ sig (Elt Ideal)) :
    after (ops1 (F := Ideal)) W (Proc.devRef .tc main_arg1) = W (Proc.devRef .tc main_arg1) := by
  unfold ops1
  after_results_simp

set_option maxRecDepth 8192 in
theorem ops1_keeps_arg2 (W : Valuation τ sig (Elt Ideal)) :
    after (ops1 (F := Ideal)) W (Proc.devRef .tc main_arg2) = W (Proc.devRef .tc main_arg2) := by
  unfold ops1
  after_results_simp

set_option maxRecDepth 8192 in
theorem ops1_keeps_arg3 (W : Valuation τ sig (Elt Ideal)) :
    after (ops1 (F := Ideal)) W (Proc.devRef .tc main_arg3) = W (Proc.devRef .tc main_arg3) := by
  unfold ops1
  after_results_simp

set_option maxRecDepth 8192 in
theorem ops1_keeps_arg4 (W : Valuation τ sig (Elt Ideal)) :
    after (ops1 (F := Ideal)) W (Proc.devRef .tc main_arg4) = W (Proc.devRef .tc main_arg4) := by
  unfold ops1
  after_results_simp

set_option maxRecDepth 8192 in
theorem ops1_keeps_arg5 (W : Valuation τ sig (Elt Ideal)) :
    after (ops1 (F := Ideal)) W (Proc.devRef .tc main_arg5) = W (Proc.devRef .tc main_arg5) := by
  unfold ops1
  after_results_simp

set_option maxRecDepth 8192 in
theorem ops1_keeps_arg6 (W : Valuation τ sig (Elt Ideal)) :
    after (ops1 (F := Ideal)) W (Proc.devRef .tc main_arg6) = W (Proc.devRef .tc main_arg6) := by
  unfold ops1
  after_results_simp

set_option maxRecDepth 8192 in
theorem ops1_keeps_v1 (W : Valuation τ sig (Elt Ideal)) :
    after (ops1 (F := Ideal)) W (Proc.devRef .tc main_v1) = W (Proc.devRef .tc main_v1) := by
  unfold ops1
  after_results_simp

set_option maxRecDepth 8192 in
theorem ops1_keeps_v3 (W : Valuation τ sig (Elt Ideal)) :
    after (ops1 (F := Ideal)) W (Proc.devRef .tc main_v3) = W (Proc.devRef .tc main_v3) := by
  unfold ops1
  after_results_simp

set_option maxRecDepth 8192 in
theorem ops0_keeps_arg0 (W : Valuation τ sig (Elt Ideal)) :
    after (ops0 (F := Ideal)) W (Proc.devRef .tc main_arg0) = W (Proc.devRef .tc main_arg0) := by
  unfold ops0
  after_results_simp

set_option maxRecDepth 8192 in
theorem ops0_keeps_arg7 (W : Valuation τ sig (Elt Ideal)) :
    after (ops0 (F := Ideal)) W (Proc.devRef .tc main_arg7) = W (Proc.devRef .tc main_arg7) := by
  unfold ops0
  after_results_simp

set_option maxRecDepth 8192 in
theorem ops1_keeps_arg0 (W : Valuation τ sig (Elt Ideal)) :
    after (ops1 (F := Ideal)) W (Proc.devRef .tc main_arg0) = W (Proc.devRef .tc main_arg0) := by
  unfold ops1
  after_results_simp

set_option maxRecDepth 8192 in
theorem ops1_keeps_arg7 (W : Valuation τ sig (Elt Ideal)) :
    after (ops1 (F := Ideal)) W (Proc.devRef .tc main_arg7) = W (Proc.devRef .tc main_arg7) := by
  unfold ops1
  after_results_simp

set_option maxRecDepth 8192 in
theorem ops2_keeps_arg0 (W : Valuation τ sig (Elt Ideal)) :
    after (ops2 (F := Ideal)) W (Proc.devRef .tc main_arg0) = W (Proc.devRef .tc main_arg0) := by
  unfold ops2
  after_results_simp

set_option maxRecDepth 8192 in
theorem ops2_keeps_arg1 (W : Valuation τ sig (Elt Ideal)) :
    after (ops2 (F := Ideal)) W (Proc.devRef .tc main_arg1) = W (Proc.devRef .tc main_arg1) := by
  unfold ops2
  after_results_simp

set_option maxRecDepth 8192 in
theorem ops2_keeps_arg2 (W : Valuation τ sig (Elt Ideal)) :
    after (ops2 (F := Ideal)) W (Proc.devRef .tc main_arg2) = W (Proc.devRef .tc main_arg2) := by
  unfold ops2
  after_results_simp

set_option maxRecDepth 8192 in
theorem ops2_keeps_arg3 (W : Valuation τ sig (Elt Ideal)) :
    after (ops2 (F := Ideal)) W (Proc.devRef .tc main_arg3) = W (Proc.devRef .tc main_arg3) := by
  unfold ops2
  after_results_simp

set_option maxRecDepth 8192 in
theorem ops2_keeps_arg4 (W : Valuation τ sig (Elt Ideal)) :
    after (ops2 (F := Ideal)) W (Proc.devRef .tc main_arg4) = W (Proc.devRef .tc main_arg4) := by
  unfold ops2
  after_results_simp

set_option maxRecDepth 8192 in
theorem ops2_keeps_arg5 (W : Valuation τ sig (Elt Ideal)) :
    after (ops2 (F := Ideal)) W (Proc.devRef .tc main_arg5) = W (Proc.devRef .tc main_arg5) := by
  unfold ops2
  after_results_simp

set_option maxRecDepth 8192 in
theorem ops2_keeps_arg6 (W : Valuation τ sig (Elt Ideal)) :
    after (ops2 (F := Ideal)) W (Proc.devRef .tc main_arg6) = W (Proc.devRef .tc main_arg6) := by
  unfold ops2
  after_results_simp

set_option maxRecDepth 8192 in
theorem ops2_keeps_arg7 (W : Valuation τ sig (Elt Ideal)) :
    after (ops2 (F := Ideal)) W (Proc.devRef .tc main_arg7) = W (Proc.devRef .tc main_arg7) := by
  unfold ops2
  after_results_simp

/-! ## The three lines in a row -/

/-- From any contents `V`, the three lines in a row leave at the result buffer the specification's network of the
    arguments as `V` holds them. -/
theorem fold_value (V : Valuation τ sig (Elt Ideal)) :
    after (ops0 (F := Ideal) ++ (ops1 ++ ops2)) V (Proc.devRef .tc main_v176)
      = netR (aggR (V (Proc.devRef .tc main_arg7))) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg0)) := by
  rw [after_app, after_app, layer2_out,
    ops1_keeps_arg1, ops1_keeps_arg2, ops1_keeps_arg3, ops1_keeps_arg4, ops1_keeps_arg5, ops1_keeps_arg6, ops1_keeps_v1, ops1_keeps_v3, layer1_out,
    ops0_keeps_arg1, ops0_keeps_arg2, ops0_keeps_arg3, ops0_keeps_arg4, ops0_keeps_arg5, ops0_keeps_arg6, layer0_src, layer0_dst, layer0_out]
  show layerArr true (wCut (V (Proc.devRef .tc main_arg1)) 2 slices_S3x128x128_S1x128x128_2_0_0) (bCut (V (Proc.devRef .tc main_arg2)) 2 slices_S3x128_S1x128_2_0) (bCut (V (Proc.devRef .tc main_arg3)) 2 slices_S3x128_S1x128_2_0) (bCut (V (Proc.devRef .tc main_arg4)) 2 slices_S3x128_S1x128_2_0) (wCut (V (Proc.devRef .tc main_arg5)) 2 slices_S3x128x128_S1x128x128_2_0_0) (bCut (V (Proc.devRef .tc main_arg6)) 2 slices_S3x128_S1x128_2_0) (aggR (V (Proc.devRef .tc main_arg7)) (layerArr false (wCut (V (Proc.devRef .tc main_arg1)) 1 slices_S3x128x128_S1x128x128_1_0_0) (bCut (V (Proc.devRef .tc main_arg2)) 1 slices_S3x128_S1x128_1_0) (bCut (V (Proc.devRef .tc main_arg3)) 1 slices_S3x128_S1x128_1_0) (bCut (V (Proc.devRef .tc main_arg4)) 1 slices_S3x128_S1x128_1_0) (wCut (V (Proc.devRef .tc main_arg5)) 1 slices_S3x128x128_S1x128x128_1_0_0) (bCut (V (Proc.devRef .tc main_arg6)) 1 slices_S3x128_S1x128_1_0) (aggR (V (Proc.devRef .tc main_arg7)) (layerArr false (wCut (V (Proc.devRef .tc main_arg1)) 0 slices_S3x128x128_S1x128x128_0_0_0) (bCut (V (Proc.devRef .tc main_arg2)) 0 slices_S3x128_S1x128_0_0) (bCut (V (Proc.devRef .tc main_arg3)) 0 slices_S3x128_S1x128_0_0) (bCut (V (Proc.devRef .tc main_arg4)) 0 slices_S3x128_S1x128_0_0) (wCut (V (Proc.devRef .tc main_arg5)) 0 slices_S3x128x128_S1x128x128_0_0_0) (bCut (V (Proc.devRef .tc main_arg6)) 0 slices_S3x128_S1x128_0_0) (aggR (V (Proc.devRef .tc main_arg7)) (V (Proc.devRef .tc main_arg0))))))) = _
  rw [layer_eq (aggR (V (Proc.devRef .tc main_arg7))) (V (Proc.devRef .tc main_arg1)) (V (Proc.devRef .tc main_arg2)) (V (Proc.devRef .tc main_arg3)) (V (Proc.devRef .tc main_arg4)) (V (Proc.devRef .tc main_arg5)) (V (Proc.devRef .tc main_arg6)) false 0 (by decide) slices_S3x128x128_S1x128x128_0_0_0 slices_S3x128_S1x128_0_0 (V (Proc.devRef .tc main_arg0)),
    layer_eq (aggR (V (Proc.devRef .tc main_arg7))) (V (Proc.devRef .tc main_arg1)) (V (Proc.devRef .tc main_arg2)) (V (Proc.devRef .tc main_arg3)) (V (Proc.devRef .tc main_arg4)) (V (Proc.devRef .tc main_arg5)) (V (Proc.devRef .tc main_arg6)) false 1 (by decide) slices_S3x128x128_S1x128x128_1_0_0 slices_S3x128_S1x128_1_0,
    layer_eq (aggR (V (Proc.devRef .tc main_arg7))) (V (Proc.devRef .tc main_arg1)) (V (Proc.devRef .tc main_arg2)) (V (Proc.devRef .tc main_arg3)) (V (Proc.devRef .tc main_arg4)) (V (Proc.devRef .tc main_arg5)) (V (Proc.devRef .tc main_arg6)) true 2 (by decide) slices_S3x128x128_S1x128x128_2_0_0 slices_S3x128_S1x128_2_0]
  rfl

/-! ## The reference's result and arguments after its run -/

/-- THE REFERENCE'S VALUE: after the program's operations, from the launch contents, the result buffer holds the
    specification's network (second arrangement) of the arguments. -/
theorem ref_value (m : (ℓ : Loc nD τ sig) → Buf (Elt Ideal) ℓ) (c : Dev nD) :
    after (ops (F := Ideal)) (launchContents m c) (Proc.devRef .tc main_v176)
      = netR (aggR (m ((c.tc : Thread nD τ).loc main_arg7))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0)) := by
  rw [ops_split]
  exact fold_value (launchContents m c)

/-- The three lines in a row write no argument. -/
theorem fold_keeps_arg0 (V : Valuation τ sig (Elt Ideal)) :
    after (ops0 (F := Ideal) ++ (ops1 ++ ops2)) V (Proc.devRef .tc main_arg0) = V (Proc.devRef .tc main_arg0) := by
  rw [after_app, after_app, ops2_keeps_arg0, ops1_keeps_arg0, ops0_keeps_arg0]

theorem fold_keeps_arg1 (V : Valuation τ sig (Elt Ideal)) :
    after (ops0 (F := Ideal) ++ (ops1 ++ ops2)) V (Proc.devRef .tc main_arg1) = V (Proc.devRef .tc main_arg1) := by
  rw [after_app, after_app, ops2_keeps_arg1, ops1_keeps_arg1, ops0_keeps_arg1]

theorem fold_keeps_arg2 (V : Valuation τ sig (Elt Ideal)) :
    after (ops0 (F := Ideal) ++ (ops1 ++ ops2)) V (Proc.devRef .tc main_arg2) = V (Proc.devRef .tc main_arg2) := by
  rw [after_app, after_app, ops2_keeps_arg2, ops1_keeps_arg2, ops0_keeps_arg2]

theorem fold_keeps_arg3 (V : Valuation τ sig (Elt Ideal)) :
    after (ops0 (F := Ideal) ++ (ops1 ++ ops2)) V (Proc.devRef .tc main_arg3) = V (Proc.devRef .tc main_arg3) := by
  rw [after_app, after_app, ops2_keeps_arg3, ops1_keeps_arg3, ops0_keeps_arg3]

theorem fold_keeps_arg4 (V : Valuation τ sig (Elt Ideal)) :
    after (ops0 (F := Ideal) ++ (ops1 ++ ops2)) V (Proc.devRef .tc main_arg4) = V (Proc.devRef .tc main_arg4) := by
  rw [after_app, after_app, ops2_keeps_arg4, ops1_keeps_arg4, ops0_keeps_arg4]

theorem fold_keeps_arg5 (V : Valuation τ sig (Elt Ideal)) :
    after (ops0 (F := Ideal) ++ (ops1 ++ ops2)) V (Proc.devRef .tc main_arg5) = V (Proc.devRef .tc main_arg5) := by
  rw [after_app, after_app, ops2_keeps_arg5, ops1_keeps_arg5, ops0_keeps_arg5]

theorem fold_keeps_arg6 (V : Valuation τ sig (Elt Ideal)) :
    after (ops0 (F := Ideal) ++ (ops1 ++ ops2)) V (Proc.devRef .tc main_arg6) = V (Proc.devRef .tc main_arg6) := by
  rw [after_app, after_app, ops2_keeps_arg6, ops1_keeps_arg6, ops0_keeps_arg6]

theorem fold_keeps_arg7 (V : Valuation τ sig (Elt Ideal)) :
    after (ops0 (F := Ideal) ++ (ops1 ++ ops2)) V (Proc.devRef .tc main_arg7) = V (Proc.devRef .tc main_arg7) := by
  rw [after_app, after_app, ops2_keeps_arg7, ops1_keeps_arg7, ops0_keeps_arg7]

/-- No operation writes an argument: each still holds its launch contents. -/
theorem ref_args (m : (ℓ : Loc nD τ sig) → Buf (Elt Ideal) ℓ) (c : Dev nD) :
    after (ops (F := Ideal)) (launchContents m c) (Proc.devRef .tc main_arg0) = m ((c.tc : Thread nD τ).loc main_arg0)
      ∧ after (ops (F := Ideal)) (launchContents m c) (Proc.devRef .tc main_arg1) = m ((c.tc : Thread nD τ).loc main_arg1)
      ∧ after (ops (F := Ideal)) (launchContents m c) (Proc.devRef .tc main_arg2) = m ((c.tc : Thread nD τ).loc main_arg2)
      ∧ after (ops (F := Ideal)) (launchContents m c) (Proc.devRef .tc main_arg3) = m ((c.tc : Thread nD τ).loc main_arg3)
      ∧ after (ops (F := Ideal)) (launchContents m c) (Proc.devRef .tc main_arg4) = m ((c.tc : Thread nD τ).loc main_arg4)
      ∧ after (ops (F := Ideal)) (launchContents m c) (Proc.devRef .tc main_arg5) = m ((c.tc : Thread nD τ).loc main_arg5)
      ∧ after (ops (F := Ideal)) (launchContents m c) (Proc.devRef .tc main_arg6) = m ((c.tc : Thread nD τ).loc main_arg6)
      ∧ after (ops (F := Ideal)) (launchContents m c) (Proc.devRef .tc main_arg7) = m ((c.tc : Thread nD τ).loc main_arg7) := by
  rw [ops_split]
  exact ⟨fold_keeps_arg0 (launchContents m c),
    fold_keeps_arg1 (launchContents m c),
    fold_keeps_arg2 (launchContents m c),
    fold_keeps_arg3 (launchContents m c),
    fold_keeps_arg4 (launchContents m c),
    fold_keeps_arg5 (launchContents m c),
    fold_keeps_arg6 (launchContents m c),
    fold_keeps_arg7 (launchContents m c)⟩

end Cert.ReferenceIdeal.RefValue

end
-- ==== Proof.SpecLaws.lean ====
/-
  The laws of the specification that hold on real numbers.

  The two arrangements of a layer differ in two places only. The column sums of one start from a float zero, which
  denotes 0, so the two column means are the same function. The column variance of one is the mean of the squares
  minus the square of the mean, cut off below at zero; that of the other is the mean of the squared deviations. On a
  column of real numbers the two expressions are one real number that is not negative, so the cut-off does nothing
  and the two variances agree. Hence the two perceptrons agree on real inputs, and since every operation of a layer
  keeps real numbers real (the variance plus a positive constant is positive, so its reciprocal square root is
  real), the agreement carries through the three layers.
-/
import proofs.«168398_j7327214207515_1_alg».proof.Proof.Spec
import proofs.«168398_j7327214207515_1_alg».proof.Proof.LibRealSums
import proofs.«168398_j7327214207515_1_alg».proof.Proof.LibBatchNorm

noncomputable section

open scoped BigOperators
open Cert.RealSums Cert.BatchNorm Idealize.ShloMosaic Idealize.ShloMosaic.ValueIdx

namespace Cert.Gin

/-! ## The three constants -/

/-- The float zero denotes 0. -/
theorem zero32_eq : zero32 = 0 := Ideal.ofBits_zero_f32

/-- The word 0x47435000 has exponent field 142 and fraction field 0x435000, so it denotes
    (2^23 + 4411392) · 2^(142 − 127 − 23) = 12800000 / 256 = 50000. -/
theorem cnt32_eq : cnt32 = ((50000 : ℝ) : EReal) := by
  unfold cnt32
  simp [Ideal.ofBits, Ideal.ieee, -EReal.coe_mul]; norm_num

/-- The word 0x3727C5AC has exponent field 110 (neither 0 nor 255) and a clear sign bit, so it denotes the positive
    real (2^23 + 2606508) · 2^(110 − 127 − 23). -/
theorem eps32_real : ∃ e : ℝ, 0 < e ∧ eps32 = ((e : ℝ) : EReal) := by
  refine ⟨(10995116 : ℝ) * (2 : ℝ) ^ (-40 : ℤ), by positivity, ?_⟩
  unfold eps32
  simp [Ideal.ofBits, Ideal.ieee, -EReal.coe_mul]

theorem isReal_zero32 : IsReal zero32 := by rw [zero32_eq]; exact isReal_zero

/-- 50000 is the number of rows. -/
theorem cnt_card : (50000 : ℝ) = (((Finset.univ : Finset (Fin 50000)).card : ℕ) : ℝ) := by
  rw [Finset.card_univ, Fintype.card_fin]; norm_num

/-! ## Reals stay real through a product with a bias and through the cut-off -/

theorem lin_isReal (z : Mat) (w : Wt) (b : Row) (hz : ∀ p i, IsReal (z p i)) (hw : ∀ i q, IsReal (w i q))
    (hb : ∀ q, IsReal (b q)) : ∀ p q, IsReal (lin z w b p q) := fun p q =>
  (isReal_sum Finset.univ (fun i => z p i * w i q) (fun i _ => (hz p i).mul (hw i q))).add (hb q)

theorem relu_isReal {x : EReal} (hx : IsReal x) : IsReal (relu x) := isReal_max hx isReal_zero32

/-! ## The column statistics of a real matrix -/

/-- The two column means are the same function: the started-from-zero sum is the bare sum. -/
theorem meanK_eq_meanR (y : Mat) : meanK y = meanR y := by
  funext q
  unfold meanK meanR
  rw [zero32_eq, zero_add]

/-- A column mean of a real matrix is real. -/
theorem meanK_isReal (y : Mat) (hy : ∀ p q, IsReal (y p q)) (q : Fin 128) : IsReal (meanK y q) := by
  unfold meanK
  rw [cnt32_eq]
  exact isReal_div_coe (isReal_sum Finset.univ (fun p => y p q) (fun p _ => hy p q)) (by norm_num)

/-- On a real column the mean of the squares minus the square of the mean is a real number that is not negative. -/
theorem varSq_col (y : Mat) (hy : ∀ p q, IsReal (y p q)) (q : Fin 128) :
    ∃ v : ℝ, 0 ≤ v ∧
      Ideal.div (∑ p, y p q * y p q) ((50000 : ℝ) : EReal)
        - Ideal.div (∑ p, y p q) ((50000 : ℝ) : EReal) * Ideal.div (∑ p, y p q) ((50000 : ℝ) : EReal) = (v : EReal) :=
  varSq_nonneg (Finset.univ : Finset (Fin 50000)) (fun p => y p q) (fun p _ => hy p q) cnt_card (by norm_num)

/-- On a real column the two forms of the variance are the same number. -/
theorem var_col (y : Mat) (hy : ∀ p q, IsReal (y p q)) (q : Fin 128) :
    Ideal.div (∑ p, y p q * y p q) ((50000 : ℝ) : EReal)
        - Ideal.div (∑ p, y p q) ((50000 : ℝ) : EReal) * Ideal.div (∑ p, y p q) ((50000 : ℝ) : EReal)
      = Ideal.div (∑ p, (y p q - Ideal.div (∑ p, y p q) ((50000 : ℝ) : EReal))
          * (y p q - Ideal.div (∑ p, y p q) ((50000 : ℝ) : EReal))) ((50000 : ℝ) : EReal) :=
  var_eq_finset (Finset.univ : Finset (Fin 50000)) (fun p => y p q) (fun p _ => hy p q) cnt_card (by norm_num)

/-- The first arrangement's variance of a real column is a real number that is not negative: the cut-off at zero
    does nothing. -/
theorem varK_coe (y : Mat) (hy : ∀ p q, IsReal (y p q)) (q : Fin 128) :
    ∃ v : ℝ, 0 ≤ v ∧ varK y q = (v : EReal) := by
  obtain ⟨v, hv, h⟩ := varSq_col y hy q
  refine ⟨v, hv, ?_⟩
  unfold varK meanK
  rw [cnt32_eq, zero32_eq, h]
  exact max_eq_left (EReal.coe_nonneg.mpr hv)

/-- The two column variances agree on a real matrix. -/
theorem varK_eq_varR (y : Mat) (hy : ∀ p q, IsReal (y p q)) : varK y = varR y := by
  funext q
  obtain ⟨v, hv, h⟩ := varSq_col y hy q
  have e := var_col y hy q
  unfold varK varR meanK meanR
  rw [cnt32_eq, zero32_eq]
  simp only [zero_add]
  rw [← e, h]
  exact max_eq_left (EReal.coe_nonneg.mpr hv)

/-! ## The perceptron -/

/-- The two arrangements of the perceptron agree when the first product's entries are real. -/
theorem mlp_eq (last : Bool) (z : Mat) (w1 : Wt) (b1 gam bet : Row) (w2 : Wt) (b2 : Row)
    (hz : ∀ p i, IsReal (z p i)) (hw1 : ∀ i q, IsReal (w1 i q)) (hb1 : ∀ q, IsReal (b1 q)) :
    mlpK last z w1 b1 gam bet w2 b2 = mlpR last z w1 b1 gam bet w2 b2 := by
  unfold mlpK mlpR mlpWith
  rw [meanK_eq_meanR (lin z w1 b1), varK_eq_varR (lin z w1 b1) (lin_isReal z w1 b1 hz hw1 hb1)]

/-- The normalised, scaled, shifted entry of a real matrix is real. -/
theorem norm_isReal (y : Mat) (gam bet : Row) (hy : ∀ p q, IsReal (y p q)) (hgam : ∀ q, IsReal (gam q))
    (hbet : ∀ q, IsReal (bet q)) : ∀ p q, IsReal (norm y (meanK y) (varK y) gam bet p q) := by
  intro p q
  obtain ⟨v, hv, h⟩ := varK_coe y hy q
  obtain ⟨e, he, hE⟩ := eps32_real
  unfold norm
  rw [h, hE]
  exact isReal_affine (hy p q) (meanK_isReal y hy q) (isReal_rsqrt_add hv he) (hgam q) (hbet q)

theorem fin_isReal (last : Bool) (o : Mat) (ho : ∀ p q, IsReal (o p q)) : ∀ p q, IsReal (fin last o p q) := by
  intro p q
  cases last
  · exact relu_isReal (ho p q)
  · exact ho p q

/-- The perceptron keeps real numbers real. -/
theorem mlp_isReal (last : Bool) (z : Mat) (w1 : Wt) (b1 gam bet : Row) (w2 : Wt) (b2 : Row)
    (hz : ∀ p i, IsReal (z p i)) (hw1 : ∀ i q, IsReal (w1 i q)) (hb1 : ∀ q, IsReal (b1 q))
    (hgam : ∀ q, IsReal (gam q)) (hbet : ∀ q, IsReal (bet q))
    (hw2 : ∀ i q, IsReal (w2 i q)) (hb2 : ∀ q, IsReal (b2 q)) :
    ∀ p q, IsReal (mlpK last z w1 b1 gam bet w2 b2 p q) := by
  unfold mlpK mlpWith
  exact fin_isReal last _ (lin_isReal _ w2 b2
    (fun p q => relu_isReal (norm_isReal (lin z w1 b1) gam bet (lin_isReal z w1 b1 hz hw1 hb1) hgam hbet p q)) hw2 hb2)

/-! ## A layer and the network -/

section Net

variable (A : ((⟨2, ![50000, 128]⟩ : Shape).Idx → EReal) → ((⟨2, ![50000, 128]⟩ : Shape).Idx → EReal))
  (hA : ∀ h, (∀ j, IsReal (h j)) → ∀ j, IsReal (A h j))
  (W1 : (⟨3, ![3, 128, 128]⟩ : Shape).Idx → EReal) (B1 G Be : (⟨2, ![3, 128]⟩ : Shape).Idx → EReal)
  (W2 : (⟨3, ![3, 128, 128]⟩ : Shape).Idx → EReal) (B2 : (⟨2, ![3, 128]⟩ : Shape).Idx → EReal)

include hA in
/-- The two arrangements of a layer agree on a real input. -/
theorem layer_eq (hW1 : ∀ j, IsReal (W1 j)) (hB1 : ∀ j, IsReal (B1 j)) (last : Bool) (l : Fin 3)
    (h : (⟨2, ![50000, 128]⟩ : Shape).Idx → EReal) (hh : ∀ j, IsReal (h j)) :
    layerWith mlpK A W1 B1 G Be W2 B2 last l h = layerWith mlpR A W1 B1 G Be W2 B2 last l h := by
  unfold layerWith
  exact congrArg ofMat (mlp_eq last (toMat (A h)) (wSlice W1 l) (bSlice B1 l) (bSlice G l) (bSlice Be l)
    (wSlice W2 l) (bSlice B2 l) (fun p i => hA h hh (ix2 p i)) (fun i q => hW1 (ix3 l i q)) (fun q => hB1 (ix2 l q)))

include hA in
/-- A layer keeps real numbers real. -/
theorem layer_isReal (hW1 : ∀ j, IsReal (W1 j)) (hB1 : ∀ j, IsReal (B1 j)) (hG : ∀ j, IsReal (G j))
    (hBe : ∀ j, IsReal (Be j)) (hW2 : ∀ j, IsReal (W2 j)) (hB2 : ∀ j, IsReal (B2 j)) (last : Bool) (l : Fin 3)
    (h : (⟨2, ![50000, 128]⟩ : Shape).Idx → EReal) (hh : ∀ j, IsReal (h j)) :
    ∀ j, IsReal (layerWith mlpK A W1 B1 G Be W2 B2 last l h j) := by
  intro j
  unfold layerWith ofMat
  exact mlp_isReal last (toMat (A h)) (wSlice W1 l) (bSlice B1 l) (bSlice G l) (bSlice Be l)
    (wSlice W2 l) (bSlice B2 l) (fun p i => hA h hh (ix2 p i)) (fun i q => hW1 (ix3 l i q)) (fun q => hB1 (ix2 l q))
    (fun q => hG (ix2 l q)) (fun q => hBe (ix2 l q)) (fun i q => hW2 (ix3 l i q)) (fun q => hB2 (ix2 l q)) (j 0) (j 1)

end Net

/-- The two arrangements of the network agree on real inputs and real parameters. -/
theorem net_eq (A : ((⟨2, ![50000, 128]⟩ : Shape).Idx → EReal) → ((⟨2, ![50000, 128]⟩ : Shape).Idx → EReal))
    (hA : ∀ h, (∀ j, IsReal (h j)) → ∀ j, IsReal (A h j))
    (W1 : (⟨3, ![3, 128, 128]⟩ : Shape).Idx → EReal) (B1 G Be : (⟨2, ![3, 128]⟩ : Shape).Idx → EReal)
    (W2 : (⟨3, ![3, 128, 128]⟩ : Shape).Idx → EReal) (B2 : (⟨2, ![3, 128]⟩ : Shape).Idx → EReal)
    (x : (⟨2, ![50000, 128]⟩ : Shape).Idx → EReal)
    (hW1 : ∀ j, IsReal (W1 j)) (hB1 : ∀ j, IsReal (B1 j)) (hG : ∀ j, IsReal (G j)) (hBe : ∀ j, IsReal (Be j))
    (hW2 : ∀ j, IsReal (W2 j)) (hB2 : ∀ j, IsReal (B2 j)) (hx : ∀ j, IsReal (x j)) :
    netK A W1 B1 G Be W2 B2 x = netR A W1 B1 G Be W2 B2 x := by
  have r0 := layer_isReal A hA W1 B1 G Be W2 B2 hW1 hB1 hG hBe hW2 hB2 false 0 x hx
  have r1 := layer_isReal A hA W1 B1 G Be W2 B2 hW1 hB1 hG hBe hW2 hB2 false 1 _ r0
  have e0 := layer_eq A hA W1 B1 G Be W2 B2 hW1 hB1 false 0 x hx
  have e1 := layer_eq A hA W1 B1 G Be W2 B2 hW1 hB1 false 1 _ r0
  have e2 := layer_eq A hA W1 B1 G Be W2 B2 hW1 hB1 true 2 _ r1
  unfold netK netR netWith
  rw [e2, e1, e0]

end Cert.Gin

end
-- ==== Proof.Bridge.lean ====
/-
  The two programs aggregate alike, so the two arrangements of the network meet.

  Each program spells the aggregation step — every node's row plus the rows of the nodes that send it an edge — with
  its own copies of the same shapes and of the same gather and scatter dimension records; the copies are equal
  field by field, so the two aggregations are one function of the edge array and the features. With that, the
  network in the first arrangement over the one aggregation equals the network in the second arrangement over the
  other, on real inputs and real parameters: the aggregation keeps real entries real, and on real entries the two
  arrangements of every layer agree.
-/
import proofs.«168398_j7327214207515_1_alg».proof.Proof.KAgg
import proofs.«168398_j7327214207515_1_alg».proof.Proof.RefLayer
import proofs.«168398_j7327214207515_1_alg».proof.Proof.SpecLaws

noncomputable section

open Cert.RealSums Idealize.ShloMosaic

namespace Cert.Gin

/-- The aggregation in the kernel program's spelling is the aggregation in the reference program's. -/
theorem agg_eq (e : IVec Cert.KernelIdeal.S2x640000 32) (h : FVec Ideal Cert.KernelIdeal.S50000x128 .f32) :
    Cert.KernelIdeal.KV.aggK e h = Cert.ReferenceIdeal.RefValue.aggR e h := rfl

/-- The network, first arrangement over the kernel program's aggregation, is the network, second arrangement over
    the reference program's, when the features and all parameters are real. -/
theorem net_bridge (e : IVec Cert.KernelIdeal.S2x640000 32)
    (W1 : (⟨3, ![3, 128, 128]⟩ : Shape).Idx → EReal) (B1 G Be : (⟨2, ![3, 128]⟩ : Shape).Idx → EReal)
    (W2 : (⟨3, ![3, 128, 128]⟩ : Shape).Idx → EReal) (B2 : (⟨2, ![3, 128]⟩ : Shape).Idx → EReal)
    (x : (⟨2, ![50000, 128]⟩ : Shape).Idx → EReal)
    (hW1 : ∀ j, IsReal (W1 j)) (hB1 : ∀ j, IsReal (B1 j)) (hG : ∀ j, IsReal (G j)) (hBe : ∀ j, IsReal (Be j))
    (hW2 : ∀ j, IsReal (W2 j)) (hB2 : ∀ j, IsReal (B2 j)) (hx : ∀ j, IsReal (x j)) :
    netK (Cert.KernelIdeal.KV.aggK e) W1 B1 G Be W2 B2 x
      = netR (Cert.ReferenceIdeal.RefValue.aggR e) W1 B1 G Be W2 B2 x := by
  have hA : Cert.KernelIdeal.KV.aggK e = Cert.ReferenceIdeal.RefValue.aggR e := funext (agg_eq e)
  exact (congrArg (fun A => netK A W1 B1 G Be W2 B2 x) hA).trans
    (net_eq _ (fun h hh => Cert.ReferenceIdeal.RefValue.aggR_isReal e h hh) W1 B1 G Be W2 B2 x
      hW1 hB1 hG hBe hW2 hB2 hx)

end Cert.Gin

end
-- ==== Proof.PreReal.lean ====
/-
  The precondition, decoded: every entry of the seven float arrays is a real number.

  The precondition is printed as one function of the eight argument arrays. For each of the seven float arrays x it
  forms the array of bits |x| < +∞, folds it by 'and' from the constant 1 into a single bit (an all-of over every
  axis), and joins the seven bits by 'and'; the claim's hypothesis says the result is 1. So each of the seven bits is
  1, so every element of each array of comparisons is 1, that is |x j| < +∞ for every index j. On the extended reals
  |v| is max v (−v) and the word 0x7F800000 denotes ⊤; max v (−v) < ⊤ fails at v = ⊤ and at v = ⊥ (where −v = ⊤), so v
  is the image of a real number.
-/
import proofs.«168398_j7327214207515_1_alg».proof.Defs
import proofs.«168398_j7327214207515_1_alg».proof.Proof.LibRealSums
import Idealize.ShloMosaic.Lib.ReduceAll
import Idealize.ShloMosaic.Lib.ValueIdx

noncomputable section

open Idealize.ShloMosaic

namespace Cert.Gin

/-- An extended real whose absolute value is below the value of the word 0x7F800000 (which is ⊤) is real. -/
theorem isReal_of_abs_lt_inf (v : EReal)
    (h : Ideal.cmp .olt (max v (-v)) (Ideal.ofBits .f32 0x7F800000#32) = 1#1) : Cert.RealSums.IsReal v := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- If the all-of over every axis of the comparisons |x| < +∞ is 1, every entry of x is real. Generic in the array's
    shape and in the list of axes folded. -/
theorem isReal_of_all_abs_lt_inf {s : Shape} {axes : List (Fin s.rank)} (x : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] bc (constant (F := Ideal) (⟨0, ![]⟩ : Shape) .f32 0x7F800000#32)))
        (constantI (⟨0, ![]⟩ : Shape) 1 1#1) hr hu ValueIdx.ix0 = 1#1) :
    ∀ j, Cert.RealSums.IsReal (x j) := by
  intro j
  haveI : Subsingleton (⟨0, ![]⟩ : Shape).Idx := ⟨fun a b => funext fun d => d.elim0⟩
  exact isReal_of_abs_lt_inf (x j) (Host.reduce_andi_all _ _ hr hu ValueIdx.ix0 e j)

/-- THE PRECONDITION DECODED: on every device each of the seven float argument arrays holds real numbers only. -/
theorem pre_real [hP : Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD) :
    (∀ j, Cert.RealSums.IsReal (m ((c.tc : Thread Cert.KernelIdeal.nD Cert.KernelIdeal.τ).loc Cert.KernelIdeal.main_arg0) j))
    ∧ (∀ j, Cert.RealSums.IsReal (m ((c.tc : Thread Cert.KernelIdeal.nD Cert.KernelIdeal.τ).loc Cert.KernelIdeal.main_arg1) j))
    ∧ (∀ j, Cert.RealSums.IsReal (m ((c.tc : Thread Cert.KernelIdeal.nD Cert.KernelIdeal.τ).loc Cert.KernelIdeal.main_arg2) j))
    ∧ (∀ j, Cert.RealSums.IsReal (m ((c.tc : Thread Cert.KernelIdeal.nD Cert.KernelIdeal.τ).loc Cert.KernelIdeal.main_arg3) j))
    ∧ (∀ j, Cert.RealSums.IsReal (m ((c.tc : Thread Cert.KernelIdeal.nD Cert.KernelIdeal.τ).loc Cert.KernelIdeal.main_arg4) j))
    ∧ (∀ j, Cert.RealSums.IsReal (m ((c.tc : Thread Cert.KernelIdeal.nD Cert.KernelIdeal.τ).loc Cert.KernelIdeal.main_arg5) j))
    ∧ (∀ j, Cert.RealSums.IsReal (m ((c.tc : Thread Cert.KernelIdeal.nD Cert.KernelIdeal.τ).loc Cert.KernelIdeal.main_arg6) j)) := by
  -- the hypothesis at the one index of the result, with the printed function (both of its parts) opened
  have e := congrFun (hpre c) ValueIdx.ix0
  dsimp only [Cert.Pre_finite_inputs.fn, Cert.Pre_finite_inputs.fn_part1] at e
  -- an 'and' of bits is 1 exactly when both are: seven all-of facts
  simp only [andi, IntOp.andi_eq_one] at e
  obtain ⟨⟨⟨⟨⟨⟨h0, h1⟩, h2⟩, h3⟩, h4⟩, h5⟩, h6⟩ := e
  exact ⟨isReal_of_all_abs_lt_inf _ _ _ _ h0, isReal_of_all_abs_lt_inf _ _ _ _ h1, isReal_of_all_abs_lt_inf _ _ _ _ h2,
    isReal_of_all_abs_lt_inf _ _ _ _ h3, isReal_of_all_abs_lt_inf _ _ _ _ h4, isReal_of_all_abs_lt_inf _ _ _ _ h5,
    isReal_of_all_abs_lt_inf _ _ _ _ h6⟩

end Cert.Gin

end
-- ==== Proof.lean ====
/-
  A three-layer graph network with batch normalisation: the Pallas program against its reference.

  WHAT THE TWO PROGRAMS COMPUTE. The input is a 50000 × 128 array of node features, 640000 edges given as a sender row
  and a receiver row, and for each of three layers two 128 × 128 weights, two biases, a scale and a shift. A layer
  first aggregates: every node adds to its own row the rows of the nodes that send it an edge. Then, on the
  aggregated array z,
      y   = z · w1 + b1,      μ, v = the column means and column variances of y,
      a   = max((y − μ) · rsqrt(v + ε) · γ + β, 0),      out = a · w2 + b2,
  followed by max(·, 0) in every layer but the last. Both programs aggregate on the host with the same gather and
  scatter; they differ in how the rest is arranged. The reference does it with operations on whole arrays and takes
  the variance as the mean of the squared deviations from the mean, each column sum started from a zero. The Pallas
  program runs two kernel calls per layer over ten blocks of 5000 rows — the first forms y block by block and
  accumulates the column sums of y and of y · y, the second normalises and applies the second product — and between
  them, on the host, takes the variance as the mean of the squares minus the square of the mean, cut off below at
  zero.

  WHY THEY AGREE. On the extended reals the two forms of the variance are not the same function (the ring laws fail
  at the infinities), so the claim is made under the precondition that every entry of the seven float arrays is
  finite, which on the extended reals says it is the image of a real number. Every step of a layer keeps real
  entries real: a finite sum, product or difference of reals is real, a quotient by 50000 is, the variance of a real
  column is a real number that is not negative, so the variance plus the positive ε is positive and its reciprocal
  square root is real. On a real column the mean of the squares minus the squared mean IS the mean of the squared
  deviations, it is not negative so the cut-off does nothing, and a sum started from a zero is the bare sum. Hence
  the two arrangements of a layer agree on real inputs, and so do three in a row.

  HOW THE PROOF IS ASSEMBLED. The specification states a layer over plain index types in both arrangements and the
  network as three layers over an unopened aggregation; the laws above are proved there once. The kernel program's
  run ends with its result buffer holding the fold of its twelve segments from the launch memory; that fold is read
  segment by segment — each kernel call by its blocks, each host stretch operation by operation — and equals the
  network in the first arrangement over the kernel program's aggregation. The reference program's run ends with its
  result buffer holding the fold of its operations, which equals the network in the second arrangement over the
  reference's aggregation. The two aggregations are one function, the precondition makes the arguments real, and
  the two networks meet. The three frame claims are the generated frame runs (for the reference, its run read at
  the eight arguments, which no operation writes); the idealization rewrote no operation, so what it preserves is
  trivially true.
-/
import proofs.«168398_j7327214207515_1_alg».proof.Defs
import proofs.«168398_j7327214207515_1_alg».proof.Proof.Gen.Kernel
import proofs.«168398_j7327214207515_1_alg».proof.Proof.Gen.Kernel.Skeleton
import proofs.«168398_j7327214207515_1_alg».proof.Proof.Gen.Kernel.Launch
import proofs.«168398_j7327214207515_1_alg».proof.Proof.Gen.Kernel.Points
import proofs.«168398_j7327214207515_1_alg».proof.Proof.Gen.Kernel.Frame
import proofs.«168398_j7327214207515_1_alg».proof.Proof.Gen.KernelIdeal
import proofs.«168398_j7327214207515_1_alg».proof.Proof.Gen.KernelIdeal.Skeleton
import proofs.«168398_j7327214207515_1_alg».proof.Proof.Gen.KernelIdeal.Launch
import proofs.«168398_j7327214207515_1_alg».proof.Proof.Gen.KernelIdeal.Points
import proofs.«168398_j7327214207515_1_alg».proof.Proof.Gen.KernelIdeal.Frame
import proofs.«168398_j7327214207515_1_alg».proof.Proof.Gen.ReferenceIdeal
import proofs.«168398_j7327214207515_1_alg».proof.Proof.Gen.Pre_finite_inputs
import proofs.«168398_j7327214207515_1_alg».proof.Proof.KRun
import proofs.«168398_j7327214207515_1_alg».proof.Proof.KChain
import proofs.«168398_j7327214207515_1_alg».proof.Proof.RefRunP
import proofs.«168398_j7327214207515_1_alg».proof.Proof.RefValue
import proofs.«168398_j7327214207515_1_alg».proof.Proof.Bridge
import proofs.«168398_j7327214207515_1_alg».proof.Proof.PreReal
import Idealize.ShloMosaic.Adequacy
import Idealize.ShloMosaic.Init

noncomputable section

namespace Cert.Proof

open Idealize.ShloMosaic Idealize.ShloMosaic.TcCoe Idealize.SL.Sem Idealize.ShloMosaic.StableHlo
open Cert.Gin Cert.RealSums

/-! ## The frames -/

theorem frame_k : Cert.frame_Kernel := fun m ρ _ => Cert.Kernel.Gen.frame m ρ

theorem frame_ki : Cert.frame_KernelIdeal := fun m ρ _ => Cert.KernelIdeal.Gen.frame m ρ

/-- The reference's run ends with every buffer at the fold of its operations; no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.ref_args m c).1,
      (h c Cert.ReferenceIdeal.main_arg1).trans (Cert.ReferenceIdeal.RefValue.ref_args m c).2.1,
      (h c Cert.ReferenceIdeal.main_arg2).trans (Cert.ReferenceIdeal.RefValue.ref_args m c).2.2.1,
      (h c Cert.ReferenceIdeal.main_arg3).trans (Cert.ReferenceIdeal.RefValue.ref_args m c).2.2.2.1,
      (h c Cert.ReferenceIdeal.main_arg4).trans (Cert.ReferenceIdeal.RefValue.ref_args m c).2.2.2.2.1,
      (h c Cert.ReferenceIdeal.main_arg5).trans (Cert.ReferenceIdeal.RefValue.ref_args m c).2.2.2.2.2.1,
      (h c Cert.ReferenceIdeal.main_arg6).trans (Cert.ReferenceIdeal.RefValue.ref_args m c).2.2.2.2.2.2.1,
      (h c Cert.ReferenceIdeal.main_arg7).trans (Cert.ReferenceIdeal.RefValue.ref_args m c).2.2.2.2.2.2.2⟩)
    (Cert.ReferenceIdeal.ValueP.run_fold (F := Ideal) m ρ)

/-- The idealization rewrote no operation. -/
theorem preserves : Cert.preserves_Kernel_KernelIdeal := trivial

/-! ## The two results are equal -/

/-- The reference's network over arguments equal to real ones is the kernel program's network over those. -/
theorem result_eq {e e' : IVec Cert.KernelIdeal.S2x640000 32}
    {W1 W1' : (⟨3, ![3, 128, 128]⟩ : Shape).Idx → EReal} {B1 B1' G G' Be Be' : (⟨2, ![3, 128]⟩ : Shape).Idx → EReal}
    {W2 W2' : (⟨3, ![3, 128, 128]⟩ : Shape).Idx → EReal} {B2 B2' : (⟨2, ![3, 128]⟩ : Shape).Idx → EReal}
    {x x' : (⟨2, ![50000, 128]⟩ : Shape).Idx → EReal}
    (gx : x' = x) (gW1 : W1' = W1) (gB1 : B1' = B1) (gG : G' = G) (gBe : Be' = Be) (gW2 : W2' = W2) (gB2 : B2' = B2)
    (ge : e' = e)
    (hx : ∀ j, IsReal (x j)) (hW1 : ∀ j, IsReal (W1 j)) (hB1 : ∀ j, IsReal (B1 j)) (hG : ∀ j, IsReal (G j))
    (hBe : ∀ j, IsReal (Be j)) (hW2 : ∀ j, IsReal (W2 j)) (hB2 : ∀ j, IsReal (B2 j)) :
    netR (Cert.ReferenceIdeal.RefValue.aggR e') W1' B1' G' Be' W2' B2' x'
      = netK (Cert.KernelIdeal.KV.aggK e) W1 B1 G Be W2 B2 x := by
  subst gx gW1 gB1 gG gBe gW2 gB2 ge
  exact (net_bridge _ _ _ _ _ _ _ _ hW1 hB1 hG hBe hW2 hB2 hx).symm

/-- At the ideal instance, from memories that agree on the arguments and finite float arguments, both programs end
    with the network of the arguments in their result buffer and with the arguments as they were. -/
theorem algebraic : Cert.algebraic_KernelIdeal_ReferenceIdeal := by
  intro m ρ m' ρ' hpre hagree
  refine ⟨fun c => netK (Cert.KernelIdeal.KV.aggK (m ((c.tc : Thread Cert.KernelIdeal.nD Cert.KernelIdeal.τ).loc Cert.KernelIdeal.main_arg7)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg0)), ?_, ?_⟩
  · -- the kernel program: its run, with the last boundary's contents at the result buffer read as the network
    exact (θ_run Cert.KernelIdeal.defs _ _).mono
      (fun r h c => ⟨(h c).1.trans (Cert.KernelIdeal.KV.kernel_value m ρ c), (h c).2⟩)
      (Cert.KernelIdeal.KV.run_value (F := Ideal) m ρ)
  · -- the reference program: its run, the fold read as the network over its own arguments, which are the kernel's
    refine (θ_run Cert.ReferenceIdeal.defs _ _).mono (fun r h c => ?_) (Cert.ReferenceIdeal.ValueP.run_fold (F := Ideal) m' ρ')
    obtain ⟨a0, a1, a2, a3, a4, a5, a6, a7⟩ := Cert.ReferenceIdeal.RefValue.ref_args m' c
    obtain ⟨g0, g1, g2, g3, g4, g5, g6, g7⟩ := hagree c
    obtain ⟨r0, r1, r2, r3, r4, r5, r6⟩ := pre_real m hpre c
    refine ⟨?_, (h c Cert.ReferenceIdeal.main_arg0).trans a0, (h c Cert.ReferenceIdeal.main_arg1).trans a1, (h c Cert.ReferenceIdeal.main_arg2).trans a2,
      (h c Cert.ReferenceIdeal.main_arg3).trans a3, (h c Cert.ReferenceIdeal.main_arg4).trans a4, (h c Cert.ReferenceIdeal.main_arg5).trans a5,
      (h c Cert.ReferenceIdeal.main_arg6).trans a6, (h c Cert.ReferenceIdeal.main_arg7).trans a7⟩
    exact (h c Cert.ReferenceIdeal.main_v176).trans ((Cert.ReferenceIdeal.RefValue.ref_value m' c).trans
      (result_eq g0 g1 g2 g3 g4 g5 g6 g7 r0 r1 r2 r3 r4 r5 r6))

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
